-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024 : Shape := ⟨2, ![32, 1024]⟩
abbrev S32x2048x1024 : Shape := ⟨3, ![32, 2048, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S32x1024 : S_.BroadcastsInDim S32x1024 (![] : Fin 0 → Fin S32x1024.rank)
  reducesTo_S32x1024_S_d0_1 : S32x1024.ReducesTo [0, 1] S_
  h_S_ : 0 < S_.numel
  bcast_S_S32x2048x1024 : S_.BroadcastsInDim S32x2048x1024 (![] : Fin 0 → Fin S32x2048x1024.rank)
  reducesTo_S32x2048x1024_S_d0_1_2 : S32x2048x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1024x1 .f32) (main_arg8 : FVec F S1 .f32) (main_v33 : IVec S_ 1) : IVec S_ 1 :=
  let main_v34 : FVec F S1024x1 .f32 := Host.absf main_arg7
  let main_cst_12 : FVec F S_ .f32 := constant S_ .f32 0x7F800000#32
  let main_v35 : FVec F S1024x1 .f32 := broadcastInDim S1024x1 ![] bcast_S_S1024x1 main_cst_12
  let main_v36 : IVec S1024x1 1 := cmpf .olt main_v34 main_v35
  let main_c_13 : IVec S_ 1 := constantI S_ 1 1#1
  let main_v37 : IVec S_ 1 := (fun x v => Host.reduce IntOp.andi x v reducesTo_S1024x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1 .f32) (main_arg8 : FVec F S1 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S32x1024 .f32) (main_arg1 : FVec F S32x2048x1024 .f32) (main_arg2 : FVec F S32x2048x1024 .f32) (main_arg3 : FVec F S1024x1024 .f32) (main_arg4 : FVec F S1024 .f32) (main_arg5 : FVec F S1024x1024 .f32) (main_arg6 : FVec F S1024 .f32) (main_arg7 : FVec F S1024x1 .f32) (main_arg8 : FVec F S1 .f32) : IVec S_ 1 :=
  let main_v0 : FVec F S32x1024 .f32 := Host.absf main_arg0
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_c : IVec S_ 1 := constantI S_ 1 1#1
  let main_v3 : IVec S_ 1 := (fun x v => Host.reduce IntOp.andi x v reducesTo_S32x1024_S_d0_1 h_S_) main_v2 main_c
  let main_v4 : FVec F S32x2048x1024 .f32 := Host.absf main_arg1
  let main_cst_0 : FVec F S_ .f32 := constant S_ .f32 0x7F800000#32
  let main_v5 : FVec F S32x2048x1024 .f32 := broadcastInDim S32x2048x1024 ![] bcast_S_S32x2048x1024 main_cst_0
  let main_v6 : IVec S32x2048x1024 1 := cmpf .olt main_v4 main_v5
  let main_c_1 : IVec S_ 1 := constantI S_ 1 1#1
  let main_v7 : IVec S_ 1 := (fun x v => Host.reduce IntOp.andi x v reducesTo_S32x2048x1024_S_d0_1_2 h_S_) main_v6 main_c_1
  let main_v8 : IVec S_ 1 := andi main_v3 main_v7
  let main_v9 : FVec F S32x2048x1024 .f32 := Host.absf main_arg2
  let main_cst_2 : FVec F S_ .f32 := constant S_ .f32 0x7F800000#32
  let main_v10 : FVec F S32x2048x1024 .f32 := broadcastInDim S32x2048x1024 ![] bcast_S_S32x2048x1024 main_cst_2
  let main_v11 : IVec S32x2048x1024 1 := cmpf .olt main_v9 main_v10
  let main_c_3 : IVec S_ 1 := constantI S_ 1 1#1
  let main_v12 : IVec S_ 1 := (fun x v => Host.reduce IntOp.andi x v reducesTo_S32x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S32x1024 : Shape := ⟨2, ![32, 1024]⟩
abbrev S32x2048x1024 : Shape := ⟨3, ![32, 2048, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1x1024 : Shape := ⟨3, ![1, 1, 1024]⟩
abbrev S1x1 : Shape := ⟨2, ![1, 1]⟩
abbrev S32x1x1024 : Shape := ⟨3, ![32, 1, 1024]⟩
abbrev S32x2048x1 : Shape := ⟨3, ![32, 2048, 1]⟩
abbrev S1x512x1024 : Shape := ⟨3, ![1, 512, 1024]⟩
abbrev S1x512x1 : Shape := ⟨3, ![1, 512, 1]⟩
abbrev S1x1024 : Shape := ⟨2, ![1, 1024]⟩
abbrev S512x1024 : Shape := ⟨2, ![512, 1024]⟩
abbrev S512x1 : Shape := ⟨2, ![512, 1]⟩
abbrev S_ : Shape := ⟨0, ![]⟩
abbrev S32x1 : Shape := ⟨2, ![32, 1]⟩
abbrev S32x1x1 : Shape := ⟨3, ![32, 1, 1]⟩

abbrev nBuf : Space → Nat
  | .hbm => 32
  | .vmem => 19
  | .smem => 0
  | _ => 0

abbrev bufTy : (tb : Table) → Fin (tcTables nBuf tb) → BufTy
  | .hbm, ⟨0, _⟩ => ⟨S32x1024, .f32⟩
  | .hbm, ⟨1, _⟩ => ⟨S32x2048x1024, .f32⟩
  | .hbm, ⟨2, _⟩ => ⟨S32x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1, .f32⟩
  | .hbm, ⟨8, _⟩ => ⟨S1, .f32⟩
  | .hbm, ⟨9, _⟩ => ⟨S1024x1024, .bf16⟩
  | .hbm, ⟨10, _⟩ => ⟨S1024x1024, .bf16⟩
  | .hbm, ⟨11, _⟩ => ⟨S1024x1, .bf16⟩
  | .hbm, ⟨12, _⟩ => ⟨S1x1x1024, .f32⟩
  | .hbm, ⟨13, _⟩ => ⟨S1x1x1024, .f32⟩
  | .hbm, ⟨14, _⟩ => ⟨S1x1, .f32⟩
  | .hbm, ⟨15, _⟩ => ⟨S32x1x1024, .f32⟩
  | .hbm, ⟨16, _⟩ => ⟨S32x2048x1, .f32⟩
  | .hbm, ⟨17, _⟩ => ⟨S_, .f32⟩
  | .hbm, ⟨18, _⟩ => ⟨S32x1, .f32⟩
  | .hbm, ⟨19, _⟩ => ⟨S_, .f32⟩
  | .hbm, ⟨20, _⟩ => ⟨S32x1, .f32⟩
  | .hbm, ⟨21, _⟩ => ⟨S32x1, .f32⟩
  | .hbm, ⟨22, _⟩ => ⟨S32x1x1, .f32⟩
  | .hbm, ⟨23, _⟩ => ⟨S32x2048x1, .f32⟩
  | .hbm, ⟨24, _⟩ => ⟨S32x2048x1, .f32⟩
  | .hbm, ⟨25, _⟩ => ⟨S32x2048x1, .f32⟩
  | .hbm, ⟨26, _⟩ => ⟨S_, .f32⟩
  | .hbm, ⟨27, _⟩ => ⟨S32x1, .f32⟩
  | .hbm, ⟨28, _⟩ => ⟨S32x1x1, .f32⟩
  | .hbm, ⟨29, _⟩ => ⟨S32x2048x1, .f32⟩
  | .hbm, ⟨30, _⟩ => ⟨S32x2048x1, .f32⟩
  | .hbm, ⟨31, _⟩ => ⟨S32x1x1024, .f32⟩
  | .local _ .vmem, ⟨0, _⟩ => ⟨S1x1x1024, .f32⟩
  | .local _ .vmem, ⟨1, _⟩ => ⟨S1x1x1024, .f32⟩
  | .local _ .vmem, ⟨2, _⟩ => ⟨S1x512x1024, .f32⟩
  | .local _ .vmem, ⟨3, _⟩ => ⟨S1x512x1024, .f32⟩
  | .local _ .vmem, ⟨4, _⟩ => ⟨S1024x1024, .bf16⟩
  | .local _ .vmem, ⟨5, _⟩ => ⟨S1x1x1024, .f32⟩
  | .local _ .vmem, ⟨6, _⟩ => ⟨S1024x1024, .bf16⟩
  | .local _ .vmem, ⟨7, _⟩ => ⟨S1x1x1024, .f32⟩
  | .local _ .vmem, ⟨8, _⟩ => ⟨S1024x1, .bf16⟩
  | .local _ .vmem, ⟨9, _⟩ => ⟨S1x1, .f32⟩
  | .local _ .vmem, ⟨10, _⟩ => ⟨S1x512x1, .f32⟩
  | .local _ .vmem, ⟨11, _⟩ => ⟨S1x512x1, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1, .f32⟩
  | .local _ .vmem, ⟨15, _⟩ => ⟨S1x512x1, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![32, 4], ![false, false]⟩

def k1_cond2 (i : grid1.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_12 : BitVec 32 := 0#32
  let v19 : BitVec 1 := Scalar.cmpi .ne v18 c0_i32_12
  v19

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  bitsLt_bf16_f32 : FTy.bits .bf16 < FTy.bits .f32
  shapeCasts_S1024_S1x1x1024 : S1024.ShapeCasts S1x1x1024
  shapeCasts_S1_S1x1 : S1.ShapeCasts S1x1
  bcast_S32x1024_S32x1x1024_0_2 : S32x1024.BroadcastsInDim S32x1x1024 (![0, 2] : Fin 2 → Fin S32x1x1024.rank)
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  broadcasts_S1x1024_S512x1024 : S1x1024.Broadcasts S512x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  reducesTo_S32x2048x1_S32x1_d1 : S32x2048x1.ReducesTo [1] S32x1
  h_S_ : 0 < S_.numel
  bcast_S_S32x1 : S_.BroadcastsInDim S32x1 (![] : Fin 0 → Fin S32x1.rank)
  bcast_S32x1_S32x1x1_0_2 : S32x1.BroadcastsInDim S32x1x1 (![0, 2] : Fin 2 → Fin S32x1x1.rank)
  bcast_S32x1x1_S32x2048x1_0_1_2 : S32x1x1.BroadcastsInDim S32x2048x1 (![0, 1, 2] : Fin 3 → Fin S32x2048x1.rank)
  shapeCasts_S1x1x1024_S1x1x1024 : S1x1x1024.ShapeCasts S1x1x1024
  broadcasts_S512x1_S512x1024 : S512x1.Broadcasts S512x1024
  reduces_S512x1024_S1024 : S512x1024.Reduces [0] S1024
  shapeCasts_S1024_S1x1024 : S1024.ShapeCasts S1x1024
  shapeCasts_S1x1024_S1x1x1024 : S1x1024.ShapeCasts S1x1x1024
  dot_S1x1024_S1024x1024_S1x1024_1_0_0_1_n_n_wf : DotDims.WF S1x1024 S1024x1024 S1x1024 [1] [0] [0] [1] [] []
  dot_S512x1024_S1024x1024_S512x1024_1_0_0_1_n_n_wf : DotDims.WF S512x1024 S1024x1024 S512x1024 [1] [0] [0] [1] [] []
  dot_S512x1024_S1024x1_S512x1_1_0_0_1_n_n_wf : DotDims.WF S512x1024 S1024x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024.size a ≤ S32x1x1024.size a
  hwx0_0 : ∀ i : grid0.Coords, EltTy.bits .f32 = 32 ∨ (Rect.block (s := S32x1x1024) S1x1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S32x2048x1024.size a
  hwx0_1 : ∀ i : grid0.Coords, EltTy.bits .f32 = 32 ∨ (Rect.block (s := S32x2048x1024) S1x512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S1x1x1024.size a
  hwx0_3 : ∀ i : grid0.Coords, EltTy.bits .f32 = 32 ∨ (Rect.block (s := S1x1x1024) S1x1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S1x1x1024.size a
  hwx0_5 : ∀ i : grid0.Coords, EltTy.bits .f32 = 32 ∨ (Rect.block (s := S1x1x1024) S1x1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S1024x1.size a
  hwx0_6 : ∀ i : grid0.Coords, EltTy.bits .bf16 = 32 ∨ (Rect.block (s := S1024x1) S1024x1.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x1.size a ≤ S32x2048x1.size a
  hwx0_8 : ∀ i : grid0.Coords, EltTy.bits .f32 = 32 ∨ (Rect.block (s := S32x2048x1) S1x512x1.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S32x2048x1024.size a
  hwx1_0 : ∀ i : grid1.Coords, EltTy.bits .f32 = 32 ∨ (Rect.block (s := S32x2048x1024) S1x512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1.size a ≤ S32x2048x1.size a
  hwx1_1 : ∀ i : grid1.Coords, EltTy.bits .f32 = 32 ∨ (Rect.block (s := S32x2048x1) S1x512x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024.size a ≤ S32x1x1024.size a
  hwx1_2 : ∀ i : grid1.Coords, EltTy.bits .f32 = 32 ∨ (Rect.block (s := S32x1x1024) S1x1x1024.size (cc1_transform_2 i) (hinb1_2 i)).WholeWords (EltTy.packing .f32)

variable [Facts₀]

def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x1_S512x1_1_0_0_1_n_n : DotDims S512x1024 S1024x1 S512x1 where
  lhsContracting := [1]
  rhsContracting := [0]
  lhsNonContracting := [0]
  rhsNonContracting := [1]
  lhsBatch := []
  rhsBatch := []
  wf := dot_S512x1024_S1024x1_S512x1_1_0_0_1_n_n_wf

abbrev win0_0 : Pipeline.Window sig grid0 :=
  Pipeline.Window.ofSpec (Memref.whole main_v6) S1x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1024x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x512x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg2) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x1x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S32x1024 : Shape := ⟨2, ![32, 1024]⟩
abbrev S32x2048x1024 : Shape := ⟨3, ![32, 2048, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1024 : Shape := ⟨2, ![1, 1024]⟩
abbrev S32x1x1024 : Shape := ⟨3, ![32, 1, 1024]⟩
abbrev S1x1x1024 : Shape := ⟨3, ![1, 1, 1024]⟩
abbrev S32x2048x1 : Shape := ⟨3, ![32, 2048, 1]⟩
abbrev S1x1x1 : Shape := ⟨3, ![1, 1, 1]⟩
abbrev S_ : Shape := ⟨0, ![]⟩
abbrev S32x1 : Shape := ⟨2, ![32, 1]⟩
abbrev S32x1x1 : Shape := ⟨3, ![32, 1, 1]⟩

abbrev nBuf : Space → Nat
  | .hbm => 44
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x2048x1024, .f32⟩
  | .hbm, ⟨2, _⟩ => ⟨S32x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1, .f32⟩
  | .hbm, ⟨8, _⟩ => ⟨S1, .f32⟩
  | .hbm, ⟨9, _⟩ => ⟨S32x1024, .f32⟩
  | .hbm, ⟨10, _⟩ => ⟨S1x1024, .f32⟩
  | .hbm, ⟨11, _⟩ => ⟨S32x1024, .f32⟩
  | .hbm, ⟨12, _⟩ => ⟨S32x1024, .f32⟩
  | .hbm, ⟨13, _⟩ => ⟨S32x1x1024, .f32⟩
  | .hbm, ⟨14, _⟩ => ⟨S32x2048x1024, .f32⟩
  | .hbm, ⟨15, _⟩ => ⟨S1x1x1024, .f32⟩
  | .hbm, ⟨16, _⟩ => ⟨S32x2048x1024, .f32⟩
  | .hbm, ⟨17, _⟩ => ⟨S32x2048x1024, .f32⟩
  | .hbm, ⟨18, _⟩ => ⟨S32x2048x1024, .f32⟩
  | .hbm, ⟨19, _⟩ => ⟨S32x2048x1024, .f32⟩
  | .hbm, ⟨20, _⟩ => ⟨S32x2048x1024, .f32⟩
  | .hbm, ⟨21, _⟩ => ⟨S32x2048x1, .f32⟩
  | .hbm, ⟨22, _⟩ => ⟨S1x1x1, .f32⟩
  | .hbm, ⟨23, _⟩ => ⟨S32x2048x1, .f32⟩
  | .hbm, ⟨24, _⟩ => ⟨S32x2048x1, .f32⟩
  | .hbm, ⟨25, _⟩ => ⟨S_, .f32⟩
  | .hbm, ⟨26, _⟩ => ⟨S32x1, .f32⟩
  | .hbm, ⟨27, _⟩ => ⟨S_, .f32⟩
  | .hbm, ⟨28, _⟩ => ⟨S32x1, .f32⟩
  | .hbm, ⟨29, _⟩ => ⟨S32x1, .f32⟩
  | .hbm, ⟨30, _⟩ => ⟨S32x1x1, .f32⟩
  | .hbm, ⟨31, _⟩ => ⟨S32x2048x1, .f32⟩
  | .hbm, ⟨32, _⟩ => ⟨S32x2048x1, .f32⟩
  | .hbm, ⟨33, _⟩ => ⟨S32x2048x1, .f32⟩
  | .hbm, ⟨34, _⟩ => ⟨S_, .f32⟩
  | .hbm, ⟨35, _⟩ => ⟨S32x1, .f32⟩
  | .hbm, ⟨36, _⟩ => ⟨S32x1x1, .f32⟩
  | .hbm, ⟨37, _⟩ => ⟨S32x2048x1, .f32⟩
  | .hbm, ⟨38, _⟩ => ⟨S32x2048x1, .f32⟩
  | .hbm, ⟨39, _⟩ => ⟨S32x2048x1024, .f32⟩
  | .hbm, ⟨40, _⟩ => ⟨S32x2048x1024, .f32⟩
  | .hbm, ⟨41, _⟩ => ⟨S_, .f32⟩
  | .hbm, ⟨42, _⟩ => ⟨S32x1024, .f32⟩
  | .hbm, ⟨43, _⟩ => ⟨S32x1x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  bcast_S32x1024_S32x1x1024_0_2 : S32x1024.BroadcastsInDim S32x1x1024 (![0, 2] : Fin 2 → Fin S32x1x1024.rank)
  bcast_S1024_S1x1x1024_2 : S1024.BroadcastsInDim S1x1x1024 (![2] : Fin 1 → Fin S1x1x1024.rank)
  bcast_S1x1x1024_S32x2048x1024_0_1_2 : S1x1x1024.BroadcastsInDim S32x2048x1024 (![0, 1, 2] : Fin 3 → Fin S32x2048x1024.rank)
  bcast_S32x1x1024_S32x2048x1024_0_1_2 : S32x1x1024.BroadcastsInDim S32x2048x1024 (![0, 1, 2] : Fin 3 → Fin S32x2048x1024.rank)
  bcast_S1_S1x1x1_2 : S1.BroadcastsInDim S1x1x1 (![2] : Fin 1 → Fin S1x1x1.rank)
  bcast_S1x1x1_S32x2048x1_0_1_2 : S1x1x1.BroadcastsInDim S32x2048x1 (![0, 1, 2] : Fin 3 → Fin S32x2048x1.rank)
  reducesTo_S32x2048x1_S32x1_d1 : S32x2048x1.ReducesTo [1] S32x1
  h_S_ : 0 < S_.numel
  bcast_S_S32x1 : S_.BroadcastsInDim S32x1 (![] : Fin 0 → Fin S32x1.rank)
  bcast_S32x1_S32x1x1_0_2 : S32x1.BroadcastsInDim S32x1x1 (![0, 2] : Fin 2 → Fin S32x1x1.rank)
  bcast_S32x1x1_S32x2048x1_0_1_2 : S32x1x1.BroadcastsInDim S32x2048x1 (![0, 1, 2] : Fin 3 → Fin S32x2048x1.rank)
  bcast_S32x2048x1_S32x2048x1024_0_1_2 : S32x2048x1.BroadcastsInDim S32x2048x1024 (![0, 1, 2] : Fin 3 → Fin S32x2048x1024.rank)
  reducesTo_S32x2048x1024_S32x1024_d1 : S32x2048x1024.ReducesTo [1] S32x1024
  dot_S32x1024_S1024x1024_S32x1024_1_0_0_1_n_n_wf : DotDims.WF S32x1024 S1024x1024 S32x1024 [1] [0] [0] [1] [] []
  dot_S32x2048x1024_S1024x1024_S32x2048x1024_2_0_01_1_n_n_wf : DotDims.WF S32x2048x1024 S1024x1024 S32x2048x1024 [2] [0] [0, 1] [1] [] []
  dot_S32x2048x1024_S1024x1_S32x2048x1_2_0_01_1_n_n_wf : DotDims.WF S32x2048x1024 S1024x1 S32x2048x1 [2] [0] [0, 1] [1] [] []

variable [Facts₀]

def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf
def dot_S32x2048x1024_S1024x1024_S32x2048x1024_2_0_01_1_n_n : DotDims S32x2048x1024 S1024x1024 S32x2048x1024 where
  lhsContracting := [2]
  rhsContracting := [0]
  lhsNonContracting := [0, 1]
  rhsNonContracting := [1]
  lhsBatch := []
  rhsBatch := []
  wf := dot_S32x2048x1024_S1024x1024_S32x2048x1024_2_0_01_1_n_n_wf
def dot_S32x2048x1024_S1024x1_S32x2048x1_2_0_01_1_n_n : DotDims S32x2048x1024 S1024x1 S32x2048x1 where
  lhsContracting := [2]
  rhsContracting := [0]
  lhsNonContracting := [0, 1]
  rhsNonContracting := [1]
  lhsBatch := []
  rhsBatch := []
  wf := dot_S32x2048x1024_S1024x1_S32x2048x1_2_0_01_1_n_n_wf

class Facts : Prop extends Facts₀ where

variable [Facts]
-- ==== Proof.Run.lean ====
/-
  The whole program as a run of four segments — seven host operations, the scores kernel's region, the fourteen
  host operations of the softmax, the context kernel's region — given, for each region, proof data at the buffer
  contents the region is entered from: which arrays it stages, what its body leaves at each grid point, an
  invariant that starts and ends at "every scoped buffer the region does not stage holds something, the generator
  register is at some state", and the body's obligation at every point.

  The contents of a core's buffers at the five boundaries are a fold from the launch memory: a host stretch
  applies its operations; a region replaces each array it stages by what the pipeline's write-backs leave in it
  and keeps every other buffer.  Every weakly fair execution terminates and the final memory holds every unscoped
  buffer at the last of these contents; read at the argument arrays this is the frame claim (no stretch and no
  region writes an argument), and read at the two result arrays it is what the value claim is stated over.
-/
import proofs.«116499_j36532991820656_1_alg».proof.Proof.Gen.KernelIdeal.Launch
import proofs.«116499_j36532991820656_1_alg».proof.Proof.Gen.KernelIdeal.Skeleton
import proofs.«116499_j36532991820656_1_alg».proof.Proof.Gen.KernelIdeal.Points
import proofs.«116499_j36532991820656_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's TensorCore buffers' contents, core by core: what a region is entered from. -/
abbrev Entry (F : FTy → Type) [FloatOps F] : Type :=
  (c : Dev nD) → (b : Ref sig .tc) → Buf (Elt F) ((c : Thread nD τ).loc b)

/-- What the run takes of the two regions: proof data at any entry contents, reading its arrays off them, at full
    shares, owing nothing, with the body's obligation, and an invariant entered from and left at the plain one. -/
structure Halves (F : FTy → Type) [FloatOps F] where
  D0 : Entry F → (c : Dev nD) → Dat τ (Elt F) Unit ℕ (UR sig nD τ) ℕ cfg0 c
  D1 : Entry F → (c : Dev nD) → Dat τ (Elt F) Unit ℕ (UR sig nD τ) ℕ cfg1 c
  hA0 : ∀ V c w, (D0 V c).A w = V c (Pipeline.arrRef spec0 w)
  hA1 : ∀ V c w, (D1 V c).A w = V c (Pipeline.arrRef spec1 w)
  hq0 : ∀ V c w, (D0 V c).q w = fullShare
  hq1 : ∀ V c w, (D1 V c).q w = fullShare
  ho0 : ∀ V c t, (D0 V c).owed t = 0
  ho1 : ∀ V c t, (D1 V c).owed t = 0
  hr0 : ∀ V c t, (D0 V c).recorded t = Set.univ
  hr1 : ∀ V c t, (D1 V c).recorded t = Set.univ
  hb0 : ∀ V c, BodyObligation (D0 V c) (defs₀ (F := F)) Variants.none () Set.univ
  hb1 : ∀ V c, BodyObligation (D1 V c) (defs₀ (F := F)) Variants.none () Set.univ
  hin0 : ∀ V c, (Pipeline.ΦA spec0 c : sProp (MT nD τ sig Unit (Elt F) ℕ (UR sig nD τ) ℕ)) ⊢ (D0 V c).Φ 0
  hout0 : ∀ V c, (D0 V c).Φ (Fin.last cfg0.N) ⊢ (Pipeline.ΦA spec0 c : sProp (MT nD τ sig Unit (Elt F) ℕ (UR sig nD τ) ℕ))
  hin1 : ∀ V c, (Pipeline.ΦA spec1 c : sProp (MT nD τ sig Unit (Elt F) ℕ (UR sig nD τ) ℕ)) ⊢ (D1 V c).Φ 0
  hout1 : ∀ V c, (D1 V c).Φ (Fin.last cfg1.N) ⊢ (Pipeline.ΦA spec1 c : sProp (MT nD τ sig Unit (Elt F) ℕ (UR sig nD τ) ℕ))

variable (H : Halves F) (m : (ℓ : Loc nD τ sig) → Buf (Elt F) ℓ) (ρ : Dev nD → PrngReg)

/-! ## The buffers' contents at the five boundaries -/

/-- At launch. -/
abbrev W0 : Dev nD → Valuation τ sig (Elt F) := fun c b => (s₀ m ρ).mem ((c : Dev nD), b)
/-- After the first host stretch: what the scores region is entered from. -/
abbrev W1 : Dev nD → Valuation τ sig (Elt F) := fun c => StableHlo.after hostOps0 (W0 m ρ c)
abbrev V1 : Entry F := fun c b => W1 m ρ c b
/-- After the scores region: its arrays at what its write-backs leave, every other buffer as entered. -/
def W2 (c : Dev nD) : Valuation τ sig (Elt F) :=
  Pipeline.withArrays spec0 c (W1 m ρ c) fun w => (H.D0 (V1 m ρ) c).arrAt w cfg0.N
theorem W2_arr (c : Dev nD) (w : Fin cfg0.W) :
    W2 H m ρ c (Proc.devRef .tc (Pipeline.arrRef spec0 w)) = (H.D0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 H m ρ c (Proc.devRef .tc b) = W1 m ρ c (Proc.devRef .tc b) := by
  unfold W2; exact Pipeline.withArrays_of_ne spec0 c _ _ b hb
abbrev V2 : Entry F := fun c b => W2 H m ρ c b
theorem hF0 (c : Dev nD) (w : Fin cfg0.W) : (H.D0 (V1 m ρ) c).arrAt w cfg0.N = V2 H m ρ c (Pipeline.arrRef spec0 w) :=
  (W2_arr H m ρ c w).symm
theorem hrest0 (c : Dev nD) : ∀ b, b ∉ Finset.univ.image (Pipeline.arrRef spec0) → V2 H m ρ c b = V1 m ρ c b :=
  fun b hb => W2_of_ne H m ρ c b fun w e => hb (Finset.mem_image.mpr ⟨w, Finset.mem_univ _, e⟩)

/-- After the softmax's host stretch: what the context region is entered from. -/
abbrev W3 : Dev nD → Valuation τ sig (Elt F) := fun c => StableHlo.after hostOps1 (W2 H m ρ c)
abbrev V3 : Entry F := fun c b => W3 H m ρ c b
/-- After the context region. -/
def W4 (c : Dev nD) : Valuation τ sig (Elt F) :=
  Pipeline.withArrays spec1 c (W3 H m ρ c) fun w => (H.D1 (V3 H m ρ) c).arrAt w cfg1.N
theorem W4_arr (c : Dev nD) (w : Fin cfg1.W) :
    W4 H m ρ c (Proc.devRef .tc (Pipeline.arrRef spec1 w)) = (H.D1 (V3 H m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 H m ρ c (Proc.devRef .tc b) = W3 H m ρ c (Proc.devRef .tc b) := by
  unfold W4; exact Pipeline.withArrays_of_ne spec1 c _ _ b hb
abbrev V4 : Entry F := fun c b => W4 H m ρ c b
theorem hF1 (c : Dev nD) (w : Fin cfg1.W) : (H.D1 (V3 H m ρ) c).arrAt w cfg1.N = V4 H m ρ c (Pipeline.arrRef spec1 w) :=
  (W4_arr H m ρ c w).symm
theorem hrest1 (c : Dev nD) : ∀ b, b ∉ Finset.univ.image (Pipeline.arrRef spec1) → V4 H m ρ c b = V3 H m ρ c b :=
  fun b hb => W4_of_ne H m ρ c b fun w e => hb (Finset.mem_image.mpr ⟨w, Finset.mem_univ _, e⟩)

/-! ## A buffer that nothing writes keeps its contents -/

/-- No operation of the first stretch writes `b`. -/
theorem W1_keep (c : Dev nD) (b : Ref sig .tc) (h : b ∉ hostOps0_W) : W1 m ρ c (Proc.devRef .tc b) = W0 m ρ c (Proc.devRef .tc b) :=
  StableHlo.after_of_writes_sub hostOps0 _ hostOps0_writes h
/-- No operation of the second stretch writes `b`. -/
theorem W3_keep (c : Dev nD) (b : Ref sig .tc) (h : b ∉ hostOps1_W) : W3 H m ρ c (Proc.devRef .tc b) = W2 H m ρ c (Proc.devRef .tc b) :=
  StableHlo.after_of_writes_sub hostOps1 _ hostOps1_writes h

/-- An argument array that neither region stages reaches the end as launched. -/
theorem W4_unstaged (c : Dev nD) (b : Ref sig .tc) (h1 : ∀ w, Pipeline.arrRef spec1 w ≠ b) (h3 : b ∉ hostOps1_W)
    (h0 : ∀ w, Pipeline.arrRef spec0 w ≠ b) (h2 : b ∉ hostOps0_W) :
    W4 H m ρ c (Proc.devRef .tc b) = m ((c : Thread nD τ).loc b) :=
  (W4_of_ne H m ρ c b h1).trans <| (W3_keep H m ρ c b h3).trans <| (W2_of_ne H m ρ c b h0).trans <| (W1_keep m ρ c b h2).trans rfl

theorem W4_main_arg0 (c : Dev nD) : W4 H m ρ c (Proc.devRef .tc main_arg0) = m ((c : Thread nD τ).loc main_arg0) :=
  W4_unstaged H m ρ c main_arg0 (by decide) (by decide) (by decide) (by decide)
theorem W4_main_arg3 (c : Dev nD) : W4 H m ρ c (Proc.devRef .tc main_arg3) = m ((c : Thread nD τ).loc main_arg3) :=
  W4_unstaged H m ρ c main_arg3 (by decide) (by decide) (by decide) (by decide)
theorem W4_main_arg4 (c : Dev nD) : W4 H m ρ c (Proc.devRef .tc main_arg4) = m ((c : Thread nD τ).loc main_arg4) :=
  W4_unstaged H m ρ c main_arg4 (by decide) (by decide) (by decide) (by decide)
theorem W4_main_arg5 (c : Dev nD) : W4 H m ρ c (Proc.devRef .tc main_arg5) = m ((c : Thread nD τ).loc main_arg5) :=
  W4_unstaged H m ρ c main_arg5 (by decide) (by decide) (by decide) (by decide)
theorem W4_main_arg6 (c : Dev nD) : W4 H m ρ c (Proc.devRef .tc main_arg6) = m ((c : Thread nD τ).loc main_arg6) :=
  W4_unstaged H m ρ c main_arg6 (by decide) (by decide) (by decide) (by decide)
theorem W4_main_arg7 (c : Dev nD) : W4 H m ρ c (Proc.devRef .tc main_arg7) = m ((c : Thread nD τ).loc main_arg7) :=
  W4_unstaged H m ρ c main_arg7 (by decide) (by decide) (by decide) (by decide)
theorem W4_main_arg8 (c : Dev nD) : W4 H m ρ c (Proc.devRef .tc main_arg8) = m ((c : Thread nD τ).loc main_arg8) :=
  W4_unstaged H m ρ c main_arg8 (by decide) (by decide) (by decide) (by decide)
/-- The keys are the scores region's input window 1: staged, read, never written back. -/
theorem W4_main_arg1 (c : Dev nD) : W4 H m ρ c (Proc.devRef .tc main_arg1) = m ((c : Thread nD τ).loc main_arg1) :=
  (W4_of_ne H m ρ c main_arg1 (by decide)).trans <| (W3_keep H m ρ c main_arg1 (by decide)).trans <|
    ((W2_arr H m ρ c 1).trans (((H.D0 (V1 m ρ) c).arrAt_in 1 rfl _).trans (H.hA0 (V1 m ρ) c 1))).trans <|
    (W1_keep m ρ c main_arg1 (by decide)).trans rfl
/-- The values are the context region's input window 0. -/
theorem W4_main_arg2 (c : Dev nD) : W4 H m ρ c (Proc.devRef .tc main_arg2) = m ((c : Thread nD τ).loc main_arg2) :=
  ((W4_arr H m ρ c 0).trans (((H.D1 (V3 H m ρ) c).arrAt_in 0 rfl _).trans (H.hA1 (V3 H m ρ) c 0))).trans <|
    (W3_keep H m ρ c main_arg2 (by decide)).trans <| (W2_of_ne H m ρ c main_arg2 (by decide)).trans <|
    (W1_keep m ρ c main_arg2 (by decide)).trans rfl

/-! ## The two results at the end -/

/-- The context array ends at what the context region's write-backs leave in it. -/
theorem W4_main_v19 (c : Dev nD) : W4 H m ρ c (Proc.devRef .tc main_v19) = (H.D1 (V3 H m ρ) c).arrAt 2 cfg1.N :=
  W4_arr H m ρ c 2
/-- The attention weights are the context region's input window 1: they end as the softmax stretch left them. -/
theorem W4_main_v18 (c : Dev nD) : W4 H m ρ c (Proc.devRef .tc main_v18) = W3 H m ρ c (Proc.devRef .tc main_v18) :=
  (W4_arr H m ρ c 1).trans (((H.D1 (V3 H m ρ) c).arrAt_in 1 rfl _).trans (H.hA1 (V3 H m ρ) c 1))
/-- The scores array, as the softmax stretch finds it, is what the scores region's write-backs leave in it. -/
theorem W2_main_v7 (c : Dev nD) : W2 H m ρ c (Proc.devRef .tc main_v7) = (H.D0 (V1 m ρ) c).arrAt 8 cfg0.N :=
  W2_arr H m ρ c 8

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => H.D0 (V1 m ρ) c
  | ⟨1, _⟩ => fun c => H.D1 (V3 H m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 H m ρ c) ∗ ∃ r, prngReg c r)

/-! ## The regions as segments -/

set_option backward.isDefEq.respectTransparency.types false in
/-- The scores region: entered from every unscoped buffer at `W1`, left at `W2`. -/
def reg0 : Pipeline.RegionSeg (pcfgs (F := F)) adm (pdats H m ρ) () defs₀ 𝒱₀ L lv 0 where
  win := launch0.win.to₀
  block_pos := launch0.block_pos
  stage_whole := launch0.stage_whole
  K := PEmpty
  osem k := k.elim
  ho := Pipeline.OwnSemFacts.none _
  hbody c := (H.hb0 (V1 m ρ) c).loose
  hwaits := Pipeline.hwaits_of_owed_zero _ _ _ _ L lv 0 fun c t => H.ho0 (V1 m ρ) c t
  pre c := iprop(StableHlo.held (c : Thread nD τ) (Pipeline.ucRefs τ sig) (W1 m ρ c) ∗ R c)
  post c := iprop(StableHlo.held (c : Thread nD τ) (Pipeline.ucRefs τ sig) (W2 H m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats H m ρ) launch0.win launch0.arr_whole c
      ((pdats H m ρ 0 c).share_full fun w => H.hq0 (V1 m ρ) c w) (V1 m ρ c) fun w => H.hA0 (V1 m ρ) c w
    rw [Pipeline.unscopedBufs_held] at hsplit
    iintro ⟨⟨Hub, Hp, HO⟩, -, -⟩
    ihave Hs := hsplit $$ Hub
    icases Hs with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      simp only [show (pdats H m ρ 0 c).owed = fun _ => 0 from funext fun t => H.ho0 (V1 m ρ) c t]
      icases HO with ⟨%W, HO⟩; iexists W; isplitr
      · ipureintro; exact fun x _ => Or.inl (by rw [show (pdats H m ρ 0 c).recorded 0 = Set.univ from H.hr0 (V1 m ρ) c 0]; trivial)
      iexact HO
    isplitl [Hp]; · iexact Hp
    iexact Hrest
  hin c := by
    refine BIBase.Entails.trans ?_ (H.hin0 (V1 m ρ) c)
    unfold Pipeline.ΦA
    iintro ⟨Hp, -, Hr⟩
    isplitl [Hr]; · iexact Hr
    iexact Hp
  hout c := by
    rw [Pipeline.ownSems0_none]
    refine BIBase.Entails.trans (H.hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats H m ρ) ((pdats H m ρ 0 c).share_full fun w => H.hq0 (V1 m ρ) c w)
      (V1 m ρ c) (V2 H m ρ c) ((pdats H m ρ 0 c).arrAt · cfg0.N) (hF0 H m ρ c) (hrest0 H m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    simp only [show (pdats H m ρ 0 c).owed = fun _ => 0 from funext fun t => H.ho0 (V1 m ρ) c t]
    icases HO with ⟨%W, -, HO⟩; iexists W; iexact HO

set_option backward.isDefEq.respectTransparency.types false in
/-- The context region: entered from every unscoped buffer at `W3`, left at `W4`. -/
def reg1 : Pipeline.RegionSeg (pcfgs (F := F)) adm (pdats H m ρ) () defs₀ 𝒱₀ L lv 1 where
  win := launch1.win.to₀
  block_pos := launch1.block_pos
  stage_whole := launch1.stage_whole
  K := PEmpty
  osem k := k.elim
  ho := Pipeline.OwnSemFacts.none _
  hbody c := (H.hb1 (V3 H m ρ) c).loose
  hwaits := Pipeline.hwaits_of_owed_zero _ _ _ _ L lv 1 fun c t => H.ho1 (V3 H m ρ) c t
  pre c := iprop(StableHlo.held (c : Thread nD τ) (Pipeline.ucRefs τ sig) (W3 H m ρ c) ∗ R c)
  post c := iprop(Tₙ H m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 H m ρ c)
  hentry c := by
    rw [Pipeline.ownSems0_none]
    have hsplit := Pipeline.arrays_of_unscopedBufs (p := 1) (pcfgs (F := F)) adm (pdats H m ρ) launch1.win launch1.arr_whole c
      ((pdats H m ρ 1 c).share_full fun w => H.hq1 (V3 H m ρ) c w) (V3 H m ρ c) fun w => H.hA1 (V3 H m ρ) c w
    rw [Pipeline.unscopedBufs_held] at hsplit
    iintro ⟨⟨Hub, Hp, HO⟩, -, -⟩
    ihave Hs := hsplit $$ Hub
    icases Hs with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      simp only [show (pdats H m ρ 1 c).owed = fun _ => 0 from funext fun t => H.ho1 (V3 H m ρ) c t]
      icases HO with ⟨%W, HO⟩; iexists W; isplitr
      · ipureintro; exact fun x _ => Or.inl (by rw [show (pdats H m ρ 1 c).recorded 0 = Set.univ from H.hr1 (V3 H m ρ) c 0]; trivial)
      iexact HO
    isplitl [Hp]; · iexact Hp
    iexact Hrest
  hin c := by
    refine BIBase.Entails.trans ?_ (H.hin1 (V3 H m ρ) c)
    unfold Pipeline.ΦA
    iintro ⟨Hp, -, Hr⟩
    isplitl [Hr]; · iexact Hr
    iexact Hp
  hout c := by
    rw [Pipeline.ownSems0_none]
    refine BIBase.Entails.trans (H.hout1 (V3 H m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats H m ρ) ((pdats H m ρ 1 c).share_full fun w => H.hq1 (V3 H m ρ) c w)
      (V3 H m ρ c) (V4 H m ρ c) ((pdats H m ρ 1 c).arrAt · cfg1.N) (hF1 H m ρ c) (hrest1 H m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    simp only [show (pdats H m ρ 1 c).owed = fun _ => 0 from funext fun t => H.ho1 (V3 H m ρ) c t]
    icases HO with ⟨%W, -, HO⟩; iexists W; iexact HO

/-! ## The program as its segments, and the run -/

abbrev segs : List (Pipeline.Seg (pcfgs (F := F)) adm (pdats H m ρ) () defs₀ 𝒱₀ L lv) :=
  [ .host (hseg hostOps0 hostOps0_sub hostOps0_fresh (W0 m ρ)),
    .region (reg0 H m ρ),
    .host (hseg hostOps1 hostOps1_sub hostOps1_fresh (W2 H m ρ)),
    .region (reg1 H m ρ) ]
theorem main_run (c : Dev nD) : main (F := F) c = Pipeline.Seg.run (segs H m ρ) := (main_chain c).trans (by chain_rfl)

set_option backward.isDefEq.respectTransparency.types false in
/-- Every weakly fair execution of the program terminates, nothing faulting, and every final memory holds every
    unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 H m ρ c b) :=
  Pipeline.θ_run_regions_kit (pcfgs (F := F)) adm (pdats H m ρ) () cellOf_inj emb₁ defs₀ 𝒱₀ L lv m ρ main (segs H m ρ)
    (fun c Q => by rw [main_run H m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ H m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 H m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 H m ρ c) s')
      isplitl [Hh] <;> iassumption)
    (hQ := fun s h c => h c)

/-- The frame claim: every argument array ends as launched. -/
theorem frame (H : Halves F) (m : (ℓ : Loc nD τ sig) → Buf (Elt F) ℓ) (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (W4_main_arg0 H m ρ c),
     (h c _ (mem_uc main_arg1 (by decide))).trans (W4_main_arg1 H m ρ c),
     (h c _ (mem_uc main_arg2 (by decide))).trans (W4_main_arg2 H m ρ c),
     (h c _ (mem_uc main_arg3 (by decide))).trans (W4_main_arg3 H m ρ c),
     (h c _ (mem_uc main_arg4 (by decide))).trans (W4_main_arg4 H m ρ c),
     (h c _ (mem_uc main_arg5 (by decide))).trans (W4_main_arg5 H m ρ c),
     (h c _ (mem_uc main_arg6 (by decide))).trans (W4_main_arg6 H m ρ c),
     (h c _ (mem_uc main_arg7 (by decide))).trans (W4_main_arg7 H m ρ c),
     (h c _ (mem_uc main_arg8 (by decide))).trans (W4_main_arg8 H m ρ c)⟩) (run_all H m ρ)

end Cert.KernelIdeal.Hand

end
-- ==== Proof.ScoresRegion.lean ====
import proofs.«116499_j36532991820656_1_alg».proof.Proof.Gen.KernelIdeal.Launch
import proofs.«116499_j36532991820656_1_alg».proof.Proof.Gen.KernelIdeal.Skeleton
import proofs.«116499_j36532991820656_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The scores region: what one grid point's body does, at arbitrary entry contents

The first pipelined region computes, for each batch row `b` and each sequence tile `s`, the block of
unnormalised attention scores `tanh(q·Wq + bq + k·Wk + bk)·Wa + ba` of that tile. Each grid point reads the
eight input blocks (the query row, the key tile, and the six parameter arrays, which are whole-array blocks with
a constant index) and overwrites the whole output block with a closed function of them.

Everything is stated at a parameter `V`, the contents of the core's buffers when the region is entered, and at
an arbitrary floating-point model `F`: nothing below depends on how `F` rounds.
-/

-- membership of an index in a rectangle with an axis of extent 512 or 1024 is decided by a structural
-- recursion that is as deep as the axis is long
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section ScoresRegion
-- the contents of the core's buffers at the moment the region is entered
variable (V : (c : Dev nD) → (b : Ref sig .tc) → Buf (Elt F) ((c : Thread nD τ).loc b))

/-! ## The windows' blocks -/

/-- The block of window `w` at grid point `t`: the sub-array of the window's array, as the region finds it,
    that the window's index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: at every grid point its current staging buffer holds its block there, whether or not the
    block was transferred at that point. If it was not, the block index is the one of the point before, and the
    body leaves an input buffer as it found it (`hafter`), so the buffer still holds the same block. Stated for any
    proof data over the region-entry arrays (`hA`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: at every grid point its current staging buffer holds its block there, whether or not the
    block was transferred at that point. If it was not, the block index is the one of the point before, and the
    body leaves an input buffer as it found it (`hafter`), so the buffer still holds the same block. Stated for any
    proof data over the region-entry arrays (`hA`). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: at every grid point its current staging buffer holds its block there, whether or not the
    block was transferred at that point. If it was not, the block index is the one of the point before, and the
    body leaves an input buffer as it found it (`hafter`), so the buffer still holds the same block. Stated for any
    proof data over the region-entry arrays (`hA`). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3: at every grid point its current staging buffer holds its block there, whether or not the
    block was transferred at that point. If it was not, the block index is the one of the point before, and the
    body leaves an input buffer as it found it (`hafter`), so the buffer still holds the same block. Stated for any
    proof data over the region-entry arrays (`hA`). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4: at every grid point its current staging buffer holds its block there, whether or not the
    block was transferred at that point. If it was not, the block index is the one of the point before, and the
    body leaves an input buffer as it found it (`hafter`), so the buffer still holds the same block. Stated for any
    proof data over the region-entry arrays (`hA`). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5: at every grid point its current staging buffer holds its block there, whether or not the
    block was transferred at that point. If it was not, the block index is the one of the point before, and the
    body leaves an input buffer as it found it (`hafter`), so the buffer still holds the same block. Stated for any
    proof data over the region-entry arrays (`hA`). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6: at every grid point its current staging buffer holds its block there, whether or not the
    block was transferred at that point. If it was not, the block index is the one of the point before, and the
    body leaves an input buffer as it found it (`hafter`), so the buffer still holds the same block. Stated for any
    proof data over the region-entry arrays (`hA`). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7: at every grid point its current staging buffer holds its block there, whether or not the
    block was transferred at that point. If it was not, the block index is the one of the point before, and the
    body leaves an input buffer as it found it (`hafter`), so the buffer still holds the same block. Stated for any
    proof data over the region-entry arrays (`hA`). -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through: each the whole of its buffer -/

abbrev r0_0 : Rect S1x1x1024 := Rect.unit (s := S1x1x1024) ![0, 0, 0] S1x1x1024.size inb_S1x1x1024_S1x1x1024_0_0_0
abbrev r0_1 : Rect S1024x1024 := Rect.unit (s := S1024x1024) ![0, 0] S1024x1024.size inb_S1024x1024_S1024x1024_0_0
abbrev r0_2 : Rect S1x512x1024 := Rect.unit (s := S1x512x1024) ![0, 0, 0] S1x512x1024.size inb_S1x512x1024_S1x512x1024_0_0_0
abbrev r0_3 : Rect S1024x1 := Rect.unit (s := S1024x1) ![0, 0] S1024x1.size inb_S1024x1_S1024x1_0_0
abbrev r0_4 : Rect S1x1 := Rect.unit (s := S1x1) ![0, 0] S1x1.size inb_S1x1_S1x1_0_0
abbrev r0_5 : Rect S1x512x1 := Rect.unit (s := S1x512x1) ![0, 0, 0] S1x512x1.size inb_S1x512x1_S1x512x1_0_0_0

/-! ## What the body leaves in the output window's buffer -/

/-- The output block after the body, as a function of the eight input blocks `x0 … x7` (window order): the single
    whole-block store of the score tile. The score payload takes its operands in the order the body loads them:
    query row, `Wq`, `bq`, key tile, `Wk`, `bk`, `Wa`, `ba`, that is windows 0, 2, 3, 1, 4, 5, 6, 7. -/
def out0_8 (x0 : Vec F S1x1x1024 .f32) (x1 : Vec F S1x512x1024 .f32) (x2 : Vec F S1024x1024 .bf16) (x3 : Vec F S1x1x1024 .f32)
    (x4 : Vec F S1024x1024 .bf16) (x5 : Vec F S1x1x1024 .f32) (x6 : Vec F S1024x1 .bf16) (x7 : Vec F S1x1 .f32) : Vec F S1x512x1 .f32 :=
  View.canon [⟨r0_5, k0_pay1 (k0_pay2 (View.ld x0 r0_0) (View.ld x2 r0_1) (View.ld x3 r0_0) (View.ld x1 r0_2) (View.ld x4 r0_1) (View.ld x5 r0_0) (View.ld x6 r0_3) (View.ld x7 r0_4))⟩]

/-- The one store is through the whole-block rectangle, so every index of the block lies in it. -/
theorem cover0_8 (p0 : Vec F S1x512x1 .f32) (y : S1x512x1.Idx) :
    ∃ pc ∈ ([⟨r0_5, p0⟩] : List (View.Piece (Elt F) S1x512x1 .f32)), y ∈ pc.1.set :=
  View.cover_of_tiled [⟨r0_5, p0⟩] S1x512x1.size (by rfl) y

/-! ## The body's triple -/

set_option maxHeartbeats 1000000 in
/-- The body, run on whole staging buffers — the inputs' reading `x0 … x7`, the output's holding anything — ends
    with the inputs' unchanged and the output's reading `out0_8 x0 … x7`. The body is eight whole-buffer loads
    (and a ninth, of the output buffer, whose value is never used) followed by one whole-buffer store: the loads
    read `View.ld xW r`, and a store through a rectangle covering the buffer leaves exactly its payload. -/
theorem sound_kernel0 (c : Dev nD) (E : Set ℕ) (i : grid0.Coords) (arg2 : Memref sig .tc .vmem S1x1x1024 .f32) (harg2 : arg2.IsWhole) (arg3 : Memref sig .tc .vmem S1x512x1024 .f32) (harg3 : arg3.IsWhole) (arg4 : Memref sig .tc .vmem S1024x1024 .bf16) (harg4 : arg4.IsWhole) (arg5 : Memref sig .tc .vmem S1x1x1024 .f32) (harg5 : arg5.IsWhole) (arg6 : Memref sig .tc .vmem S1024x1024 .bf16) (harg6 : arg6.IsWhole) (arg7 : Memref sig .tc .vmem S1x1x1024 .f32) (harg7 : arg7.IsWhole) (arg8 : Memref sig .tc .vmem S1024x1 .bf16) (harg8 : arg8.IsWhole) (arg9 : Memref sig .tc .vmem S1x1 .f32) (harg9 : arg9.IsWhole) (arg10 : Memref sig .tc .vmem S1x512x1 .f32) (harg10 : arg10.IsWhole)
    (x0 : Vec F S1x1x1024 .f32) (x1 : Vec F S1x512x1024 .f32) (x2 : Vec F S1024x1024 .bf16) (x3 : Vec F S1x1x1024 .f32) (x4 : Vec F S1024x1024 .bf16) (x5 : Vec F S1x1x1024 .f32) (x6 : Vec F S1024x1 .bf16) (x7 : Vec F S1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (out0_8 x0 x1 x2 x3 x4 x5 x6 x7)) -∗ K ⟨⟩))
      ⊢ wp frame (wpE (defs₀ (F := F)) Variants.none c none) E (cc0__scores_kernel i arg2 harg2 arg3 harg3 arg4 harg4 arg5 harg5 arg6 harg6 arg7 harg7 arg8 harg8 arg9 harg9 arg10 harg10) K := by
  simp only [cc0__scores_kernel_eq_skeleton]; unfold cc0__scores_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover0_8 _)

/-! ## The pipeline's proof data -/

/-- The proof data of the scores pipeline on core `c`. The arrays are as the region finds them (`V`). After the
    body at point `t` each input window's buffer holds its block and the output window's holds `out0_8` of the
    eight input blocks. The invariant carried from point to point is the untouched rest of the core's state; full
    ownership throughout, and nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) (iblk0 V c 7 t) := by dsimp only [dat0]

/-- Each input window's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation, at a generic point -/

/-- What the body is called with at point `t`: the invariant, what is owed, and each window's current staging
    buffer at what the schedule has left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- What it returns: the same, with each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point. The input buffers hold their blocks (`before0_W`), so the body's triple applies at
    those blocks; the invariant and what is owed are not touched by the body and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end ScoresRegion

end Cert.KernelIdeal.Hand

end
-- ==== Proof.CtxCases.lean ====
/- The second kernel region (the context-vector reduction), at the buffer contents `V` the TensorCore holds when the
   region is entered: what its three per-case runs and its proof data are stated over. The grid is 32 rows of 4 points;
   along a row the kernel zeroes its accumulator at the first point, adds the weighted block sum at every point, and
   copies the accumulator to the output block at the last point. -/
import proofs.«116499_j36532991820656_1_alg».proof.Proof.Gen.KernelIdeal.Launch
import proofs.«116499_j36532991820656_1_alg».proof.Proof.Gen.KernelIdeal.Skeleton
import proofs.«116499_j36532991820656_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The value window's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of the weight window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional: the point is the first of its row (its second coordinate is 0). -/
abbrev cond1_0 (i : grid1.Coords) : Prop := (Scalar.cmpi .ne (Scalar.extui (Scalar.cmpi .eq (BitVec.ofNat 32 (i 1).val) 0#32)) 0#32) = 1#1
/-- It holds at the points ≡ 0 (mod 4): decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second conditional: the point is the last of its row (its second coordinate is 3). -/
abbrev cond1_1 (i : grid1.Coords) : Prop := k1_cond2 i = 1#1
/-- It holds at the points ≡ 3 (mod 4): decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- At a row's first point the output window is idle (nothing is stored into it) and is not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
/-- The same at a row's middle points. -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- At a row's last point the output window is live: the accumulator is stored into it. -/
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated (the choice does not matter). -/
abbrev VO1_2 : View sig .tc .vmem S1x1x1024 .f32 := (Memref.whole cc1_stg2_0 : Memref sig .tc .vmem S1x1x1024 .f32).view
/-- Each window's current staging memref at point `t`, as the pipeline passes it, and its wholeness. -/
abbrev ms1_0 (t : Fin cfg1.N) : Memref sig .tc .vmem S1x512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x1024 .f32 := win1_2.stage (cfg1.slots t 2)
abbrev hs1_2 (t : Fin cfg1.N) : (ms1_2 t).IsWhole := hstage1_2 ((cfg1.slots t 2).cast nbuf1_2)
/-- The accumulator: a whole scoped buffer of the kernel's own, passed beside the windows and carried between points. -/
abbrev scM1_0 : Memref sig .tc .vmem S1x1x1024 .f32 := Memref.whole cc1_scratch0
/-- The accumulator as a view: what it holds is stated through it. -/
abbrev VS1_0 : View sig .tc .vmem S1x1x1024 .f32 := scM1_0.view

/-! ## The region's invariant, with the accumulator named -/

/-- Every scoped buffer of the core that is neither a staging buffer of this region nor its accumulator (the other
    region's staging buffers), each whole at some contents: carried through this region unopened. -/
abbrev Rest1 (c : Dev nD) : sProp 𝕄 :=
  Pipeline.scopedRestBut (Ix := Unit) (Name := ℕ) (U := UR sig nD τ) (Lvl := ℕ) (Val := Elt F) spec1 c [cc1_scratch0]

/-- The region's class invariant with the accumulator as a memref owned at some contents, the other scoped buffers
    an unopened rest, and the generator register at some state. -/
theorem PhiA1_eq (c : Dev nD) :
    (Pipeline.ΦA spec1 c : sProp 𝕄)
      = iprop(iprop((∃ d, owns (c : Thread nD τ) scM1_0 fullShare d) ∗ Rest1 (F := F) c) ∗ (∃ r, prngReg c r)) := by
  unfold Pipeline.ΦA
  rw [Pipeline.scopedRest_split_of_list spec1 c [cc1_scratch0] (by decide) (by decide)]
  simp only [bigSepL_singleton, scM1_0, owns_whole]; try rfl

end Cert.KernelIdeal.Hand

end
-- ==== Proof.CtxRunA.lean ====
/- The context kernel's body at the FIRST point of a row: the accumulator is zeroed, then this point's weighted block
   sum is added to it; nothing is stored into the output block. -/
import proofs.«116499_j36532991820656_1_alg».proof.Proof.CtxCases

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave, as pieces (last first), at a row's first point (first conditional taken, second not),
    WITH the proof that on whole memrefs — the two inputs' at their blocks `x0`, `x1`, the output's at contents `xi2`
    handed back untouched, the accumulator at anything — the body runs to the continuation holding the inputs' and the
    output's as they were and the accumulator with its pieces `LS0` written. -/
noncomputable def kernelRun1_A (c : Dev nD) (i : grid1.Coords) (arg2 : Memref sig .tc .vmem S1x512x1024 .f32) (harg2 : arg2.IsWhole) (arg3 : Memref sig .tc .vmem S1x512x1 .f32) (harg3 : arg3.IsWhole) (arg4 : Memref sig .tc .vmem S1x1x1024 .f32) (harg4 : arg4.IsWhole) (arg5 : Memref sig .tc .vmem S1x1x1024 .f32) (harg5 : arg5.IsWhole) (hc0 : cond1_0 i) (hc1 : ¬cond1_1 i)
    (x0 : Vec F S1x512x1024 .f32) (x1 : Vec F S1x512x1 .f32) :
    Σ' (L2 : List (View.Piece (Elt F) S1x1x1024 .f32)), { LS0 : List (View.Piece (Elt F) S1x1x1024 .f32) //
      ∀ (xi2 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__ctx_kernel i arg2 harg2 arg3 harg3 arg4 harg4 arg5 harg5) K } := by
  refine ⟨[], ?_, fun xi2 E K => ?run⟩
  case run =>
    simp only [cc1__ctx_kernel_eq_skeleton]; unfold cc1__ctx_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.CtxRunB.lean ====
/- The context kernel's body at a MIDDLE point of a row: this point's weighted block sum is added to the accumulator
   the point before left; nothing is stored into the output block. -/
import proofs.«116499_j36532991820656_1_alg».proof.Proof.CtxRunA

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave, as pieces (last first), at a row's middle points (neither conditional taken), WITH
    the proof that on whole memrefs — the two inputs' at their blocks `x0`, `x1`, the output's at contents `xi2` handed
    back untouched, the accumulator at what the point before left (`xs0`) — the body runs to the continuation holding
    the inputs' and the output's as they were and the accumulator with its pieces `LS0` written. -/
noncomputable def kernelRun1_B (c : Dev nD) (i : grid1.Coords) (arg2 : Memref sig .tc .vmem S1x512x1024 .f32) (harg2 : arg2.IsWhole) (arg3 : Memref sig .tc .vmem S1x512x1 .f32) (harg3 : arg3.IsWhole) (arg4 : Memref sig .tc .vmem S1x1x1024 .f32) (harg4 : arg4.IsWhole) (arg5 : Memref sig .tc .vmem S1x1x1024 .f32) (harg5 : arg5.IsWhole) (hc0 : ¬cond1_0 i) (hc1 : ¬cond1_1 i)
    (x0 : Vec F S1x512x1024 .f32) (x1 : Vec F S1x512x1 .f32) (xs0 : Vec F S1x1x1024 .f32) :
    Σ' (L2 : List (View.Piece (Elt F) S1x1x1024 .f32)), { LS0 : List (View.Piece (Elt F) S1x1x1024 .f32) //
      ∀ (xi2 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__ctx_kernel i arg2 harg2 arg3 harg3 arg4 harg4 arg5 harg5) K } := by
  refine ⟨[], ?_, fun xi2 E K => ?run⟩
  case run =>
    simp only [cc1__ctx_kernel_eq_skeleton]; unfold cc1__ctx_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.CtxRunC.lean ====
/- The context kernel's body at the LAST point of a row: this point's weighted block sum is added to the accumulator
   the point before left, and the accumulator is then copied whole into the output block. -/
import proofs.«116499_j36532991820656_1_alg».proof.Proof.CtxRunB

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave, as pieces (last first), at a row's last point (first conditional not taken, second
    taken), WITH the proof that on whole memrefs — the two inputs' at their blocks `x0`, `x1`, the output's at anything,
    the accumulator at what the point before left (`xs0`) — the body runs to the continuation holding the inputs' as
    they were, the output's with its pieces `L2` written and the accumulator with its pieces `LS0` written. -/
noncomputable def kernelRun1_C (c : Dev nD) (i : grid1.Coords) (arg2 : Memref sig .tc .vmem S1x512x1024 .f32) (harg2 : arg2.IsWhole) (arg3 : Memref sig .tc .vmem S1x512x1 .f32) (harg3 : arg3.IsWhole) (arg4 : Memref sig .tc .vmem S1x1x1024 .f32) (harg4 : arg4.IsWhole) (arg5 : Memref sig .tc .vmem S1x1x1024 .f32) (harg5 : arg5.IsWhole) (hc0 : ¬cond1_0 i) (hc1 : cond1_1 i)
    (x0 : Vec F S1x512x1024 .f32) (x1 : Vec F S1x512x1 .f32) (xs0 : Vec F S1x1x1024 .f32) :
    Σ' (L2 : List (View.Piece (Elt F) S1x1x1024 .f32)), { LS0 : List (View.Piece (Elt F) S1x1x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__ctx_kernel i arg2 harg2 arg3 harg3 arg4 harg4 arg5 harg5) K } := by
  refine ⟨?_, ?_, fun E K => ?run⟩
  case run =>
    simp only [cc1__ctx_kernel_eq_skeleton]; unfold cc1__ctx_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.CtxRegion.lean ====
/- The second kernel region (the context-vector reduction) at the buffer contents `V` it is entered with: what the
   output block and the accumulator hold after each grid point, the region's proof data, and its body obligation.
   Along a row of 4 points the accumulator is zeroed and first added to (case A), added to (case B, twice), then added
   to and copied out (case C); the accumulator is zeroed again at the first point of EVERY row, so at such a point after
   the first row the invariant hands it over at the previous row's total and case A takes it at anything. -/
import proofs.«116499_j36532991820656_1_alg».proof.Proof.CtxRunC

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves in the output block and in the accumulator -/

/-- Case A stores nothing into the output block: no pieces. A placeholder nothing consults, since at these points the
    window is neither written back nor read at the next point. -/
def out1_A_2 (c : Dev nD) (i : grid1.Coords) (arg2 : Memref sig .tc .vmem S1x512x1024 .f32) (harg2 : arg2.IsWhole) (arg3 : Memref sig .tc .vmem S1x512x1 .f32) (harg3 : arg3.IsWhole) (arg4 : Memref sig .tc .vmem S1x1x1024 .f32) (harg4 : arg4.IsWhole) (arg5 : Memref sig .tc .vmem S1x1x1024 .f32) (harg5 : arg5.IsWhole) (hc0 : cond1_0 i) (hc1 : ¬cond1_1 i)
    (x0 : Vec F S1x512x1024 .f32) (x1 : Vec F S1x512x1 .f32) : Vec F S1x1x1024 .f32 :=
  VO1_2.read (Elt F) (VO1_2.writes (Elt F) VO1_2.junk (kernelRun1_A c i arg2 harg2 arg3 harg3 arg4 harg4 arg5 harg5 hc0 hc1 x0 x1).1)

/-- Case A's pieces for the accumulator cover it (each is the whole buffer). -/
theorem scover1_A_0 (c : Dev nD) (i : grid1.Coords) (arg2 : Memref sig .tc .vmem S1x512x1024 .f32) (harg2 : arg2.IsWhole) (arg3 : Memref sig .tc .vmem S1x512x1 .f32) (harg3 : arg3.IsWhole) (arg4 : Memref sig .tc .vmem S1x1x1024 .f32) (harg4 : arg4.IsWhole) (arg5 : Memref sig .tc .vmem S1x1x1024 .f32) (harg5 : arg5.IsWhole) (hc0 : cond1_0 i) (hc1 : ¬cond1_1 i)
    (x0 : Vec F S1x512x1024 .f32) (x1 : Vec F S1x512x1 .f32) (y : S1x1x1024.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1x1x1024.size (by sl_kernel_rfl) y

/-- What case A leaves in the accumulator: zero plus this point's weighted block sum. -/
def sout1_A_0 (c : Dev nD) (i : grid1.Coords) (arg2 : Memref sig .tc .vmem S1x512x1024 .f32) (harg2 : arg2.IsWhole) (arg3 : Memref sig .tc .vmem S1x512x1 .f32) (harg3 : arg3.IsWhole) (arg4 : Memref sig .tc .vmem S1x1x1024 .f32) (harg4 : arg4.IsWhole) (arg5 : Memref sig .tc .vmem S1x1x1024 .f32) (harg5 : arg5.IsWhole) (hc0 : cond1_0 i) (hc1 : ¬cond1_1 i)
    (x0 : Vec F S1x512x1024 .f32) (x1 : Vec F S1x512x1 .f32) : Vec F S1x1x1024 .f32 :=
  VS1_0.read (Elt F) (VS1_0.writes (Elt F) VS1_0.junk (kernelRun1_A c i arg2 harg2 arg3 harg3 arg4 harg4 arg5 harg5 hc0 hc1 x0 x1).2.1)

/-- Case B stores nothing into the output block: a placeholder, as in case A. -/
def out1_B_2 (c : Dev nD) (i : grid1.Coords) (arg2 : Memref sig .tc .vmem S1x512x1024 .f32) (harg2 : arg2.IsWhole) (arg3 : Memref sig .tc .vmem S1x512x1 .f32) (harg3 : arg3.IsWhole) (arg4 : Memref sig .tc .vmem S1x1x1024 .f32) (harg4 : arg4.IsWhole) (arg5 : Memref sig .tc .vmem S1x1x1024 .f32) (harg5 : arg5.IsWhole) (hc0 : ¬cond1_0 i) (hc1 : ¬cond1_1 i)
    (x0 : Vec F S1x512x1024 .f32) (x1 : Vec F S1x512x1 .f32) (xs0 : Vec F S1x1x1024 .f32) : Vec F S1x1x1024 .f32 :=
  VO1_2.read (Elt F) (VO1_2.writes (Elt F) VO1_2.junk (kernelRun1_B c i arg2 harg2 arg3 harg3 arg4 harg4 arg5 harg5 hc0 hc1 x0 x1 xs0).1)

/-- Case B's pieces for the accumulator cover it. -/
theorem scover1_B_0 (c : Dev nD) (i : grid1.Coords) (arg2 : Memref sig .tc .vmem S1x512x1024 .f32) (harg2 : arg2.IsWhole) (arg3 : Memref sig .tc .vmem S1x512x1 .f32) (harg3 : arg3.IsWhole) (arg4 : Memref sig .tc .vmem S1x1x1024 .f32) (harg4 : arg4.IsWhole) (arg5 : Memref sig .tc .vmem S1x1x1024 .f32) (harg5 : arg5.IsWhole) (hc0 : ¬cond1_0 i) (hc1 : ¬cond1_1 i)
    (x0 : Vec F S1x512x1024 .f32) (x1 : Vec F S1x512x1 .f32) (xs0 : Vec F S1x1x1024 .f32) (y : S1x1x1024.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1x1x1024.size (by sl_kernel_rfl) y

/-- What case B leaves in the accumulator: what the point before left plus this point's weighted block sum. -/
def sout1_B_0 (c : Dev nD) (i : grid1.Coords) (arg2 : Memref sig .tc .vmem S1x512x1024 .f32) (harg2 : arg2.IsWhole) (arg3 : Memref sig .tc .vmem S1x512x1 .f32) (harg3 : arg3.IsWhole) (arg4 : Memref sig .tc .vmem S1x1x1024 .f32) (harg4 : arg4.IsWhole) (arg5 : Memref sig .tc .vmem S1x1x1024 .f32) (harg5 : arg5.IsWhole) (hc0 : ¬cond1_0 i) (hc1 : ¬cond1_1 i)
    (x0 : Vec F S1x512x1024 .f32) (x1 : Vec F S1x512x1 .f32) (xs0 : Vec F S1x1x1024 .f32) : Vec F S1x1x1024 .f32 :=
  VS1_0.read (Elt F) (VS1_0.writes (Elt F) VS1_0.junk (kernelRun1_B c i arg2 harg2 arg3 harg3 arg4 harg4 arg5 harg5 hc0 hc1 x0 x1 xs0).2.1)

/-- Case C's one store into the output block is the whole block, so its pieces cover it. -/
theorem cover1_C_2 (c : Dev nD) (i : grid1.Coords) (arg2 : Memref sig .tc .vmem S1x512x1024 .f32) (harg2 : arg2.IsWhole) (arg3 : Memref sig .tc .vmem S1x512x1 .f32) (harg3 : arg3.IsWhole) (arg4 : Memref sig .tc .vmem S1x1x1024 .f32) (harg4 : arg4.IsWhole) (arg5 : Memref sig .tc .vmem S1x1x1024 .f32) (harg5 : arg5.IsWhole) (hc0 : ¬cond1_0 i) (hc1 : cond1_1 i)
    (x0 : Vec F S1x512x1024 .f32) (x1 : Vec F S1x512x1 .f32) (xs0 : Vec F S1x1x1024 .f32) (y : S1x1x1024.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1x1x1024.size (by sl_kernel_rfl) y

/-- What case C leaves in the output block: the accumulator after this point's addition. -/
def out1_C_2 (c : Dev nD) (i : grid1.Coords) (arg2 : Memref sig .tc .vmem S1x512x1024 .f32) (harg2 : arg2.IsWhole) (arg3 : Memref sig .tc .vmem S1x512x1 .f32) (harg3 : arg3.IsWhole) (arg4 : Memref sig .tc .vmem S1x1x1024 .f32) (harg4 : arg4.IsWhole) (arg5 : Memref sig .tc .vmem S1x1x1024 .f32) (harg5 : arg5.IsWhole) (hc0 : ¬cond1_0 i) (hc1 : cond1_1 i)
    (x0 : Vec F S1x512x1024 .f32) (x1 : Vec F S1x512x1 .f32) (xs0 : Vec F S1x1x1024 .f32) : Vec F S1x1x1024 .f32 :=
  VO1_2.read (Elt F) (VO1_2.writes (Elt F) VO1_2.junk (kernelRun1_C c i arg2 harg2 arg3 harg3 arg4 harg4 arg5 harg5 hc0 hc1 x0 x1 xs0).1)

/-- Case C's pieces for the accumulator cover it. -/
theorem scover1_C_0 (c : Dev nD) (i : grid1.Coords) (arg2 : Memref sig .tc .vmem S1x512x1024 .f32) (harg2 : arg2.IsWhole) (arg3 : Memref sig .tc .vmem S1x512x1 .f32) (harg3 : arg3.IsWhole) (arg4 : Memref sig .tc .vmem S1x1x1024 .f32) (harg4 : arg4.IsWhole) (arg5 : Memref sig .tc .vmem S1x1x1024 .f32) (harg5 : arg5.IsWhole) (hc0 : ¬cond1_0 i) (hc1 : cond1_1 i)
    (x0 : Vec F S1x512x1024 .f32) (x1 : Vec F S1x512x1 .f32) (xs0 : Vec F S1x1x1024 .f32) (y : S1x1x1024.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1x1x1024.size (by sl_kernel_rfl) y

/-- What case C leaves in the accumulator: what the point before left plus this point's weighted block sum. -/
def sout1_C_0 (c : Dev nD) (i : grid1.Coords) (arg2 : Memref sig .tc .vmem S1x512x1024 .f32) (harg2 : arg2.IsWhole) (arg3 : Memref sig .tc .vmem S1x512x1 .f32) (harg3 : arg3.IsWhole) (arg4 : Memref sig .tc .vmem S1x1x1024 .f32) (harg4 : arg4.IsWhole) (arg5 : Memref sig .tc .vmem S1x1x1024 .f32) (harg5 : arg5.IsWhole) (hc0 : ¬cond1_0 i) (hc1 : cond1_1 i)
    (x0 : Vec F S1x512x1024 .f32) (x1 : Vec F S1x512x1 .f32) (xs0 : Vec F S1x1x1024 .f32) : Vec F S1x1x1024 .f32 :=
  VS1_0.read (Elt F) (VS1_0.writes (Elt F) VS1_0.junk (kernelRun1_C c i arg2 harg2 arg3 harg3 arg4 harg4 arg5 harg5 hc0 hc1 x0 x1 xs0).2.1)

/-! ## What the output block and the accumulator hold after each point -/

/-- THE ACCUMULATION. What the output window's staging buffer and the accumulator hold after the body at position `n`:
    the case that `n mod 4` selects, run at the point's memrefs and input blocks, cases B and C over what this leaves in
    the accumulator at `n - 1`; case A over nothing (it zeroes the accumulator first). No point is both first and last
    of its row. -/
def outsAt1 (c : Dev nD) : (n : ℕ) → n < cfg1.N → Vec F S1x1x1024 .f32 × Vec F S1x1x1024 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a row's first point: case A's contents. -/
theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a row's middle point: case B's contents, over what the point before left. -/
theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a row's last point: case C's contents, over what the point before left. -/
theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The invariant before position `n`: before the first point the class's (every scoped buffer at anything); afterwards
    the accumulator at what the point before left in it, the other scoped buffers at anything, and the generator register
    at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Rest1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(owns (c : Thread nD τ) scM1_0 fullShare ((outsAt1 V c n hn).2) ∗ Rest1 (F := F) c) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Rest1 (F := F) c) ∗ (∃ r, prngReg c r)) := by
  cases n with
  | zero => exact absurd rfl hz
  | succ n => rfl

/-! ## The pipeline's proof data -/

/-- The proof data of this region's pipeline on core `c`: the arrays as the region finds them (`V`); after the body at
    point `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; `t mod 4` says which case the point is in; the
    invariant hands the body the accumulator at what the point before left (at anything at the first point; case A takes
    it at anything in every row), the other scoped buffers and the generator register untouched, and takes the accumulator
    back at this point's contents (its pieces cover it); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _)
            iexact HR
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, HR⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      have hz : t.val ≠ 0 := by omega
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulator's named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.Whole.lean ====
/-
  The two regions' proof data put into the run: the scores kernel's (its one whole store of the scores of its
  tile) and the context kernel's (its running total carried in scratch from point to point), each reading its
  arrays off the contents its region is entered from, at full shares, owing nothing.
-/
import proofs.«116499_j36532991820656_1_alg».proof.Proof.Run
import proofs.«116499_j36532991820656_1_alg».proof.Proof.ScoresRegion
import proofs.«116499_j36532991820656_1_alg».proof.Proof.CtxRegion

noncomputable section

namespace Cert.KernelIdeal.Hand

open Cert.KernelIdeal Cert.KernelIdeal.Gen
open Idealize.ShloMosaic Idealize.ShloMosaic.TcCoe Idealize.SL.Sem
open Idealize.SL Idealize.SL.BI

variable {F : FTy → Type} [FloatOps F]

/-- The two regions' proof data, as the run takes them. -/
def halves : Halves F where
  D0 := dat0
  D1 := dat1
  hA0 := A_eq0
  hA1 := A_eq1
  hq0 := fun _ _ _ => rfl
  hq1 := fun _ _ _ => rfl
  ho0 := fun _ _ _ => rfl
  ho1 := fun _ _ _ => rfl
  hr0 := fun _ _ _ => rfl
  hr1 := fun _ _ _ => rfl
  hb0 := body_obligation0
  hb1 := body_obligation1
  hin0 := fun _ _ => .rfl
  hout0 := fun _ _ => .rfl
  hin1 := hin1
  hout1 := hout1

end Cert.KernelIdeal.Hand

end
-- ==== Proof.RunBits.lean ====
/-
  The whole program as a run of four segments — seven host operations, the scores kernel's region, the fourteen
  host operations of the softmax, the context kernel's region — given, for each region, proof data at the buffer
  contents the region is entered from: which arrays it stages, what its body leaves at each grid point, an
  invariant that starts and ends at "every scoped buffer the region does not stage holds something, the generator
  register is at some state", and the body's obligation at every point.

  The contents of a core's buffers at the five boundaries are a fold from the launch memory: a host stretch
  applies its operations; a region replaces each array it stages by what the pipeline's write-backs leave in it
  and keeps every other buffer.  Every weakly fair execution terminates and the final memory holds every unscoped
  buffer at the last of these contents; read at the argument arrays this is the frame claim (no stretch and no
  region writes an argument), and read at the two result arrays it is what the value claim is stated over.
-/
import proofs.«116499_j36532991820656_1_alg».proof.Proof.Gen.Kernel.Launch
import proofs.«116499_j36532991820656_1_alg».proof.Proof.Gen.Kernel.Skeleton
import proofs.«116499_j36532991820656_1_alg».proof.Proof.Gen.Kernel.Points
import proofs.«116499_j36532991820656_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's TensorCore buffers' contents, core by core: what a region is entered from. -/
abbrev Entry (F : FTy → Type) [FloatOps F] : Type :=
  (c : Dev nD) → (b : Ref sig .tc) → Buf (Elt F) ((c : Thread nD τ).loc b)

/-- What the run takes of the two regions: proof data at any entry contents, reading its arrays off them, at full
    shares, owing nothing, with the body's obligation, and an invariant entered from and left at the plain one. -/
structure Halves (F : FTy → Type) [FloatOps F] where
  D0 : Entry F → (c : Dev nD) → Dat τ (Elt F) Unit ℕ (UR sig nD τ) ℕ cfg0 c
  D1 : Entry F → (c : Dev nD) → Dat τ (Elt F) Unit ℕ (UR sig nD τ) ℕ cfg1 c
  hA0 : ∀ V c w, (D0 V c).A w = V c (Pipeline.arrRef spec0 w)
  hA1 : ∀ V c w, (D1 V c).A w = V c (Pipeline.arrRef spec1 w)
  hq0 : ∀ V c w, (D0 V c).q w = fullShare
  hq1 : ∀ V c w, (D1 V c).q w = fullShare
  ho0 : ∀ V c t, (D0 V c).owed t = 0
  ho1 : ∀ V c t, (D1 V c).owed t = 0
  hr0 : ∀ V c t, (D0 V c).recorded t = Set.univ
  hr1 : ∀ V c t, (D1 V c).recorded t = Set.univ
  hb0 : ∀ V c, BodyObligation (D0 V c) (defs₀ (F := F)) Variants.none () Set.univ
  hb1 : ∀ V c, BodyObligation (D1 V c) (defs₀ (F := F)) Variants.none () Set.univ
  hin0 : ∀ V c, (Pipeline.ΦA spec0 c : sProp (MT nD τ sig Unit (Elt F) ℕ (UR sig nD τ) ℕ)) ⊢ (D0 V c).Φ 0
  hout0 : ∀ V c, (D0 V c).Φ (Fin.last cfg0.N) ⊢ (Pipeline.ΦA spec0 c : sProp (MT nD τ sig Unit (Elt F) ℕ (UR sig nD τ) ℕ))
  hin1 : ∀ V c, (Pipeline.ΦA spec1 c : sProp (MT nD τ sig Unit (Elt F) ℕ (UR sig nD τ) ℕ)) ⊢ (D1 V c).Φ 0
  hout1 : ∀ V c, (D1 V c).Φ (Fin.last cfg1.N) ⊢ (Pipeline.ΦA spec1 c : sProp (MT nD τ sig Unit (Elt F) ℕ (UR sig nD τ) ℕ))

variable (H : Halves F) (m : (ℓ : Loc nD τ sig) → Buf (Elt F) ℓ) (ρ : Dev nD → PrngReg)

/-! ## The buffers' contents at the five boundaries -/

/-- At launch. -/
abbrev W0 : Dev nD → Valuation τ sig (Elt F) := fun c b => (s₀ m ρ).mem ((c : Dev nD), b)
/-- After the first host stretch: what the scores region is entered from. -/
abbrev W1 : Dev nD → Valuation τ sig (Elt F) := fun c => StableHlo.after hostOps0 (W0 m ρ c)
abbrev V1 : Entry F := fun c b => W1 m ρ c b
/-- After the scores region: its arrays at what its write-backs leave, every other buffer as entered. -/
def W2 (c : Dev nD) : Valuation τ sig (Elt F) :=
  Pipeline.withArrays spec0 c (W1 m ρ c) fun w => (H.D0 (V1 m ρ) c).arrAt w cfg0.N
theorem W2_arr (c : Dev nD) (w : Fin cfg0.W) :
    W2 H m ρ c (Proc.devRef .tc (Pipeline.arrRef spec0 w)) = (H.D0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 H m ρ c (Proc.devRef .tc b) = W1 m ρ c (Proc.devRef .tc b) := by
  unfold W2; exact Pipeline.withArrays_of_ne spec0 c _ _ b hb
abbrev V2 : Entry F := fun c b => W2 H m ρ c b
theorem hF0 (c : Dev nD) (w : Fin cfg0.W) : (H.D0 (V1 m ρ) c).arrAt w cfg0.N = V2 H m ρ c (Pipeline.arrRef spec0 w) :=
  (W2_arr H m ρ c w).symm
theorem hrest0 (c : Dev nD) : ∀ b, b ∉ Finset.univ.image (Pipeline.arrRef spec0) → V2 H m ρ c b = V1 m ρ c b :=
  fun b hb => W2_of_ne H m ρ c b fun w e => hb (Finset.mem_image.mpr ⟨w, Finset.mem_univ _, e⟩)

/-- After the softmax's host stretch: what the context region is entered from. -/
abbrev W3 : Dev nD → Valuation τ sig (Elt F) := fun c => StableHlo.after hostOps1 (W2 H m ρ c)
abbrev V3 : Entry F := fun c b => W3 H m ρ c b
/-- After the context region. -/
def W4 (c : Dev nD) : Valuation τ sig (Elt F) :=
  Pipeline.withArrays spec1 c (W3 H m ρ c) fun w => (H.D1 (V3 H m ρ) c).arrAt w cfg1.N
theorem W4_arr (c : Dev nD) (w : Fin cfg1.W) :
    W4 H m ρ c (Proc.devRef .tc (Pipeline.arrRef spec1 w)) = (H.D1 (V3 H m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 H m ρ c (Proc.devRef .tc b) = W3 H m ρ c (Proc.devRef .tc b) := by
  unfold W4; exact Pipeline.withArrays_of_ne spec1 c _ _ b hb
abbrev V4 : Entry F := fun c b => W4 H m ρ c b
theorem hF1 (c : Dev nD) (w : Fin cfg1.W) : (H.D1 (V3 H m ρ) c).arrAt w cfg1.N = V4 H m ρ c (Pipeline.arrRef spec1 w) :=
  (W4_arr H m ρ c w).symm
theorem hrest1 (c : Dev nD) : ∀ b, b ∉ Finset.univ.image (Pipeline.arrRef spec1) → V4 H m ρ c b = V3 H m ρ c b :=
  fun b hb => W4_of_ne H m ρ c b fun w e => hb (Finset.mem_image.mpr ⟨w, Finset.mem_univ _, e⟩)

/-! ## A buffer that nothing writes keeps its contents -/

/-- No operation of the first stretch writes `b`. -/
theorem W1_keep (c : Dev nD) (b : Ref sig .tc) (h : b ∉ hostOps0_W) : W1 m ρ c (Proc.devRef .tc b) = W0 m ρ c (Proc.devRef .tc b) :=
  StableHlo.after_of_writes_sub hostOps0 _ hostOps0_writes h
/-- No operation of the second stretch writes `b`. -/
theorem W3_keep (c : Dev nD) (b : Ref sig .tc) (h : b ∉ hostOps1_W) : W3 H m ρ c (Proc.devRef .tc b) = W2 H m ρ c (Proc.devRef .tc b) :=
  StableHlo.after_of_writes_sub hostOps1 _ hostOps1_writes h

/-- An argument array that neither region stages reaches the end as launched. -/
theorem W4_unstaged (c : Dev nD) (b : Ref sig .tc) (h1 : ∀ w, Pipeline.arrRef spec1 w ≠ b) (h3 : b ∉ hostOps1_W)
    (h0 : ∀ w, Pipeline.arrRef spec0 w ≠ b) (h2 : b ∉ hostOps0_W) :
    W4 H m ρ c (Proc.devRef .tc b) = m ((c : Thread nD τ).loc b) :=
  (W4_of_ne H m ρ c b h1).trans <| (W3_keep H m ρ c b h3).trans <| (W2_of_ne H m ρ c b h0).trans <| (W1_keep m ρ c b h2).trans rfl

theorem W4_main_arg0 (c : Dev nD) : W4 H m ρ c (Proc.devRef .tc main_arg0) = m ((c : Thread nD τ).loc main_arg0) :=
  W4_unstaged H m ρ c main_arg0 (by decide) (by decide) (by decide) (by decide)
theorem W4_main_arg3 (c : Dev nD) : W4 H m ρ c (Proc.devRef .tc main_arg3) = m ((c : Thread nD τ).loc main_arg3) :=
  W4_unstaged H m ρ c main_arg3 (by decide) (by decide) (by decide) (by decide)
theorem W4_main_arg4 (c : Dev nD) : W4 H m ρ c (Proc.devRef .tc main_arg4) = m ((c : Thread nD τ).loc main_arg4) :=
  W4_unstaged H m ρ c main_arg4 (by decide) (by decide) (by decide) (by decide)
theorem W4_main_arg5 (c : Dev nD) : W4 H m ρ c (Proc.devRef .tc main_arg5) = m ((c : Thread nD τ).loc main_arg5) :=
  W4_unstaged H m ρ c main_arg5 (by decide) (by decide) (by decide) (by decide)
theorem W4_main_arg6 (c : Dev nD) : W4 H m ρ c (Proc.devRef .tc main_arg6) = m ((c : Thread nD τ).loc main_arg6) :=
  W4_unstaged H m ρ c main_arg6 (by decide) (by decide) (by decide) (by decide)
theorem W4_main_arg7 (c : Dev nD) : W4 H m ρ c (Proc.devRef .tc main_arg7) = m ((c : Thread nD τ).loc main_arg7) :=
  W4_unstaged H m ρ c main_arg7 (by decide) (by decide) (by decide) (by decide)
theorem W4_main_arg8 (c : Dev nD) : W4 H m ρ c (Proc.devRef .tc main_arg8) = m ((c : Thread nD τ).loc main_arg8) :=
  W4_unstaged H m ρ c main_arg8 (by decide) (by decide) (by decide) (by decide)
/-- The keys are the scores region's input window 1: staged, read, never written back. -/
theorem W4_main_arg1 (c : Dev nD) : W4 H m ρ c (Proc.devRef .tc main_arg1) = m ((c : Thread nD τ).loc main_arg1) :=
  (W4_of_ne H m ρ c main_arg1 (by decide)).trans <| (W3_keep H m ρ c main_arg1 (by decide)).trans <|
    ((W2_arr H m ρ c 1).trans (((H.D0 (V1 m ρ) c).arrAt_in 1 rfl _).trans (H.hA0 (V1 m ρ) c 1))).trans <|
    (W1_keep m ρ c main_arg1 (by decide)).trans rfl
/-- The values are the context region's input window 0. -/
theorem W4_main_arg2 (c : Dev nD) : W4 H m ρ c (Proc.devRef .tc main_arg2) = m ((c : Thread nD τ).loc main_arg2) :=
  ((W4_arr H m ρ c 0).trans (((H.D1 (V3 H m ρ) c).arrAt_in 0 rfl _).trans (H.hA1 (V3 H m ρ) c 0))).trans <|
    (W3_keep H m ρ c main_arg2 (by decide)).trans <| (W2_of_ne H m ρ c main_arg2 (by decide)).trans <|
    (W1_keep m ρ c main_arg2 (by decide)).trans rfl

/-! ## The two results at the end -/

/-- The context array ends at what the context region's write-backs leave in it. -/
theorem W4_main_v19 (c : Dev nD) : W4 H m ρ c (Proc.devRef .tc main_v19) = (H.D1 (V3 H m ρ) c).arrAt 2 cfg1.N :=
  W4_arr H m ρ c 2
/-- The attention weights are the context region's input window 1: they end as the softmax stretch left them. -/
theorem W4_main_v18 (c : Dev nD) : W4 H m ρ c (Proc.devRef .tc main_v18) = W3 H m ρ c (Proc.devRef .tc main_v18) :=
  (W4_arr H m ρ c 1).trans (((H.D1 (V3 H m ρ) c).arrAt_in 1 rfl _).trans (H.hA1 (V3 H m ρ) c 1))
/-- The scores array, as the softmax stretch finds it, is what the scores region's write-backs leave in it. -/
theorem W2_main_v7 (c : Dev nD) : W2 H m ρ c (Proc.devRef .tc main_v7) = (H.D0 (V1 m ρ) c).arrAt 8 cfg0.N :=
  W2_arr H m ρ c 8

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => H.D0 (V1 m ρ) c
  | ⟨1, _⟩ => fun c => H.D1 (V3 H m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 H m ρ c) ∗ ∃ r, prngReg c r)

/-! ## The regions as segments -/

set_option backward.isDefEq.respectTransparency.types false in
/-- The scores region: entered from every unscoped buffer at `W1`, left at `W2`. -/
def reg0 : Pipeline.RegionSeg (pcfgs (F := F)) adm (pdats H m ρ) () defs₀ 𝒱₀ L lv 0 where
  win := launch0.win.to₀
  block_pos := launch0.block_pos
  stage_whole := launch0.stage_whole
  K := PEmpty
  osem k := k.elim
  ho := Pipeline.OwnSemFacts.none _
  hbody c := (H.hb0 (V1 m ρ) c).loose
  hwaits := Pipeline.hwaits_of_owed_zero _ _ _ _ L lv 0 fun c t => H.ho0 (V1 m ρ) c t
  pre c := iprop(StableHlo.held (c : Thread nD τ) (Pipeline.ucRefs τ sig) (W1 m ρ c) ∗ R c)
  post c := iprop(StableHlo.held (c : Thread nD τ) (Pipeline.ucRefs τ sig) (W2 H m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats H m ρ) launch0.win launch0.arr_whole c
      ((pdats H m ρ 0 c).share_full fun w => H.hq0 (V1 m ρ) c w) (V1 m ρ c) fun w => H.hA0 (V1 m ρ) c w
    rw [Pipeline.unscopedBufs_held] at hsplit
    iintro ⟨⟨Hub, Hp, HO⟩, -, -⟩
    ihave Hs := hsplit $$ Hub
    icases Hs with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      simp only [show (pdats H m ρ 0 c).owed = fun _ => 0 from funext fun t => H.ho0 (V1 m ρ) c t]
      icases HO with ⟨%W, HO⟩; iexists W; isplitr
      · ipureintro; exact fun x _ => Or.inl (by rw [show (pdats H m ρ 0 c).recorded 0 = Set.univ from H.hr0 (V1 m ρ) c 0]; trivial)
      iexact HO
    isplitl [Hp]; · iexact Hp
    iexact Hrest
  hin c := by
    refine BIBase.Entails.trans ?_ (H.hin0 (V1 m ρ) c)
    unfold Pipeline.ΦA
    iintro ⟨Hp, -, Hr⟩
    isplitl [Hr]; · iexact Hr
    iexact Hp
  hout c := by
    rw [Pipeline.ownSems0_none]
    refine BIBase.Entails.trans (H.hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats H m ρ) ((pdats H m ρ 0 c).share_full fun w => H.hq0 (V1 m ρ) c w)
      (V1 m ρ c) (V2 H m ρ c) ((pdats H m ρ 0 c).arrAt · cfg0.N) (hF0 H m ρ c) (hrest0 H m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    simp only [show (pdats H m ρ 0 c).owed = fun _ => 0 from funext fun t => H.ho0 (V1 m ρ) c t]
    icases HO with ⟨%W, -, HO⟩; iexists W; iexact HO

set_option backward.isDefEq.respectTransparency.types false in
/-- The context region: entered from every unscoped buffer at `W3`, left at `W4`. -/
def reg1 : Pipeline.RegionSeg (pcfgs (F := F)) adm (pdats H m ρ) () defs₀ 𝒱₀ L lv 1 where
  win := launch1.win.to₀
  block_pos := launch1.block_pos
  stage_whole := launch1.stage_whole
  K := PEmpty
  osem k := k.elim
  ho := Pipeline.OwnSemFacts.none _
  hbody c := (H.hb1 (V3 H m ρ) c).loose
  hwaits := Pipeline.hwaits_of_owed_zero _ _ _ _ L lv 1 fun c t => H.ho1 (V3 H m ρ) c t
  pre c := iprop(StableHlo.held (c : Thread nD τ) (Pipeline.ucRefs τ sig) (W3 H m ρ c) ∗ R c)
  post c := iprop(Tₙ H m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 H m ρ c)
  hentry c := by
    rw [Pipeline.ownSems0_none]
    have hsplit := Pipeline.arrays_of_unscopedBufs (p := 1) (pcfgs (F := F)) adm (pdats H m ρ) launch1.win launch1.arr_whole c
      ((pdats H m ρ 1 c).share_full fun w => H.hq1 (V3 H m ρ) c w) (V3 H m ρ c) fun w => H.hA1 (V3 H m ρ) c w
    rw [Pipeline.unscopedBufs_held] at hsplit
    iintro ⟨⟨Hub, Hp, HO⟩, -, -⟩
    ihave Hs := hsplit $$ Hub
    icases Hs with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      simp only [show (pdats H m ρ 1 c).owed = fun _ => 0 from funext fun t => H.ho1 (V3 H m ρ) c t]
      icases HO with ⟨%W, HO⟩; iexists W; isplitr
      · ipureintro; exact fun x _ => Or.inl (by rw [show (pdats H m ρ 1 c).recorded 0 = Set.univ from H.hr1 (V3 H m ρ) c 0]; trivial)
      iexact HO
    isplitl [Hp]; · iexact Hp
    iexact Hrest
  hin c := by
    refine BIBase.Entails.trans ?_ (H.hin1 (V3 H m ρ) c)
    unfold Pipeline.ΦA
    iintro ⟨Hp, -, Hr⟩
    isplitl [Hr]; · iexact Hr
    iexact Hp
  hout c := by
    rw [Pipeline.ownSems0_none]
    refine BIBase.Entails.trans (H.hout1 (V3 H m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats H m ρ) ((pdats H m ρ 1 c).share_full fun w => H.hq1 (V3 H m ρ) c w)
      (V3 H m ρ c) (V4 H m ρ c) ((pdats H m ρ 1 c).arrAt · cfg1.N) (hF1 H m ρ c) (hrest1 H m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    simp only [show (pdats H m ρ 1 c).owed = fun _ => 0 from funext fun t => H.ho1 (V3 H m ρ) c t]
    icases HO with ⟨%W, -, HO⟩; iexists W; iexact HO

/-! ## The program as its segments, and the run -/

abbrev segs : List (Pipeline.Seg (pcfgs (F := F)) adm (pdats H m ρ) () defs₀ 𝒱₀ L lv) :=
  [ .host (hseg hostOps0 hostOps0_sub hostOps0_fresh (W0 m ρ)),
    .region (reg0 H m ρ),
    .host (hseg hostOps1 hostOps1_sub hostOps1_fresh (W2 H m ρ)),
    .region (reg1 H m ρ) ]
theorem main_run (c : Dev nD) : main (F := F) c = Pipeline.Seg.run (segs H m ρ) := (main_chain c).trans (by chain_rfl)

set_option backward.isDefEq.respectTransparency.types false in
/-- Every weakly fair execution of the program terminates, nothing faulting, and every final memory holds every
    unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 H m ρ c b) :=
  Pipeline.θ_run_regions_kit (pcfgs (F := F)) adm (pdats H m ρ) () cellOf_inj emb₁ defs₀ 𝒱₀ L lv m ρ main (segs H m ρ)
    (fun c Q => by rw [main_run H m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ H m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 H m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 H m ρ c) s')
      isplitl [Hh] <;> iassumption)
    (hQ := fun s h c => h c)

/-- The frame claim: every argument array ends as launched. -/
theorem frame (H : Halves F) (m : (ℓ : Loc nD τ sig) → Buf (Elt F) ℓ) (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (W4_main_arg0 H m ρ c),
     (h c _ (mem_uc main_arg1 (by decide))).trans (W4_main_arg1 H m ρ c),
     (h c _ (mem_uc main_arg2 (by decide))).trans (W4_main_arg2 H m ρ c),
     (h c _ (mem_uc main_arg3 (by decide))).trans (W4_main_arg3 H m ρ c),
     (h c _ (mem_uc main_arg4 (by decide))).trans (W4_main_arg4 H m ρ c),
     (h c _ (mem_uc main_arg5 (by decide))).trans (W4_main_arg5 H m ρ c),
     (h c _ (mem_uc main_arg6 (by decide))).trans (W4_main_arg6 H m ρ c),
     (h c _ (mem_uc main_arg7 (by decide))).trans (W4_main_arg7 H m ρ c),
     (h c _ (mem_uc main_arg8 (by decide))).trans (W4_main_arg8 H m ρ c)⟩) (run_all H m ρ)

end Cert.Kernel.Hand

end
-- ==== Proof.ScoresRegionBits.lean ====
import proofs.«116499_j36532991820656_1_alg».proof.Proof.Gen.Kernel.Launch
import proofs.«116499_j36532991820656_1_alg».proof.Proof.Gen.Kernel.Skeleton
import proofs.«116499_j36532991820656_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The scores region: what one grid point's body does, at arbitrary entry contents

The first pipelined region computes, for each batch row `b` and each sequence tile `s`, the block of
unnormalised attention scores `tanh(q·Wq + bq + k·Wk + bk)·Wa + ba` of that tile. Each grid point reads the
eight input blocks (the query row, the key tile, and the six parameter arrays, which are whole-array blocks with
a constant index) and overwrites the whole output block with a closed function of them.

Everything is stated at a parameter `V`, the contents of the core's buffers when the region is entered, and at
an arbitrary floating-point model `F`: nothing below depends on how `F` rounds.
-/

-- membership of an index in a rectangle with an axis of extent 512 or 1024 is decided by a structural
-- recursion that is as deep as the axis is long
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section ScoresRegion
-- the contents of the core's buffers at the moment the region is entered
variable (V : (c : Dev nD) → (b : Ref sig .tc) → Buf (Elt F) ((c : Thread nD τ).loc b))

/-! ## The windows' blocks -/

/-- The block of window `w` at grid point `t`: the sub-array of the window's array, as the region finds it,
    that the window's index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: at every grid point its current staging buffer holds its block there, whether or not the
    block was transferred at that point. If it was not, the block index is the one of the point before, and the
    body leaves an input buffer as it found it (`hafter`), so the buffer still holds the same block. Stated for any
    proof data over the region-entry arrays (`hA`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: at every grid point its current staging buffer holds its block there, whether or not the
    block was transferred at that point. If it was not, the block index is the one of the point before, and the
    body leaves an input buffer as it found it (`hafter`), so the buffer still holds the same block. Stated for any
    proof data over the region-entry arrays (`hA`). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: at every grid point its current staging buffer holds its block there, whether or not the
    block was transferred at that point. If it was not, the block index is the one of the point before, and the
    body leaves an input buffer as it found it (`hafter`), so the buffer still holds the same block. Stated for any
    proof data over the region-entry arrays (`hA`). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3: at every grid point its current staging buffer holds its block there, whether or not the
    block was transferred at that point. If it was not, the block index is the one of the point before, and the
    body leaves an input buffer as it found it (`hafter`), so the buffer still holds the same block. Stated for any
    proof data over the region-entry arrays (`hA`). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4: at every grid point its current staging buffer holds its block there, whether or not the
    block was transferred at that point. If it was not, the block index is the one of the point before, and the
    body leaves an input buffer as it found it (`hafter`), so the buffer still holds the same block. Stated for any
    proof data over the region-entry arrays (`hA`). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5: at every grid point its current staging buffer holds its block there, whether or not the
    block was transferred at that point. If it was not, the block index is the one of the point before, and the
    body leaves an input buffer as it found it (`hafter`), so the buffer still holds the same block. Stated for any
    proof data over the region-entry arrays (`hA`). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6: at every grid point its current staging buffer holds its block there, whether or not the
    block was transferred at that point. If it was not, the block index is the one of the point before, and the
    body leaves an input buffer as it found it (`hafter`), so the buffer still holds the same block. Stated for any
    proof data over the region-entry arrays (`hA`). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7: at every grid point its current staging buffer holds its block there, whether or not the
    block was transferred at that point. If it was not, the block index is the one of the point before, and the
    body leaves an input buffer as it found it (`hafter`), so the buffer still holds the same block. Stated for any
    proof data over the region-entry arrays (`hA`). -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through: each the whole of its buffer -/

abbrev r0_0 : Rect S1x1x1024 := Rect.unit (s := S1x1x1024) ![0, 0, 0] S1x1x1024.size inb_S1x1x1024_S1x1x1024_0_0_0
abbrev r0_1 : Rect S1024x1024 := Rect.unit (s := S1024x1024) ![0, 0] S1024x1024.size inb_S1024x1024_S1024x1024_0_0
abbrev r0_2 : Rect S1x512x1024 := Rect.unit (s := S1x512x1024) ![0, 0, 0] S1x512x1024.size inb_S1x512x1024_S1x512x1024_0_0_0
abbrev r0_3 : Rect S1024x1 := Rect.unit (s := S1024x1) ![0, 0] S1024x1.size inb_S1024x1_S1024x1_0_0
abbrev r0_4 : Rect S1x1 := Rect.unit (s := S1x1) ![0, 0] S1x1.size inb_S1x1_S1x1_0_0
abbrev r0_5 : Rect S1x512x1 := Rect.unit (s := S1x512x1) ![0, 0, 0] S1x512x1.size inb_S1x512x1_S1x512x1_0_0_0

/-! ## What the body leaves in the output window's buffer -/

/-- The output block after the body, as a function of the eight input blocks `x0 … x7` (window order): the single
    whole-block store of the score tile. The score payload takes its operands in the order the body loads them:
    query row, `Wq`, `bq`, key tile, `Wk`, `bk`, `Wa`, `ba`, that is windows 0, 2, 3, 1, 4, 5, 6, 7. -/
def out0_8 (x0 : Vec F S1x1x1024 .f32) (x1 : Vec F S1x512x1024 .f32) (x2 : Vec F S1024x1024 .bf16) (x3 : Vec F S1x1x1024 .f32)
    (x4 : Vec F S1024x1024 .bf16) (x5 : Vec F S1x1x1024 .f32) (x6 : Vec F S1024x1 .bf16) (x7 : Vec F S1x1 .f32) : Vec F S1x512x1 .f32 :=
  View.canon [⟨r0_5, k0_pay1 (k0_pay2 (View.ld x0 r0_0) (View.ld x2 r0_1) (View.ld x3 r0_0) (View.ld x1 r0_2) (View.ld x4 r0_1) (View.ld x5 r0_0) (View.ld x6 r0_3) (View.ld x7 r0_4))⟩]

/-- The one store is through the whole-block rectangle, so every index of the block lies in it. -/
theorem cover0_8 (p0 : Vec F S1x512x1 .f32) (y : S1x512x1.Idx) :
    ∃ pc ∈ ([⟨r0_5, p0⟩] : List (View.Piece (Elt F) S1x512x1 .f32)), y ∈ pc.1.set :=
  View.cover_of_tiled [⟨r0_5, p0⟩] S1x512x1.size (by rfl) y

/-! ## The body's triple -/

set_option maxHeartbeats 1000000 in
/-- The body, run on whole staging buffers — the inputs' reading `x0 … x7`, the output's holding anything — ends
    with the inputs' unchanged and the output's reading `out0_8 x0 … x7`. The body is eight whole-buffer loads
    (and a ninth, of the output buffer, whose value is never used) followed by one whole-buffer store: the loads
    read `View.ld xW r`, and a store through a rectangle covering the buffer leaves exactly its payload. -/
theorem sound_kernel0 (c : Dev nD) (E : Set ℕ) (i : grid0.Coords) (arg2 : Memref sig .tc .vmem S1x1x1024 .f32) (harg2 : arg2.IsWhole) (arg3 : Memref sig .tc .vmem S1x512x1024 .f32) (harg3 : arg3.IsWhole) (arg4 : Memref sig .tc .vmem S1024x1024 .bf16) (harg4 : arg4.IsWhole) (arg5 : Memref sig .tc .vmem S1x1x1024 .f32) (harg5 : arg5.IsWhole) (arg6 : Memref sig .tc .vmem S1024x1024 .bf16) (harg6 : arg6.IsWhole) (arg7 : Memref sig .tc .vmem S1x1x1024 .f32) (harg7 : arg7.IsWhole) (arg8 : Memref sig .tc .vmem S1024x1 .bf16) (harg8 : arg8.IsWhole) (arg9 : Memref sig .tc .vmem S1x1 .f32) (harg9 : arg9.IsWhole) (arg10 : Memref sig .tc .vmem S1x512x1 .f32) (harg10 : arg10.IsWhole)
    (x0 : Vec F S1x1x1024 .f32) (x1 : Vec F S1x512x1024 .f32) (x2 : Vec F S1024x1024 .bf16) (x3 : Vec F S1x1x1024 .f32) (x4 : Vec F S1024x1024 .bf16) (x5 : Vec F S1x1x1024 .f32) (x6 : Vec F S1024x1 .bf16) (x7 : Vec F S1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (out0_8 x0 x1 x2 x3 x4 x5 x6 x7)) -∗ K ⟨⟩))
      ⊢ wp frame (wpE (defs₀ (F := F)) Variants.none c none) E (cc0__scores_kernel i arg2 harg2 arg3 harg3 arg4 harg4 arg5 harg5 arg6 harg6 arg7 harg7 arg8 harg8 arg9 harg9 arg10 harg10) K := by
  simp only [cc0__scores_kernel_eq_skeleton]; unfold cc0__scores_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover0_8 _)

/-! ## The pipeline's proof data -/

/-- The proof data of the scores pipeline on core `c`. The arrays are as the region finds them (`V`). After the
    body at point `t` each input window's buffer holds its block and the output window's holds `out0_8` of the
    eight input blocks. The invariant carried from point to point is the untouched rest of the core's state; full
    ownership throughout, and nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) (iblk0 V c 7 t) := by dsimp only [dat0]

/-- Each input window's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation, at a generic point -/

/-- What the body is called with at point `t`: the invariant, what is owed, and each window's current staging
    buffer at what the schedule has left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- What it returns: the same, with each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point. The input buffers hold their blocks (`before0_W`), so the body's triple applies at
    those blocks; the invariant and what is owed are not touched by the body and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end ScoresRegion

end Cert.Kernel.Hand

end
-- ==== Proof.CtxCasesBits.lean ====
/- The second kernel region (the context-vector reduction), at the buffer contents `V` the TensorCore holds when the
   region is entered: what its three per-case runs and its proof data are stated over. The grid is 32 rows of 4 points;
   along a row the kernel zeroes its accumulator at the first point, adds the weighted block sum at every point, and
   copies the accumulator to the output block at the last point. -/
import proofs.«116499_j36532991820656_1_alg».proof.Proof.Gen.Kernel.Launch
import proofs.«116499_j36532991820656_1_alg».proof.Proof.Gen.Kernel.Skeleton
import proofs.«116499_j36532991820656_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The value window's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of the weight window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional: the point is the first of its row (its second coordinate is 0). -/
abbrev cond1_0 (i : grid1.Coords) : Prop := (Scalar.cmpi .ne (Scalar.extui (Scalar.cmpi .eq (BitVec.ofNat 32 (i 1).val) 0#32)) 0#32) = 1#1
/-- It holds at the points ≡ 0 (mod 4): decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second conditional: the point is the last of its row (its second coordinate is 3). -/
abbrev cond1_1 (i : grid1.Coords) : Prop := k1_cond2 i = 1#1
/-- It holds at the points ≡ 3 (mod 4): decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- At a row's first point the output window is idle (nothing is stored into it) and is not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
/-- The same at a row's middle points. -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- At a row's last point the output window is live: the accumulator is stored into it. -/
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated (the choice does not matter). -/
abbrev VO1_2 : View sig .tc .vmem S1x1x1024 .f32 := (Memref.whole cc1_stg2_0 : Memref sig .tc .vmem S1x1x1024 .f32).view
/-- Each window's current staging memref at point `t`, as the pipeline passes it, and its wholeness. -/
abbrev ms1_0 (t : Fin cfg1.N) : Memref sig .tc .vmem S1x512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x1024 .f32 := win1_2.stage (cfg1.slots t 2)
abbrev hs1_2 (t : Fin cfg1.N) : (ms1_2 t).IsWhole := hstage1_2 ((cfg1.slots t 2).cast nbuf1_2)
/-- The accumulator: a whole scoped buffer of the kernel's own, passed beside the windows and carried between points. -/
abbrev scM1_0 : Memref sig .tc .vmem S1x1x1024 .f32 := Memref.whole cc1_scratch0
/-- The accumulator as a view: what it holds is stated through it. -/
abbrev VS1_0 : View sig .tc .vmem S1x1x1024 .f32 := scM1_0.view

/-! ## The region's invariant, with the accumulator named -/

/-- Every scoped buffer of the core that is neither a staging buffer of this region nor its accumulator (the other
    region's staging buffers), each whole at some contents: carried through this region unopened. -/
abbrev Rest1 (c : Dev nD) : sProp 𝕄 :=
  Pipeline.scopedRestBut (Ix := Unit) (Name := ℕ) (U := UR sig nD τ) (Lvl := ℕ) (Val := Elt F) spec1 c [cc1_scratch0]

/-- The region's class invariant with the accumulator as a memref owned at some contents, the other scoped buffers
    an unopened rest, and the generator register at some state. -/
theorem PhiA1_eq (c : Dev nD) :
    (Pipeline.ΦA spec1 c : sProp 𝕄)
      = iprop(iprop((∃ d, owns (c : Thread nD τ) scM1_0 fullShare d) ∗ Rest1 (F := F) c) ∗ (∃ r, prngReg c r)) := by
  unfold Pipeline.ΦA
  rw [Pipeline.scopedRest_split_of_list spec1 c [cc1_scratch0] (by decide) (by decide)]
  simp only [bigSepL_singleton, scM1_0, owns_whole]; try rfl

end Cert.Kernel.Hand

end
-- ==== Proof.CtxRunABits.lean ====
/- The context kernel's body at the FIRST point of a row: the accumulator is zeroed, then this point's weighted block
   sum is added to it; nothing is stored into the output block. -/
import proofs.«116499_j36532991820656_1_alg».proof.Proof.CtxCasesBits

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave, as pieces (last first), at a row's first point (first conditional taken, second not),
    WITH the proof that on whole memrefs — the two inputs' at their blocks `x0`, `x1`, the output's at contents `xi2`
    handed back untouched, the accumulator at anything — the body runs to the continuation holding the inputs' and the
    output's as they were and the accumulator with its pieces `LS0` written. -/
noncomputable def kernelRun1_A (c : Dev nD) (i : grid1.Coords) (arg2 : Memref sig .tc .vmem S1x512x1024 .f32) (harg2 : arg2.IsWhole) (arg3 : Memref sig .tc .vmem S1x512x1 .f32) (harg3 : arg3.IsWhole) (arg4 : Memref sig .tc .vmem S1x1x1024 .f32) (harg4 : arg4.IsWhole) (arg5 : Memref sig .tc .vmem S1x1x1024 .f32) (harg5 : arg5.IsWhole) (hc0 : cond1_0 i) (hc1 : ¬cond1_1 i)
    (x0 : Vec F S1x512x1024 .f32) (x1 : Vec F S1x512x1 .f32) :
    Σ' (L2 : List (View.Piece (Elt F) S1x1x1024 .f32)), { LS0 : List (View.Piece (Elt F) S1x1x1024 .f32) //
      ∀ (xi2 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__ctx_kernel i arg2 harg2 arg3 harg3 arg4 harg4 arg5 harg5) K } := by
  refine ⟨[], ?_, fun xi2 E K => ?run⟩
  case run =>
    simp only [cc1__ctx_kernel_eq_skeleton]; unfold cc1__ctx_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.CtxRunBBits.lean ====
/- The context kernel's body at a MIDDLE point of a row: this point's weighted block sum is added to the accumulator
   the point before left; nothing is stored into the output block. -/
import proofs.«116499_j36532991820656_1_alg».proof.Proof.CtxRunABits

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave, as pieces (last first), at a row's middle points (neither conditional taken), WITH
    the proof that on whole memrefs — the two inputs' at their blocks `x0`, `x1`, the output's at contents `xi2` handed
    back untouched, the accumulator at what the point before left (`xs0`) — the body runs to the continuation holding
    the inputs' and the output's as they were and the accumulator with its pieces `LS0` written. -/
noncomputable def kernelRun1_B (c : Dev nD) (i : grid1.Coords) (arg2 : Memref sig .tc .vmem S1x512x1024 .f32) (harg2 : arg2.IsWhole) (arg3 : Memref sig .tc .vmem S1x512x1 .f32) (harg3 : arg3.IsWhole) (arg4 : Memref sig .tc .vmem S1x1x1024 .f32) (harg4 : arg4.IsWhole) (arg5 : Memref sig .tc .vmem S1x1x1024 .f32) (harg5 : arg5.IsWhole) (hc0 : ¬cond1_0 i) (hc1 : ¬cond1_1 i)
    (x0 : Vec F S1x512x1024 .f32) (x1 : Vec F S1x512x1 .f32) (xs0 : Vec F S1x1x1024 .f32) :
    Σ' (L2 : List (View.Piece (Elt F) S1x1x1024 .f32)), { LS0 : List (View.Piece (Elt F) S1x1x1024 .f32) //
      ∀ (xi2 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__ctx_kernel i arg2 harg2 arg3 harg3 arg4 harg4 arg5 harg5) K } := by
  refine ⟨[], ?_, fun xi2 E K => ?run⟩
  case run =>
    simp only [cc1__ctx_kernel_eq_skeleton]; unfold cc1__ctx_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.CtxRunCBits.lean ====
/- The context kernel's body at the LAST point of a row: this point's weighted block sum is added to the accumulator
   the point before left, and the accumulator is then copied whole into the output block. -/
import proofs.«116499_j36532991820656_1_alg».proof.Proof.CtxRunBBits

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave, as pieces (last first), at a row's last point (first conditional not taken, second
    taken), WITH the proof that on whole memrefs — the two inputs' at their blocks `x0`, `x1`, the output's at anything,
    the accumulator at what the point before left (`xs0`) — the body runs to the continuation holding the inputs' as
    they were, the output's with its pieces `L2` written and the accumulator with its pieces `LS0` written. -/
noncomputable def kernelRun1_C (c : Dev nD) (i : grid1.Coords) (arg2 : Memref sig .tc .vmem S1x512x1024 .f32) (harg2 : arg2.IsWhole) (arg3 : Memref sig .tc .vmem S1x512x1 .f32) (harg3 : arg3.IsWhole) (arg4 : Memref sig .tc .vmem S1x1x1024 .f32) (harg4 : arg4.IsWhole) (arg5 : Memref sig .tc .vmem S1x1x1024 .f32) (harg5 : arg5.IsWhole) (hc0 : ¬cond1_0 i) (hc1 : cond1_1 i)
    (x0 : Vec F S1x512x1024 .f32) (x1 : Vec F S1x512x1 .f32) (xs0 : Vec F S1x1x1024 .f32) :
    Σ' (L2 : List (View.Piece (Elt F) S1x1x1024 .f32)), { LS0 : List (View.Piece (Elt F) S1x1x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__ctx_kernel i arg2 harg2 arg3 harg3 arg4 harg4 arg5 harg5) K } := by
  refine ⟨?_, ?_, fun E K => ?run⟩
  case run =>
    simp only [cc1__ctx_kernel_eq_skeleton]; unfold cc1__ctx_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.CtxRegionBits.lean ====
/- The second kernel region (the context-vector reduction) at the buffer contents `V` it is entered with: what the
   output block and the accumulator hold after each grid point, the region's proof data, and its body obligation.
   Along a row of 4 points the accumulator is zeroed and first added to (case A), added to (case B, twice), then added
   to and copied out (case C); the accumulator is zeroed again at the first point of EVERY row, so at such a point after
   the first row the invariant hands it over at the previous row's total and case A takes it at anything. -/
import proofs.«116499_j36532991820656_1_alg».proof.Proof.CtxRunCBits

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves in the output block and in the accumulator -/

/-- Case A stores nothing into the output block: no pieces. A placeholder nothing consults, since at these points the
    window is neither written back nor read at the next point. -/
def out1_A_2 (c : Dev nD) (i : grid1.Coords) (arg2 : Memref sig .tc .vmem S1x512x1024 .f32) (harg2 : arg2.IsWhole) (arg3 : Memref sig .tc .vmem S1x512x1 .f32) (harg3 : arg3.IsWhole) (arg4 : Memref sig .tc .vmem S1x1x1024 .f32) (harg4 : arg4.IsWhole) (arg5 : Memref sig .tc .vmem S1x1x1024 .f32) (harg5 : arg5.IsWhole) (hc0 : cond1_0 i) (hc1 : ¬cond1_1 i)
    (x0 : Vec F S1x512x1024 .f32) (x1 : Vec F S1x512x1 .f32) : Vec F S1x1x1024 .f32 :=
  VO1_2.read (Elt F) (VO1_2.writes (Elt F) VO1_2.junk (kernelRun1_A c i arg2 harg2 arg3 harg3 arg4 harg4 arg5 harg5 hc0 hc1 x0 x1).1)

/-- Case A's pieces for the accumulator cover it (each is the whole buffer). -/
theorem scover1_A_0 (c : Dev nD) (i : grid1.Coords) (arg2 : Memref sig .tc .vmem S1x512x1024 .f32) (harg2 : arg2.IsWhole) (arg3 : Memref sig .tc .vmem S1x512x1 .f32) (harg3 : arg3.IsWhole) (arg4 : Memref sig .tc .vmem S1x1x1024 .f32) (harg4 : arg4.IsWhole) (arg5 : Memref sig .tc .vmem S1x1x1024 .f32) (harg5 : arg5.IsWhole) (hc0 : cond1_0 i) (hc1 : ¬cond1_1 i)
    (x0 : Vec F S1x512x1024 .f32) (x1 : Vec F S1x512x1 .f32) (y : S1x1x1024.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1x1x1024.size (by sl_kernel_rfl) y

/-- What case A leaves in the accumulator: zero plus this point's weighted block sum. -/
def sout1_A_0 (c : Dev nD) (i : grid1.Coords) (arg2 : Memref sig .tc .vmem S1x512x1024 .f32) (harg2 : arg2.IsWhole) (arg3 : Memref sig .tc .vmem S1x512x1 .f32) (harg3 : arg3.IsWhole) (arg4 : Memref sig .tc .vmem S1x1x1024 .f32) (harg4 : arg4.IsWhole) (arg5 : Memref sig .tc .vmem S1x1x1024 .f32) (harg5 : arg5.IsWhole) (hc0 : cond1_0 i) (hc1 : ¬cond1_1 i)
    (x0 : Vec F S1x512x1024 .f32) (x1 : Vec F S1x512x1 .f32) : Vec F S1x1x1024 .f32 :=
  VS1_0.read (Elt F) (VS1_0.writes (Elt F) VS1_0.junk (kernelRun1_A c i arg2 harg2 arg3 harg3 arg4 harg4 arg5 harg5 hc0 hc1 x0 x1).2.1)

/-- Case B stores nothing into the output block: a placeholder, as in case A. -/
def out1_B_2 (c : Dev nD) (i : grid1.Coords) (arg2 : Memref sig .tc .vmem S1x512x1024 .f32) (harg2 : arg2.IsWhole) (arg3 : Memref sig .tc .vmem S1x512x1 .f32) (harg3 : arg3.IsWhole) (arg4 : Memref sig .tc .vmem S1x1x1024 .f32) (harg4 : arg4.IsWhole) (arg5 : Memref sig .tc .vmem S1x1x1024 .f32) (harg5 : arg5.IsWhole) (hc0 : ¬cond1_0 i) (hc1 : ¬cond1_1 i)
    (x0 : Vec F S1x512x1024 .f32) (x1 : Vec F S1x512x1 .f32) (xs0 : Vec F S1x1x1024 .f32) : Vec F S1x1x1024 .f32 :=
  VO1_2.read (Elt F) (VO1_2.writes (Elt F) VO1_2.junk (kernelRun1_B c i arg2 harg2 arg3 harg3 arg4 harg4 arg5 harg5 hc0 hc1 x0 x1 xs0).1)

/-- Case B's pieces for the accumulator cover it. -/
theorem scover1_B_0 (c : Dev nD) (i : grid1.Coords) (arg2 : Memref sig .tc .vmem S1x512x1024 .f32) (harg2 : arg2.IsWhole) (arg3 : Memref sig .tc .vmem S1x512x1 .f32) (harg3 : arg3.IsWhole) (arg4 : Memref sig .tc .vmem S1x1x1024 .f32) (harg4 : arg4.IsWhole) (arg5 : Memref sig .tc .vmem S1x1x1024 .f32) (harg5 : arg5.IsWhole) (hc0 : ¬cond1_0 i) (hc1 : ¬cond1_1 i)
    (x0 : Vec F S1x512x1024 .f32) (x1 : Vec F S1x512x1 .f32) (xs0 : Vec F S1x1x1024 .f32) (y : S1x1x1024.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1x1x1024.size (by sl_kernel_rfl) y

/-- What case B leaves in the accumulator: what the point before left plus this point's weighted block sum. -/
def sout1_B_0 (c : Dev nD) (i : grid1.Coords) (arg2 : Memref sig .tc .vmem S1x512x1024 .f32) (harg2 : arg2.IsWhole) (arg3 : Memref sig .tc .vmem S1x512x1 .f32) (harg3 : arg3.IsWhole) (arg4 : Memref sig .tc .vmem S1x1x1024 .f32) (harg4 : arg4.IsWhole) (arg5 : Memref sig .tc .vmem S1x1x1024 .f32) (harg5 : arg5.IsWhole) (hc0 : ¬cond1_0 i) (hc1 : ¬cond1_1 i)
    (x0 : Vec F S1x512x1024 .f32) (x1 : Vec F S1x512x1 .f32) (xs0 : Vec F S1x1x1024 .f32) : Vec F S1x1x1024 .f32 :=
  VS1_0.read (Elt F) (VS1_0.writes (Elt F) VS1_0.junk (kernelRun1_B c i arg2 harg2 arg3 harg3 arg4 harg4 arg5 harg5 hc0 hc1 x0 x1 xs0).2.1)

/-- Case C's one store into the output block is the whole block, so its pieces cover it. -/
theorem cover1_C_2 (c : Dev nD) (i : grid1.Coords) (arg2 : Memref sig .tc .vmem S1x512x1024 .f32) (harg2 : arg2.IsWhole) (arg3 : Memref sig .tc .vmem S1x512x1 .f32) (harg3 : arg3.IsWhole) (arg4 : Memref sig .tc .vmem S1x1x1024 .f32) (harg4 : arg4.IsWhole) (arg5 : Memref sig .tc .vmem S1x1x1024 .f32) (harg5 : arg5.IsWhole) (hc0 : ¬cond1_0 i) (hc1 : cond1_1 i)
    (x0 : Vec F S1x512x1024 .f32) (x1 : Vec F S1x512x1 .f32) (xs0 : Vec F S1x1x1024 .f32) (y : S1x1x1024.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1x1x1024.size (by sl_kernel_rfl) y

/-- What case C leaves in the output block: the accumulator after this point's addition. -/
def out1_C_2 (c : Dev nD) (i : grid1.Coords) (arg2 : Memref sig .tc .vmem S1x512x1024 .f32) (harg2 : arg2.IsWhole) (arg3 : Memref sig .tc .vmem S1x512x1 .f32) (harg3 : arg3.IsWhole) (arg4 : Memref sig .tc .vmem S1x1x1024 .f32) (harg4 : arg4.IsWhole) (arg5 : Memref sig .tc .vmem S1x1x1024 .f32) (harg5 : arg5.IsWhole) (hc0 : ¬cond1_0 i) (hc1 : cond1_1 i)
    (x0 : Vec F S1x512x1024 .f32) (x1 : Vec F S1x512x1 .f32) (xs0 : Vec F S1x1x1024 .f32) : Vec F S1x1x1024 .f32 :=
  VO1_2.read (Elt F) (VO1_2.writes (Elt F) VO1_2.junk (kernelRun1_C c i arg2 harg2 arg3 harg3 arg4 harg4 arg5 harg5 hc0 hc1 x0 x1 xs0).1)

/-- Case C's pieces for the accumulator cover it. -/
theorem scover1_C_0 (c : Dev nD) (i : grid1.Coords) (arg2 : Memref sig .tc .vmem S1x512x1024 .f32) (harg2 : arg2.IsWhole) (arg3 : Memref sig .tc .vmem S1x512x1 .f32) (harg3 : arg3.IsWhole) (arg4 : Memref sig .tc .vmem S1x1x1024 .f32) (harg4 : arg4.IsWhole) (arg5 : Memref sig .tc .vmem S1x1x1024 .f32) (harg5 : arg5.IsWhole) (hc0 : ¬cond1_0 i) (hc1 : cond1_1 i)
    (x0 : Vec F S1x512x1024 .f32) (x1 : Vec F S1x512x1 .f32) (xs0 : Vec F S1x1x1024 .f32) (y : S1x1x1024.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1x1x1024.size (by sl_kernel_rfl) y

/-- What case C leaves in the accumulator: what the point before left plus this point's weighted block sum. -/
def sout1_C_0 (c : Dev nD) (i : grid1.Coords) (arg2 : Memref sig .tc .vmem S1x512x1024 .f32) (harg2 : arg2.IsWhole) (arg3 : Memref sig .tc .vmem S1x512x1 .f32) (harg3 : arg3.IsWhole) (arg4 : Memref sig .tc .vmem S1x1x1024 .f32) (harg4 : arg4.IsWhole) (arg5 : Memref sig .tc .vmem S1x1x1024 .f32) (harg5 : arg5.IsWhole) (hc0 : ¬cond1_0 i) (hc1 : cond1_1 i)
    (x0 : Vec F S1x512x1024 .f32) (x1 : Vec F S1x512x1 .f32) (xs0 : Vec F S1x1x1024 .f32) : Vec F S1x1x1024 .f32 :=
  VS1_0.read (Elt F) (VS1_0.writes (Elt F) VS1_0.junk (kernelRun1_C c i arg2 harg2 arg3 harg3 arg4 harg4 arg5 harg5 hc0 hc1 x0 x1 xs0).2.1)

/-! ## What the output block and the accumulator hold after each point -/

/-- THE ACCUMULATION. What the output window's staging buffer and the accumulator hold after the body at position `n`:
    the case that `n mod 4` selects, run at the point's memrefs and input blocks, cases B and C over what this leaves in
    the accumulator at `n - 1`; case A over nothing (it zeroes the accumulator first). No point is both first and last
    of its row. -/
def outsAt1 (c : Dev nD) : (n : ℕ) → n < cfg1.N → Vec F S1x1x1024 .f32 × Vec F S1x1x1024 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a row's first point: case A's contents. -/
theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a row's middle point: case B's contents, over what the point before left. -/
theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a row's last point: case C's contents, over what the point before left. -/
theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The invariant before position `n`: before the first point the class's (every scoped buffer at anything); afterwards
    the accumulator at what the point before left in it, the other scoped buffers at anything, and the generator register
    at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Rest1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(owns (c : Thread nD τ) scM1_0 fullShare ((outsAt1 V c n hn).2) ∗ Rest1 (F := F) c) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Rest1 (F := F) c) ∗ (∃ r, prngReg c r)) := by
  cases n with
  | zero => exact absurd rfl hz
  | succ n => rfl

/-! ## The pipeline's proof data -/

/-- The proof data of this region's pipeline on core `c`: the arrays as the region finds them (`V`); after the body at
    point `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; `t mod 4` says which case the point is in; the
    invariant hands the body the accumulator at what the point before left (at anything at the first point; case A takes
    it at anything in every row), the other scoped buffers and the generator register untouched, and takes the accumulator
    back at this point's contents (its pieces cover it); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _)
            iexact HR
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, HR⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      have hz : t.val ≠ 0 := by omega
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulator's named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.Kernel.Hand

end
-- ==== Proof.WholeBits.lean ====
/-
  The two regions' proof data put into the run: the scores kernel's (its one whole store of the scores of its
  tile) and the context kernel's (its running total carried in scratch from point to point), each reading its
  arrays off the contents its region is entered from, at full shares, owing nothing.
-/
import proofs.«116499_j36532991820656_1_alg».proof.Proof.RunBits
import proofs.«116499_j36532991820656_1_alg».proof.Proof.ScoresRegionBits
import proofs.«116499_j36532991820656_1_alg».proof.Proof.CtxRegionBits

noncomputable section

namespace Cert.Kernel.Hand

open Cert.Kernel Cert.Kernel.Gen
open Idealize.ShloMosaic Idealize.ShloMosaic.TcCoe Idealize.SL.Sem
open Idealize.SL Idealize.SL.BI

variable {F : FTy → Type} [FloatOps F]

/-- The two regions' proof data, as the run takes them. -/
def halves : Halves F where
  D0 := dat0
  D1 := dat1
  hA0 := A_eq0
  hA1 := A_eq1
  hq0 := fun _ _ _ => rfl
  hq1 := fun _ _ _ => rfl
  ho0 := fun _ _ _ => rfl
  ho1 := fun _ _ _ => rfl
  hr0 := fun _ _ _ => rfl
  hr1 := fun _ _ _ => rfl
  hb0 := body_obligation0
  hb1 := body_obligation1
  hin0 := fun _ _ => .rfl
  hout0 := fun _ _ => .rfl
  hin1 := hin1
  hout1 := hout1

end Cert.Kernel.Hand

end
-- ==== Proof.RefRead.lean ====
/-
  The reference's run read back one operation at a time: this module only brings the generated
  read-at-an-index lemmas of the reference into scope for the modules that state the reference's
  two results as functions of the argument arrays.
-/
import proofs.«116499_j36532991820656_1_alg».proof.Proof.Gen.ReferenceIdeal.Read
-- ==== Proof.Frames.lean ====
/-
  The three frame claims.  Each kernel program — the printed one read at machine words, and its idealization read
  on the extended reals — is the run of its four segments, whose last buffer contents hold every argument array as
  launched; the reference is a straight line of host operations, none of which writes an argument.
-/
import proofs.«116499_j36532991820656_1_alg».proof.Defs
import proofs.«116499_j36532991820656_1_alg».proof.Proof.Whole
import proofs.«116499_j36532991820656_1_alg».proof.Proof.WholeBits
import proofs.«116499_j36532991820656_1_alg».proof.Proof.RefRead
import proofs.«116499_j36532991820656_1_alg».proof.Proof.Gen.Pre_finite_inputs

noncomputable section

namespace Cert.Proof.Frames

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Hand.frame Cert.Kernel.Hand.halves m ρ

theorem frame_kernelIdeal : Cert.frame_KernelIdeal (hKernelIdeal := Cert.KernelIdeal.Gen.facts) (hPre_finite_inputs := Cert.Pre_finite_inputs.Gen.facts) :=
  fun m ρ _ => Cert.KernelIdeal.Hand.frame Cert.KernelIdeal.Hand.halves m ρ

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

end Cert.Proof.Frames

end
-- ==== Proof.HostRead.lean ====
/-
  What the two stretches of host operations leave in the buffers the kernels' regions read.

  Before the scores region: the three weight matrices pass through a change of float format, the three bias
  vectors are re-laid with leading unit axes, and the queries get a unit middle axis.  Between the regions: the
  attention weights are the softmax along the sequence axis of the scores array — one fixed chain of fourteen
  operations, named here as one function `softmaxSeq` of the scores and never opened.
-/
import proofs.«116499_j36532991820656_1_alg».proof.Proof.Run
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-- The softmax along the sequence axis, as the host computes it: subtract the row's maximum (joined with -inf),
    exponentiate, divide by the row's sum. -/
def softmaxSeq (x : FVec F S32x2048x1 .f32) : FVec F S32x2048x1 .f32 :=
  Host.divf
    (Host.exp (subf x (broadcastInDim S32x2048x1 ![0, 1, 2] bcast_S32x1x1_S32x2048x1_0_1_2 (broadcastInDim S32x1x1 ![0, 2] bcast_S32x1_S32x1x1_0_2
      (maximumf (broadcastInDim S32x1 ![] bcast_S_S32x1 (constant S_ .f32 0xFF800000#32))
        (Host.reduce FloatOps.maximumf x (constant S_ .f32 0xFF800000#32) reducesTo_S32x2048x1_S32x1_d1 h_S_))))))
    (broadcastInDim S32x2048x1 ![0, 1, 2] bcast_S32x1x1_S32x2048x1_0_1_2 (broadcastInDim S32x1x1 ![0, 2] bcast_S32x1_S32x1x1_0_2
      (Host.reduceAdd
        (Host.exp (subf x (broadcastInDim S32x2048x1 ![0, 1, 2] bcast_S32x1x1_S32x2048x1_0_1_2 (broadcastInDim S32x1x1 ![0, 2] bcast_S32x1_S32x1x1_0_2
          (maximumf (broadcastInDim S32x1 ![] bcast_S_S32x1 (constant S_ .f32 0xFF800000#32))
            (Host.reduce FloatOps.maximumf x (constant S_ .f32 0xFF800000#32) reducesTo_S32x2048x1_S32x1_d1 h_S_))))))
        (constant S_ .f32 0x00000000#32) reducesTo_S32x2048x1_S32x1_d1 h_S_)))

variable (H : Halves F) (m : (ℓ : Loc nD τ sig) → Buf (Elt F) ℓ) (ρ : Dev nD → PrngReg)

/-! ## Before the scores region -/

theorem W1_main_v6 (c : Dev nD) : (W1 m ρ c (Proc.devRef .tc main_v6) : FVec F S32x1x1024 .f32)
    = broadcastInDim S32x1x1024 ![0, 2] bcast_S32x1024_S32x1x1024_0_2 (m ((c : Thread nD τ).loc main_arg0)) := by
  show StableHlo.after hostOps0 _ (Proc.devRef .tc main_v6) = _
  after_results <;> rfl
theorem W1_main_v0 (c : Dev nD) : (W1 m ρ c (Proc.devRef .tc main_v0) : FVec F S1024x1024 .bf16)
    = truncf .bf16 (m ((c : Thread nD τ).loc main_arg3)) bitsLt_bf16_f32 := by
  show StableHlo.after hostOps0 _ (Proc.devRef .tc main_v0) = _
  after_results <;> rfl
theorem W1_main_v1 (c : Dev nD) : (W1 m ρ c (Proc.devRef .tc main_v1) : FVec F S1024x1024 .bf16)
    = truncf .bf16 (m ((c : Thread nD τ).loc main_arg5)) bitsLt_bf16_f32 := by
  show StableHlo.after hostOps0 _ (Proc.devRef .tc main_v1) = _
  after_results <;> rfl
theorem W1_main_v2 (c : Dev nD) : (W1 m ρ c (Proc.devRef .tc main_v2) : FVec F S1024x1 .bf16)
    = truncf .bf16 (m ((c : Thread nD τ).loc main_arg7)) bitsLt_bf16_f32 := by
  show StableHlo.after hostOps0 _ (Proc.devRef .tc main_v2) = _
  after_results <;> rfl
theorem W1_main_v3 (c : Dev nD) : (W1 m ρ c (Proc.devRef .tc main_v3) : FVec F S1x1x1024 .f32)
    = shapeCast S1x1x1024 (m ((c : Thread nD τ).loc main_arg4) : FVec F S1024 .f32) shapeCasts_S1024_S1x1x1024 := by
  show StableHlo.after hostOps0 _ (Proc.devRef .tc main_v3) = _
  after_results <;> rfl
theorem W1_main_v4 (c : Dev nD) : (W1 m ρ c (Proc.devRef .tc main_v4) : FVec F S1x1x1024 .f32)
    = shapeCast S1x1x1024 (m ((c : Thread nD τ).loc main_arg6) : FVec F S1024 .f32) shapeCasts_S1024_S1x1x1024 := by
  show StableHlo.after hostOps0 _ (Proc.devRef .tc main_v4) = _
  after_results <;> rfl
theorem W1_main_v5 (c : Dev nD) : (W1 m ρ c (Proc.devRef .tc main_v5) : FVec F S1x1 .f32)
    = shapeCast S1x1 (m ((c : Thread nD τ).loc main_arg8) : FVec F S1 .f32) shapeCasts_S1_S1x1 := by
  show StableHlo.after hostOps0 _ (Proc.devRef .tc main_v5) = _
  after_results <;> rfl
theorem W1_main_arg1 (c : Dev nD) : W1 m ρ c (Proc.devRef .tc main_arg1) = m ((c : Thread nD τ).loc main_arg1) :=
  (W1_keep m ρ c main_arg1 (by decide)).trans rfl

/-! ## Between the regions -/

/-- The attention weights, as the context region finds them, are the softmax of the scores array as the scores
    region left it. -/
theorem W3_main_v18 (c : Dev nD) : (W3 H m ρ c (Proc.devRef .tc main_v18) : FVec F S32x2048x1 .f32)
    = softmaxSeq (W2 H m ρ c (Proc.devRef .tc main_v7)) := by
  show StableHlo.after hostOps1 _ (Proc.devRef .tc main_v18) = _
  after_results <;> rfl
/-- The values, as the context region finds them, are as launched. -/
theorem W3_main_arg2 (c : Dev nD) : W3 H m ρ c (Proc.devRef .tc main_arg2) = m ((c : Thread nD τ).loc main_arg2) :=
  (W3_keep H m ρ c main_arg2 (by decide)).trans <| (W2_of_ne H m ρ c main_arg2 (by decide)).trans <|
    (W1_keep m ρ c main_arg2 (by decide)).trans rfl

end Cert.KernelIdeal.Hand

end
-- ==== Proof.ScoresValue.lean ====
import proofs.«116499_j36532991820656_1_alg».proof.Proof.ScoresRegion
import Idealize.ShloMosaic.Lib.Pipeline.Value
import Idealize.ShloMosaic.Lib.ValueIdx
import Idealize.ShloMosaic.PureOps.Ideal.Laws

/-!
# The scores region: the array it leaves, in extended reals

The scores region writes, at each of its 32 × 4 grid points `(b, s)`, the 512 scores of sequence tile `s` of batch
row `b`. Read in extended reals, and granted the law of the stored tile's rows (`ScoreLaw`: row `r` of the tile
is the score formula of the loaded query row, key row `r` of the loaded key tile and the loaded parameters), the
score array after the region is one function `scoresOf` of the eight arrays the region reads:

* the query block at `(b, s)` is query row `b`, the key block is key rows `512·s … 512·s + 511` of batch row `b`,
  and each parameter block is its whole array (the index maps, decided over the grid);
* so what a point writes back is its block of `scoresOf`;
* the 128 output blocks cover the `[32, 2048, 1]` score array, so the array ends as `scoresOf`.
-/

noncomputable section

open scoped BigOperators

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## The scores as one function of the arrays the region reads -/

/-- The score of sequence position `i 1` of batch row `i 0`: with `q` the query row of the batch row and `k` the key
    row at the position, `∑ₐ T(q·Wq[:,a] + bq[a] + (k·Wk[:,a] + bk[a])) · Wa[a] + ba`. The arrays are, in order, the
    query rows `[32,1,1024]`, the keys `[32,2048,1024]`, `Wq`, `bq`, `Wk`, `bk`, `Wa` and `ba`; `T` is the
    activation. -/
def scoresOf (T : EReal → EReal) (a6 : FVec Ideal S32x1x1024 .f32) (a1 : FVec Ideal S32x2048x1024 .f32) (w0 : FVec Ideal S1024x1024 .bf16)
    (b3 : FVec Ideal S1x1x1024 .f32) (w1 : FVec Ideal S1024x1024 .bf16) (b4 : FVec Ideal S1x1x1024 .f32) (w2 : FVec Ideal S1024x1 .bf16)
    (b5 : FVec Ideal S1x1 .f32) : S32x2048x1.Idx → EReal := fun i =>
  (∑ a : Fin 1024, T ((∑ d : Fin 1024, a6 (ix3 ⟨(i 0).val, (i 0).isLt⟩ 0 d) * w0 (ix2 d a)) + b3 (ix3 0 0 a)
      + ((∑ d : Fin 1024, a1 (ix3 ⟨(i 0).val, (i 0).isLt⟩ ⟨(i 1).val, (i 1).isLt⟩ d) * w1 (ix2 d a)) + b4 (ix3 0 0 a))) * w2 (ix2 a 0))
    + b5 (ix2 0 0)

/-- The law of the body's payload that the value of the region rests on: row `r` of the stored score tile, as a
    function of the eight loaded blocks, is the score formula of the loaded query row, key row `r` of the loaded key
    tile, and the loaded parameters. -/
def ScoreLaw (T : EReal → EReal) : Prop :=
  ∀ (v0 : Vec Ideal S1x1x1024 .f32) (v3 : Vec Ideal S1024x1024 .bf16) (v6 : Vec Ideal S1x1x1024 .f32) (v9 : Vec Ideal S1x512x1024 .f32)
    (v12 : Vec Ideal S1024x1024 .bf16) (v15 : Vec Ideal S1x1x1024 .f32) (v23 : Vec Ideal S1024x1 .bf16) (v26 : Vec Ideal S1x1 .f32) (r : Fin 512),
    k0_pay1 (k0_pay2 v0 v3 v6 v9 v12 v15 v23 v26) (ix3 0 r 0)
      = (∑ a : Fin 1024, T ((∑ d : Fin 1024, v0 (ix3 0 0 d) * v3 (ix2 d a)) + v6 (ix3 0 0 a)
          + ((∑ d : Fin 1024, v9 (ix3 0 r d) * v12 (ix2 d a)) + v15 (ix3 0 0 a))) * v23 (ix2 a 0))
        + v26 (ix2 0 0)

theorem zero2 : (![0, 0] : Fin 2 → Nat) = fun _ => 0 := funext fun a => by fin_cases a <;> rfl
theorem zero3 : (![0, 0, 0] : Fin 3 → Nat) = fun _ => 0 := funext fun a => by fin_cases a <;> rfl

/-! ## The index maps, decided over the 128 grid points -/

/-- The query window moves with the output window along the batch axis and stays at block 0 on the other two. -/
theorem index_query : ∀ t : Fin cfg0.N, win0_0.index t (0 : Fin 3) = win0_8.index t (0 : Fin 3)
    ∧ win0_0.index t (1 : Fin 3) = 0 ∧ win0_0.index t (2 : Fin 3) = 0 :=
  (by decide +kernel : ∀ t : Fin grid0.N, _)

/-- The key window moves with the output window along the batch and sequence axes and stays at block 0 on the last. -/
theorem index_key : ∀ t : Fin cfg0.N, win0_1.index t (0 : Fin 3) = win0_8.index t (0 : Fin 3)
    ∧ win0_1.index t (1 : Fin 3) = win0_8.index t (1 : Fin 3) ∧ win0_1.index t (2 : Fin 3) = 0 :=
  (by decide +kernel : ∀ t : Fin grid0.N, _)

/-- The six parameter windows stay at block 0 on every axis. -/
theorem index_params : ∀ t : Fin cfg0.N, (win0_2.index t (0 : Fin 2) = 0 ∧ win0_2.index t (1 : Fin 2) = 0)
    ∧ (win0_3.index t (0 : Fin 3) = 0 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 3) = 0 ∧ win0_5.index t (1 : Fin 3) = 0 ∧ win0_5.index t (2 : Fin 3) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- The output window's block index stays inside the 32 × 4 × 1 blocks of its array. -/
theorem index_out_range : ∀ t : Fin cfg0.N, win0_8.index t (0 : Fin 3) ≤ 31 ∧ win0_8.index t (1 : Fin 3) ≤ 3
    ∧ win0_8.index t (2 : Fin 3) = 0 :=
  (by decide +kernel : ∀ t : Fin grid0.N, _)

/-- Every one of the 32 × 4 blocks of the output array is the block of some grid point. -/
theorem index_out_onto : ∀ (q0 : Fin 32) (q1 : Fin 4), ∃ t : Fin cfg0.N, win0_8.index t = ![q0.val, q1.val, 0] :=
  (by decide +kernel : ∀ (q0 : Fin 32) (q1 : Fin 4), ∃ t : Fin grid0.N, win0_8.index t = ![q0.val, q1.val, 0])

section ScoresValue
-- the contents of the core's buffers at the moment the region is entered, in extended reals
variable (V : (c : Dev nD) → (b : Ref sig .tc) → Buf (Elt Ideal) ((c : Thread nD τ).loc b))

/-! ## The input blocks as parts of their arrays -/

/-- The query block at point `t` is the query row of the batch row whose output block the point writes. -/
theorem query_block (c : Dev nD) (t : Fin cfg0.N) (d : Fin 1024) (b : Fin 32) (hb : b.val = win0_8.index t (0 : Fin 3)) :
    (iblk0 V c 0 t : Vec Ideal S1x1x1024 .f32) (ix3 0 0 d) = (V c main_v6 : FVec Ideal S32x1x1024 .f32) (ix3 b 0 d) := by
  obtain ⟨e0, e1, e2⟩ := index_query t
  unfold iblk0
  rw [View.read_apply]
  show V c main_v6 _ = V c main_v6 _
  refine congrArg (V c main_v6) ?_
  funext a; apply Fin.ext
  match a with
  | ⟨0, _⟩ => show win0_0.index t (0 : Fin 3) * 1 + 1 * 0 = b.val; omega
  | ⟨1, _⟩ => show win0_0.index t (1 : Fin 3) * 1 + 1 * 0 = 0; omega
  | ⟨2, _⟩ => show win0_0.index t (2 : Fin 3) * 1024 + 1 * d.val = d.val; omega

/-- Row `r` of the key block at point `t` is key row `512·(block index) + r` of the same batch row. -/
theorem key_block (c : Dev nD) (t : Fin cfg0.N) (r : Fin 512) (d : Fin 1024) (b : Fin 32) (s : Fin 2048)
    (hb : b.val = win0_8.index t (0 : Fin 3)) (hs : s.val = win0_8.index t (1 : Fin 3) * 512 + r.val) :
    (iblk0 V c 1 t : Vec Ideal S1x512x1024 .f32) (ix3 0 r d) = (V c main_arg1 : FVec Ideal S32x2048x1024 .f32) (ix3 b s d) := by
  obtain ⟨e0, e1, e2⟩ := index_key t
  unfold iblk0
  rw [View.read_apply]
  show V c main_arg1 _ = V c main_arg1 _
  refine congrArg (V c main_arg1) ?_
  funext a; apply Fin.ext
  match a with
  | ⟨0, _⟩ => show win0_1.index t (0 : Fin 3) * 1 + 1 * 0 = b.val; omega
  | ⟨1, _⟩ => show win0_1.index t (1 : Fin 3) * 512 + 1 * r.val = s.val; omega
  | ⟨2, _⟩ => show win0_1.index t (2 : Fin 3) * 1024 + 1 * d.val = d.val; omega

/-- The block of `Wq` at every point is the whole array: its block index is 0 on every axis. -/
theorem param_block_2 (c : Dev nD) (t : Fin cfg0.N) : (iblk0 V c 2 t : Vec Ideal S1024x1024 .bf16) = V c main_v0 := by
  have h := ((index_params t).1)
  funext y
  unfold iblk0
  rw [View.read_apply]
  show V c main_v0 _ = V c main_v0 y
  refine congrArg (V c main_v0) ?_
  funext a; apply Fin.ext
  match a with
    | ⟨0, _⟩ => show win0_2.index t (0 : Fin 2) * 1024 + 1 * (y 0).val = (y 0).val; rw [h.1]; omega
    | ⟨1, _⟩ => show win0_2.index t (1 : Fin 2) * 1024 + 1 * (y 1).val = (y 1).val; rw [h.2]; omega

/-- The block of `bq` at every point is the whole array: its block index is 0 on every axis. -/
theorem param_block_3 (c : Dev nD) (t : Fin cfg0.N) : (iblk0 V c 3 t : Vec Ideal S1x1x1024 .f32) = V c main_v3 := by
  have h := ((index_params t).2.1)
  funext y
  unfold iblk0
  rw [View.read_apply]
  show V c main_v3 _ = V c main_v3 y
  refine congrArg (V c main_v3) ?_
  funext a; apply Fin.ext
  match a with
    | ⟨0, _⟩ => show win0_3.index t (0 : Fin 3) * 1 + 1 * (y 0).val = (y 0).val; rw [h.1]; omega
    | ⟨1, _⟩ => show win0_3.index t (1 : Fin 3) * 1 + 1 * (y 1).val = (y 1).val; rw [h.2.1]; omega
    | ⟨2, _⟩ => show win0_3.index t (2 : Fin 3) * 1024 + 1 * (y 2).val = (y 2).val; rw [h.2.2]; omega

/-- The block of `Wk` at every point is the whole array: its block index is 0 on every axis. -/
theorem param_block_4 (c : Dev nD) (t : Fin cfg0.N) : (iblk0 V c 4 t : Vec Ideal S1024x1024 .bf16) = V c main_v1 := by
  have h := ((index_params t).2.2.1)
  funext y
  unfold iblk0
  rw [View.read_apply]
  show V c main_v1 _ = V c main_v1 y
  refine congrArg (V c main_v1) ?_
  funext a; apply Fin.ext
  match a with
    | ⟨0, _⟩ => show win0_4.index t (0 : Fin 2) * 1024 + 1 * (y 0).val = (y 0).val; rw [h.1]; omega
    | ⟨1, _⟩ => show win0_4.index t (1 : Fin 2) * 1024 + 1 * (y 1).val = (y 1).val; rw [h.2]; omega

/-- The block of `bk` at every point is the whole array: its block index is 0 on every axis. -/
theorem param_block_5 (c : Dev nD) (t : Fin cfg0.N) : (iblk0 V c 5 t : Vec Ideal S1x1x1024 .f32) = V c main_v4 := by
  have h := ((index_params t).2.2.2.1)
  funext y
  unfold iblk0
  rw [View.read_apply]
  show V c main_v4 _ = V c main_v4 y
  refine congrArg (V c main_v4) ?_
  funext a; apply Fin.ext
  match a with
    | ⟨0, _⟩ => show win0_5.index t (0 : Fin 3) * 1 + 1 * (y 0).val = (y 0).val; rw [h.1]; omega
    | ⟨1, _⟩ => show win0_5.index t (1 : Fin 3) * 1 + 1 * (y 1).val = (y 1).val; rw [h.2.1]; omega
    | ⟨2, _⟩ => show win0_5.index t (2 : Fin 3) * 1024 + 1 * (y 2).val = (y 2).val; rw [h.2.2]; omega

/-- The block of `Wa` at every point is the whole array: its block index is 0 on every axis. -/
theorem param_block_6 (c : Dev nD) (t : Fin cfg0.N) : (iblk0 V c 6 t : Vec Ideal S1024x1 .bf16) = V c main_v2 := by
  have h := ((index_params t).2.2.2.2.1)
  funext y
  unfold iblk0
  rw [View.read_apply]
  show V c main_v2 _ = V c main_v2 y
  refine congrArg (V c main_v2) ?_
  funext a; apply Fin.ext
  match a with
    | ⟨0, _⟩ => show win0_6.index t (0 : Fin 2) * 1024 + 1 * (y 0).val = (y 0).val; rw [h.1]; omega
    | ⟨1, _⟩ => show win0_6.index t (1 : Fin 2) * 1 + 1 * (y 1).val = (y 1).val; rw [h.2]; omega

/-- The block of `ba` at every point is the whole array: its block index is 0 on every axis. -/
theorem param_block_7 (c : Dev nD) (t : Fin cfg0.N) : (iblk0 V c 7 t : Vec Ideal S1x1 .f32) = V c main_v5 := by
  have h := ((index_params t).2.2.2.2.2)
  funext y
  unfold iblk0
  rw [View.read_apply]
  show V c main_v5 _ = V c main_v5 y
  refine congrArg (V c main_v5) ?_
  funext a; apply Fin.ext
  match a with
    | ⟨0, _⟩ => show win0_7.index t (0 : Fin 2) * 1 + 1 * (y 0).val = (y 0).val; rw [h.1]; omega
    | ⟨1, _⟩ => show win0_7.index t (1 : Fin 2) * 1 + 1 * (y 1).val = (y 1).val; rw [h.2]; omega

/-! ## One row of a point's output block -/

/-- Row `j 1` of the tile the body stores, when the loaded query block is query row `i 0`, row `j 1` of the loaded
    key block is key row `(i 0, i 1)`, and the loaded parameter blocks are the parameter arrays, is the score at `i`. -/
theorem score_row (T : EReal → EReal) (hpay : ScoreLaw T)
    (x0 : Vec Ideal S1x1x1024 .f32) (x1 : Vec Ideal S1x512x1024 .f32) (x2 : Vec Ideal S1024x1024 .bf16) (x3 : Vec Ideal S1x1x1024 .f32)
    (x4 : Vec Ideal S1024x1024 .bf16) (x5 : Vec Ideal S1x1x1024 .f32) (x6 : Vec Ideal S1024x1 .bf16) (x7 : Vec Ideal S1x1 .f32)
    (a6 : FVec Ideal S32x1x1024 .f32) (a1 : FVec Ideal S32x2048x1024 .f32) (w0 : FVec Ideal S1024x1024 .bf16) (b3 : FVec Ideal S1x1x1024 .f32)
    (w1 : FVec Ideal S1024x1024 .bf16) (b4 : FVec Ideal S1x1x1024 .f32) (w2 : FVec Ideal S1024x1 .bf16) (b5 : FVec Ideal S1x1 .f32)
    (j : S1x512x1.Idx) (i : S32x2048x1.Idx)
    (h0 : ∀ d : Fin 1024, x0 (ix3 0 0 d) = a6 (ix3 ⟨(i 0).val, (i 0).isLt⟩ 0 d))
    (h1 : ∀ d : Fin 1024, x1 (ix3 0 ⟨(j 1).val, (j 1).isLt⟩ d) = a1 (ix3 ⟨(i 0).val, (i 0).isLt⟩ ⟨(i 1).val, (i 1).isLt⟩ d))
    (h2 : x2 = w0) (h3 : x3 = b3) (h4 : x4 = w1) (h5 : x5 = b4) (h6 : x6 = w2) (h7 : x7 = b5) :
    k0_pay1 (k0_pay2 x0 x2 x3 x1 x4 x5 x6 x7) j = scoresOf T a6 a1 w0 b3 w1 b4 w2 b5 i := by
  subst h2 h3 h4 h5 h6 h7
  have hj : j = ix3 (0 : Fin 1) (⟨(j 1).val, (j 1).isLt⟩ : Fin 512) (0 : Fin 1) := by
    funext a; apply Fin.ext
    match a with
    | ⟨0, _⟩ => show (j 0).val = 0; have h : (j 0).val < 1 := (j 0).isLt; omega
    | ⟨1, _⟩ => rfl
    | ⟨2, _⟩ => show (j 2).val = 0; have h : (j 2).val < 1 := (j 2).isLt; omega
  rw [hj, hpay]
  unfold scoresOf
  simp only [h0, h1]

/-! ## What a point writes back, and the array after the last point -/

/-- What point `t` writes back to the score array is block `t` of `scoresOf` of the arrays as the region finds them. -/
theorem flushed_scores (T : EReal → EReal) (hpay : ScoreLaw T) (c : Dev nD) (t : Fin cfg0.N) :
    (dat0 (F := Ideal) V c).flushed 8 t = ((cfg0.win 8).blk t).view.read (Elt Ideal) (scoresOf T (V c main_v6) (V c main_arg1) (V c main_v0) (V c main_v3) (V c main_v1) (V c main_v4) (V c main_v2) (V c main_v5)) := by
  show (cfg0.win 8).cut (grid0.coords t) ((dat0 V c).after 8 t) = _
  rw [after0_8]
  unfold out0_8
  rw [View.canon_unit_zero zero3]
  simp only [View.ld_unit_zero (S := S1x1x1024) zero3, View.ld_unit_zero (S := S1x512x1024) zero3, View.ld_unit_zero (S := S1024x1024) zero2,
    View.ld_unit_zero (S := S1024x1) zero2, View.ld_unit_zero (S := S1x1) zero2]
  refine funext fun (j : S1x512x1.Idx) => ?_
  have hj0 : (j 0).val < 1 := (j 0).isLt
  have hj1 : (j 1).val < 512 := (j 1).isLt
  obtain ⟨o0, o1, o2⟩ := index_out_range t
  refine score_row T hpay _ _ _ _ _ _ _ _ _ _ _ _ _ _ _ _ j (((cfg0.win 8).blk t).view.emb j)
    (fun d => query_block V c t d _ ?_) (fun d => key_block V c t _ d _ _ ?_ ?_)
    (param_block_2 V c t) (param_block_3 V c t) (param_block_4 V c t) (param_block_5 V c t) (param_block_6 V c t) (param_block_7 V c t)
  · show win0_8.index t (0 : Fin 3) * 1 + 1 * (j 0).val = win0_8.index t (0 : Fin 3); omega
  · show win0_8.index t (0 : Fin 3) * 1 + 1 * (j 0).val = win0_8.index t (0 : Fin 3); omega
  · show win0_8.index t (1 : Fin 3) * 512 + 1 * (j 1).val = win0_8.index t (1 : Fin 3) * 512 + (j 1).val; omega

/-- An index of the score array is in point `t`'s block iff each coordinate is in the block's range on its axis. -/
theorem mem_out_block (t : Fin cfg0.N) (i : S32x2048x1.Idx) :
    i ∈ ((cfg0.win 8).blk t).view.set ↔ ∀ a : Fin 3, win0_8.index t a * S1x512x1.size a ≤ (i a).val ∧ (i a).val < win0_8.index t a * S1x512x1.size a + S1x512x1.size a := by
  show i ∈ ((View.whole main_v7).slice (win0_8.rect t)).set ↔ _
  rw [View.set_slice_whole, Rect.mem_set_unit]
  exact Iff.rfl

/-- Every index of the score array is in the block of a point that writes back: batch row `i 0`, tile `(i 1) / 512`. -/
theorem out_cover (i : S32x2048x1.Idx) : ∃ t : Fin cfg0.N, (cfg0.win 8).flush t = true ∧ i ∈ ((cfg0.win 8).blk t).view.set := by
  have hi0 : (i 0).val < 32 := (i 0).isLt
  have hi1 : (i 1).val < 2048 := (i 1).isLt
  have hi2 : (i 2).val < 1 := (i 2).isLt
  obtain ⟨t, ht⟩ := index_out_onto ⟨(i 0).val, hi0⟩ ⟨(i 1).val / 512, by omega⟩
  have q0 : win0_8.index t (0 : Fin 3) = (i 0).val := congrFun ht 0
  have q1 : win0_8.index t (1 : Fin 3) = (i 1).val / 512 := congrFun ht 1
  have q2 : win0_8.index t (2 : Fin 3) = 0 := congrFun ht 2
  refine ⟨t, flush0_8 t, ?_⟩
  rw [mem_out_block]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 512 ≤ (i 1).val ∧ (i 1).val < win0_8.index t (1 : Fin 3) * 512 + 512; omega
  | ⟨2, _⟩ => show win0_8.index t (2 : Fin 3) * 1 ≤ (i 2).val ∧ (i 2).val < win0_8.index t (2 : Fin 3) * 1 + 1; omega

/-- The score array after the region: `scoresOf` of the eight arrays the region reads, as it finds them. -/
theorem final0 (T : EReal → EReal) (hpay : ScoreLaw T) (c : Dev nD) :
    (dat0 (F := Ideal) V c).arrAt 8 cfg0.N = scoresOf T (V c main_v6) (V c main_arg1) (V c main_v0) (V c main_v3) (V c main_v1) (V c main_v4) (V c main_v2) (V c main_v5) :=
  (dat0 (F := Ideal) V c).arrAt_eq_of_cover 8 (scoresOf T (V c main_v6) (V c main_arg1) (V c main_v0) (V c main_v3) (V c main_v1) (V c main_v4) (V c main_v2) (V c main_v5)) (fun t _ => flushed_scores V T hpay c t) out_cover

end ScoresValue

end Cert.KernelIdeal.Hand

end
-- ==== Proof.PlainDot.lean ====
/-
  A plain matrix product read one entry at a time over the extended reals.

  For the dimension numbers "rows x contraction times contraction x columns" (no batch axis), the product
  accumulated into the zero splat is, at entry (p, q), the sum over the contraction coordinate c of
  (left at (p, c)) * (right at (c, q)): no accumulator term is left, since the zero word denotes 0, and the
  one-axis contraction index is re-indexed by its single coordinate.
-/
import Idealize.ShloMosaic.Lib.ValueIdx
import Idealize.ShloMosaic.PureOps.Ideal.Laws

noncomputable section

open scoped BigOperators

namespace Cert.KernelIdeal.Hand.PlainDot

open Idealize.ShloMosaic Idealize.ShloMosaic.ValueIdx

/-- The left operand's row coordinate is the output entry's row. -/
theorem plain_lhs_0 {m k n : ℕ} (j : (⟨2, ![m, n]⟩ : Shape).Idx) (κ : (DotDims.plain m k n).contr.Idx) :
    ((DotDims.plain m k n).lhsIdx j κ 0).val = (j 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from
      List.mem_singleton.mpr rfl)]
  rfl

/-- The left operand's column coordinate is the contraction coordinate. -/
theorem plain_lhs_1 {m k n : ℕ} (j : (⟨2, ![m, n]⟩ : Shape).Idx) (κ : (DotDims.plain m k n).contr.Idx) :
    ((DotDims.plain m k n).lhsIdx j κ 1).val = (κ ⟨0, Nat.one_pos⟩).val :=
  (DotDims.plain m k n).lhsIdx_val_of_single rfl j κ

/-- The right operand's row coordinate is the contraction coordinate. -/
theorem plain_rhs_0 {m k n : ℕ} (j : (⟨2, ![m, n]⟩ : Shape).Idx) (κ : (DotDims.plain m k n).contr.Idx) :
    ((DotDims.plain m k n).rhsIdx j κ 0).val = (κ ⟨0, Nat.one_pos⟩).val :=
  (DotDims.plain m k n).rhsIdx_val_of_single rfl j κ

/-- The right operand's column coordinate is the output entry's column. -/
theorem plain_rhs_1 {m k n : ℕ} (j : (⟨2, ![m, n]⟩ : Shape).Idx) (κ : (DotDims.plain m k n).contr.Idx) :
    ((DotDims.plain m k n).rhsIdx j κ 1).val = (j 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from
      List.mem_singleton.mpr rfl)]
  rfl

/-- A plain product into the zero splat, at entry (p, q): the sum over the contraction coordinate. -/
theorem plain_matmul_zero_apply {m k n : ℕ} {φ₁ φ₂ : FTy} (prec : Option ContractPrecision)
    (lhs : FVec Ideal ⟨2, ![m, k]⟩ φ₁) (rhs : FVec Ideal ⟨2, ![k, n]⟩ φ₂) (p : Fin m) (q : Fin n) :
    FloatOps.matmul (DotDims.plain m k n) prec lhs rhs (constant ⟨2, ![m, n]⟩ .f32 0x00000000#32) (ix2 p q)
      = ∑ c : Fin k, lhs (ix2 p c) * rhs (ix2 c q) := by
  rw [Ideal.matmul_constant_zero_apply,
    ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 p q) ((contrEquiv1 (DotDims.plain m k n) k rfl rfl).symm c)
      = ix2 p c := funext fun a => Fin.ext (by
    match a with
    | ⟨0, _⟩ => exact plain_lhs_0 _ _
    | ⟨1, _⟩ => exact (plain_lhs_1 _ _).trans hc)
  have er : (DotDims.plain m k n).rhsIdx (ix2 p q) ((contrEquiv1 (DotDims.plain m k n) k rfl rfl).symm c)
      = ix2 c q := funext fun a => Fin.ext (by
    match a with
    | ⟨0, _⟩ => exact (plain_rhs_0 _ _).trans hc
    | ⟨1, _⟩ => exact plain_rhs_1 _ _)
  rw [el, er]

end Cert.KernelIdeal.Hand.PlainDot

end
-- ==== Proof.ScoresPayload.lean ====
/-
  The scores kernel's stored value, read one element at a time over the extended reals.

  For row r of the 512-row key block, the kernel stores
      (sum over a of tanh(q a + k r a) * wa a) + ba
  where q a = (sum over d of query d * Wq (d, a)) + bq a is the projected query (one row, laid along the
  512 rows), k r a = (sum over d of key (r, d) * Wk (d, a)) + bk a is the projected key row, wa is the
  score column and ba the scalar bias.  Each product is a plain matrix product into the zero splat, so it
  leaves just its sum; the changes of float format on the way into a product are the identity on the
  extended reals; the shape casts only drop or add unit axes.
-/
import proofs.«116499_j36532991820656_1_alg».proof.Proof.Gen.KernelIdeal.Skeleton
import proofs.«116499_j36532991820656_1_alg».proof.Proof.PlainDot
import Idealize.ShloMosaic.Lib.ValueLayout
import Idealize.ShloMosaic.Lib.ValueIdx
import Idealize.ShloMosaic.PureOps.Ideal.Laws

noncomputable section

open scoped BigOperators

namespace Cert.KernelIdeal.Hand.ScoresPay

open Idealize.ShloMosaic Idealize.ShloMosaic.ValueIdx Cert.KernelIdeal Cert.KernelIdeal.Gen
open Cert.KernelIdeal.Hand.PlainDot

/-- The query projection's product (one row by a 1024 x 1024 matrix) at entry (p, q). -/
theorem dotQ_apply (lhs : FVec Ideal S1x1024 .bf16) (rhs : FVec Ideal S1024x1024 .bf16) (p : Fin 1) (q : Fin 1024) :
    matmul dot_S1x1024_S1024x1024_S1x1024_1_0_0_1_n_n none lhs rhs
        (constant (F := Ideal) S1x1024 .f32 0x00000000#32) (ix2 p q)
      = ∑ c : Fin 1024, lhs (ix2 p c) * rhs (ix2 c q) :=
  plain_matmul_zero_apply (m := 1) (k := 1024) (n := 1024) none lhs rhs p q

/-- The key projection's product (512 rows by a 1024 x 1024 matrix) at entry (p, q). -/
theorem dotK_apply (lhs : FVec Ideal S512x1024 .bf16) (rhs : FVec Ideal S1024x1024 .bf16) (p : Fin 512) (q : Fin 1024) :
    matmul dot_S512x1024_S1024x1024_S512x1024_1_0_0_1_n_n none lhs rhs
        (constant (F := Ideal) S512x1024 .f32 0x00000000#32) (ix2 p q)
      = ∑ c : Fin 1024, lhs (ix2 p c) * rhs (ix2 c q) :=
  plain_matmul_zero_apply (m := 512) (k := 1024) (n := 1024) none lhs rhs p q

/-- The score product (512 rows by a 1024 x 1 column) at entry (p, q). -/
theorem dotA_apply (lhs : FVec Ideal S512x1024 .bf16) (rhs : FVec Ideal S1024x1 .bf16) (p : Fin 512) (q : Fin 1) :
    matmul dot_S512x1024_S1024x1_S512x1_1_0_0_1_n_n none lhs rhs
        (constant (F := Ideal) S512x1 .f32 0x00000000#32) (ix2 p q)
      = ∑ c : Fin 1024, lhs (ix2 p c) * rhs (ix2 c q) :=
  plain_matmul_zero_apply (m := 512) (k := 1024) (n := 1) none lhs rhs p q

/-- The value the scores kernel stores at row r of its output block, as a function of the eight loaded
    blocks: query row v0, Wq v3, bq v6, key block v9, Wk v12, bk v15, score column v23, scalar bias v26. -/
theorem scores_pay_apply (v0 : Vec Ideal S1x1x1024 .f32) (v3 : Vec Ideal S1024x1024 .bf16)
    (v6 : Vec Ideal S1x1x1024 .f32) (v9 : Vec Ideal S1x512x1024 .f32) (v12 : Vec Ideal S1024x1024 .bf16)
    (v15 : Vec Ideal S1x1x1024 .f32) (v23 : Vec Ideal S1024x1 .bf16) (v26 : Vec Ideal S1x1 .f32) (r : Fin 512) :
    k0_pay1 (F := Ideal) (k0_pay2 v0 v3 v6 v9 v12 v15 v23 v26) (ix3 (0 : Fin 1) r (0 : Fin 1))
      = (∑ a : Fin 1024,
            Ideal.tanh
              ((∑ d : Fin 1024, v0 (ix3 (0 : Fin 1) (0 : Fin 1) d) * v3 (ix2 d a)) + v6 (ix3 (0 : Fin 1) (0 : Fin 1) a)
                + ((∑ d : Fin 1024, v9 (ix3 (0 : Fin 1) r d) * v12 (ix2 d a)) + v15 (ix3 (0 : Fin 1) (0 : Fin 1) a)))
              * v23 (ix2 a (0 : Fin 1)))
        + v26 (ix2 (0 : Fin 1) (0 : Fin 1)) := by
  unfold k0_pay1 k0_pay2
  refine (shapeCast_ab_1ab_apply _ shapeCasts_S512x1_S1x512x1 (0 : Fin 1) r (0 : Fin 1)).trans ?_
  refine (addf_apply _ _ _).trans ?_
  refine congrArg₂ (· + ·) ?_ ?_
  · -- the score product over the 1024 attention features
    refine (dotA_apply _ _ r (0 : Fin 1)).trans ?_
    refine Finset.sum_congr rfl fun a _ => ?_
    refine congrArg₂ (· * ·) ?_ (congrFun (shapeCast_self v23 _) _)
    -- the change of format into the product is the identity; the activation is the extended reals' tanh
    show Ideal.tanh _ = _
    refine congrArg Ideal.tanh ?_
    refine (addf_apply _ _ _).trans ?_
    refine congrArg₂ (· + ·) ?_ ?_
    · -- the projected query, one row laid along the 512 rows
      refine (broadcastTo_1b_ab_apply _ broadcasts_S1x1024_S512x1024 r a).trans ?_
      refine (addf_apply _ _ _).trans ?_
      refine congrArg₂ (· + ·) ?_ (shapeCast_1ab_ab_apply v6 _ (0 : Fin 1) a)
      refine (dotQ_apply _ _ (0 : Fin 1) a).trans ?_
      refine Finset.sum_congr rfl fun d _ => ?_
      exact congrArg₂ (· * ·) ((truncf_apply (φ := .f32) (ψ := .bf16) _ bitsLt_bf16_f32 _).trans
          (shapeCast_1ab_ab_apply v0 _ (0 : Fin 1) d))
        (congrFun (shapeCast_self v3 _) _)
    · -- the projected key row
      refine (addf_apply _ _ _).trans ?_
      refine congrArg₂ (· + ·) ?_ ?_
      · refine (dotK_apply _ _ r a).trans ?_
        refine Finset.sum_congr rfl fun d _ => ?_
        exact congrArg₂ (· * ·) ((truncf_apply (φ := .f32) (ψ := .bf16) _ bitsLt_bf16_f32 _).trans
            (shapeCast_1ab_ab_apply v9 _ r d))
          (congrFun (shapeCast_self v12 _) _)
      · exact (broadcastTo_1b_ab_apply _ broadcasts_S1x1024_S512x1024 r a).trans
          (shapeCast_1ab_ab_apply v15 _ (0 : Fin 1) a)
  · -- the scalar bias, extracted at (0, 0) and splat over the column
    show v26 _ = v26 _
    exact congrArg v26 (funext fun ax => Fin.ext (by match ax with | ⟨0, _⟩ => rfl | ⟨1, _⟩ => rfl))

end Cert.KernelIdeal.Hand.ScoresPay

end
-- ==== Proof.EntryRead.lean ====
/-
  The arrays the scores region is entered from, read at an index: the queries with a unit middle axis are the
  queries; a bias vector re-laid with two leading unit axes is the vector; the scalar bias as a 1×1 matrix is the
  scalar; and a change of float format is the identity on the extended reals.
-/
import proofs.«116499_j36532991820656_1_alg».proof.Proof.Gen.KernelIdeal
import Idealize.ShloMosaic.Lib.Pipeline.Value
import Idealize.ShloMosaic.Lib.ValueIdx
import Idealize.ShloMosaic.PureOps.Ideal

noncomputable section

namespace Cert.KernelIdeal.Hand.EntryRead

open Idealize.ShloMosaic Idealize.ShloMosaic.ValueIdx Cert.KernelIdeal

variable {α : Type}

/-- Row `b` of the queries, seen through the inserted unit axis. -/
theorem queries_apply (h : S32x1024.BroadcastsInDim S32x1x1024 ![0, 2]) (x : S32x1024.Idx → α) (b : Fin 32) (d : Fin 1024) :
    broadcastInDim S32x1x1024 ![0, 2] h x (ix3 b (0 : Fin 1) d) = x (ix2 b d) :=
  broadcastInDim_apply _ _ x _ (ix2 b d) (fun a => by
    match a with
    | ⟨0, _⟩ => rfl
    | ⟨1, _⟩ => rfl)

/-- Entry `a` of a bias vector, seen through two leading unit axes. -/
theorem bias_apply (h : S1024.ShapeCasts S1x1x1024) (x : S1024.Idx → α) (a : Fin 1024) :
    shapeCast S1x1x1024 x h (ix3 (0 : Fin 1) (0 : Fin 1) a) = x (ix1 a) :=
  shapeCast_apply x _ _ (ix1 a) (by
    rw [Shape.rowMajor_val_one, Shape.rowMajor_val_three]
    show a.val = (0 * 1 + 0) * 1024 + a.val
    omega)

/-- The scalar bias, seen as a 1×1 matrix. -/
theorem scalar_apply (h : S1.ShapeCasts S1x1) (x : S1.Idx → α) :
    shapeCast S1x1 x h (ix2 (0 : Fin 1) (0 : Fin 1)) = x (ix1 (0 : Fin 1)) :=
  shapeCast_apply x _ _ (ix1 (0 : Fin 1)) (by
    rw [Shape.rowMajor_val_one, Shape.rowMajor_val_two]
    rfl)

/-- On the extended reals a change of float format changes nothing. -/
theorem narrow_eq {s : Shape} (h : FTy.bits .bf16 < FTy.bits .f32) (x : FVec Ideal s .f32) :
    (truncf .bf16 x h : s.Idx → EReal) = x := rfl

end Cert.KernelIdeal.Hand.EntryRead

end
-- ==== Proof.RefScores.lean ====
/-
  The reference's attention scores, read one element at a time over the extended reals.

  At batch b and position s the reference's score is
      (sum over a of tanh(q b a + k b s a) * Wa (a, 0)) + ba
  with q b a = (sum over d of query (b, d) * Wq (d, a)) + bq a the projected query (the same at every
  position) and k b s a = (sum over d of key (b, s, d) * Wk (d, a)) + bk a the projected key; the sum inside
  the tanh is taken as (query side) + (key side), as the reference writes it.  The broadcasts only repeat an
  entry, so each is read at the one entry it repeats.
-/
import proofs.«116499_j36532991820656_1_alg».proof.Proof.Gen.ReferenceIdeal.Read

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The projected query laid along every position, at (b, s, a): the query row's product with Wq plus bq. -/
theorem query_side_apply (x0 : (⟨S32x1024, .f32⟩ : BufTy).Contents (Elt Ideal))
    (x3 : (⟨S1024x1024, .f32⟩ : BufTy).Contents (Elt Ideal)) (x4 : (⟨S1024, .f32⟩ : BufTy).Contents (Elt Ideal))
    (b : Fin 32) (s : Fin 2048) (a : Fin 1024) :
    val_main_v9 (F := Ideal) x0 x3 x4 (ix3 b s a)
      = (∑ d : Fin 1024, x0 (ix2 b d) * x3 (ix2 d a)) + x4 (ix1 a) := by
  rw [val_main_v9_apply, val_main_v4_apply, val_main_v3_apply, val_main_v0_apply, val_main_v2_apply,
    val_main_v1_apply]
  show (∑ d : Fin 1024, _) + _ = _
  refine congrArg₂ (· + ·) (Finset.sum_congr rfl fun d _ => congrArg₂ (· * ·) (congrArg x0 ?_) (congrArg x3 ?_))
    (congrArg x4 ?_)
  · exact funext fun c => Fin.ext (by match c with | ⟨0, _⟩ => rfl | ⟨1, _⟩ => rfl)
  · exact funext fun c => Fin.ext (by match c with | ⟨0, _⟩ => rfl | ⟨1, _⟩ => rfl)
  · exact funext fun c => Fin.ext (by match c with | ⟨0, _⟩ => rfl)

/-- The projected key at (b, s, a): the key row's product with Wk plus bk. -/
theorem key_side_apply (x1 : (⟨S32x2048x1024, .f32⟩ : BufTy).Contents (Elt Ideal))
    (x5 : (⟨S1024x1024, .f32⟩ : BufTy).Contents (Elt Ideal)) (x6 : (⟨S1024, .f32⟩ : BufTy).Contents (Elt Ideal))
    (b : Fin 32) (s : Fin 2048) (a : Fin 1024) :
    val_main_v8 (F := Ideal) x1 x5 x6 (ix3 b s a)
      = (∑ d : Fin 1024, x1 (ix3 b s d) * x5 (ix2 d a)) + x6 (ix1 a) := by
  rw [val_main_v8_apply, val_main_v5_apply, val_main_v7_apply, val_main_v6_apply]
  show (∑ d : Fin 1024, _) + _ = _
  refine congrArg₂ (· + ·) (Finset.sum_congr rfl fun d _ => congrArg₂ (· * ·) (congrArg x1 ?_) (congrArg x5 ?_))
    (congrArg x6 ?_)
  · exact funext fun c => Fin.ext (by match c with | ⟨0, _⟩ => rfl | ⟨1, _⟩ => rfl | ⟨2, _⟩ => rfl)
  · exact funext fun c => Fin.ext (by match c with | ⟨0, _⟩ => rfl | ⟨1, _⟩ => rfl)
  · exact funext fun c => Fin.ext (by match c with | ⟨0, _⟩ => rfl)

/-- The activation at (b, s, a): tanh of the projected query plus the projected key. -/
theorem act_apply (x0 : (⟨S32x1024, .f32⟩ : BufTy).Contents (Elt Ideal))
    (x1 : (⟨S32x2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (b : Fin 32) (s : Fin 2048) (a : Fin 1024) :
    val_main_v11 (F := Ideal) x0 x1 x3 x4 x5 x6 (ix3 b s a)
      = Ideal.tanh ((∑ d : Fin 1024, x0 (ix2 b d) * x3 (ix2 d a)) + x4 (ix1 a)
          + ((∑ d : Fin 1024, x1 (ix3 b s d) * x5 (ix2 d a)) + x6 (ix1 a))) := by
  rw [val_main_v11_apply, val_main_v10_apply, query_side_apply, key_side_apply]
  rfl

/-- The reference's score at batch b and position s. -/
theorem scores_apply (x0 : (⟨S32x1024, .f32⟩ : BufTy).Contents (Elt Ideal))
    (x1 : (⟨S32x2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (x7 : (⟨S1024x1, .f32⟩ : BufTy).Contents (Elt Ideal))
    (x8 : (⟨S1, .f32⟩ : BufTy).Contents (Elt Ideal)) (b : Fin 32) (s : Fin 2048) :
    val_main_v15 (F := Ideal) x0 x1 x3 x4 x5 x6 x7 x8 (ix3 b s (0 : Fin 1))
      = (∑ a : Fin 1024,
            Ideal.tanh ((∑ d : Fin 1024, x0 (ix2 b d) * x3 (ix2 d a)) + x4 (ix1 a)
                + ((∑ d : Fin 1024, x1 (ix3 b s d) * x5 (ix2 d a)) + x6 (ix1 a)))
              * x7 (ix2 a (0 : Fin 1)))
        + x8 (ix1 (0 : Fin 1)) := by
  rw [val_main_v15_apply, val_main_v12_apply, val_main_v14_apply, val_main_v13_apply]
  show (∑ a : Fin 1024, _) + _ = _
  refine congrArg₂ (· + ·) (Finset.sum_congr rfl fun a _ => ?_) (congrArg x8 ?_)
  · have hl : lidx_main_v12 (ix3 b s (0 : Fin 1)) a = ix3 b s a :=
      funext fun c => Fin.ext (by match c with | ⟨0, _⟩ => rfl | ⟨1, _⟩ => rfl | ⟨2, _⟩ => rfl)
    have hr : ridx_main_v12 (ix3 b s (0 : Fin 1)) a = ix2 a (0 : Fin 1) :=
      funext fun c => Fin.ext (by match c with | ⟨0, _⟩ => rfl | ⟨1, _⟩ => rfl)
    rw [hl, hr, act_apply]
  · exact funext fun c => Fin.ext (by match c with | ⟨0, _⟩ => rfl)

end Cert.ReferenceIdeal.RefValue

end
-- ==== Proof.ScoresBridge.lean ====
/-
  The scores the kernel's first region leaves are the reference's scores.  The region reads the queries through an
  inserted unit axis, the weight matrices through a change of float format (the identity on the extended reals),
  and the bias vectors through leading unit axes; read at an index each of these is the argument array itself, and
  the two score formulas — a query-side product plus bias, a key-side product plus bias, tanh, a product with the
  scoring vector, the scalar bias — are then the same sum term by term.
-/
import proofs.«116499_j36532991820656_1_alg».proof.Proof.ScoresValue
import proofs.«116499_j36532991820656_1_alg».proof.Proof.ScoresPayload
import proofs.«116499_j36532991820656_1_alg».proof.Proof.EntryRead
import proofs.«116499_j36532991820656_1_alg».proof.Proof.RefScores

noncomputable section

open scoped BigOperators

namespace Cert.KernelIdeal.Hand

open Idealize.ShloMosaic Idealize.ShloMosaic.ValueIdx Cert.KernelIdeal

/-- The law of the scores kernel's stored tile, with the extended reals' tanh. -/
theorem scoreLaw_tanh : ScoreLaw Ideal.tanh :=
  fun v0 v3 v6 v9 v12 v15 v23 v26 r => ScoresPay.scores_pay_apply v0 v3 v6 v9 v12 v15 v23 v26 r

/-- The scores function of the entry arrays is the reference's scores stage of the argument arrays. -/
theorem scores_bridge (hb : S32x1024.BroadcastsInDim S32x1x1024 ![0, 2]) (hc : S1024.ShapeCasts S1x1x1024)
    (hs : S1.ShapeCasts S1x1) (hlt : FTy.bits .bf16 < FTy.bits .f32)
    (x0 : FVec Ideal S32x1024 .f32) (x1 : FVec Ideal S32x2048x1024 .f32) (x3 x5 : FVec Ideal S1024x1024 .f32)
    (x4 x6 : FVec Ideal S1024 .f32) (x7 : FVec Ideal S1024x1 .f32) (x8 : FVec Ideal S1 .f32) :
    scoresOf Ideal.tanh (broadcastInDim S32x1x1024 ![0, 2] hb x0) x1 (truncf .bf16 x3 hlt) (shapeCast S1x1x1024 x4 hc)
        (truncf .bf16 x5 hlt) (shapeCast S1x1x1024 x6 hc) (truncf .bf16 x7 hlt) (shapeCast S1x1 x8 hs)
      = Cert.ReferenceIdeal.Read.val_main_v15 (F := Ideal) x0 x1 x3 x4 x5 x6 x7 x8 := by
  funext i
  have hi : i = ix3 (⟨(i 0).val, (i 0).isLt⟩ : Fin 32) (⟨(i 1).val, (i 1).isLt⟩ : Fin 2048) (0 : Fin 1) :=
    funext fun a => Fin.ext (by
      match a with
      | ⟨0, _⟩ => rfl
      | ⟨1, _⟩ => rfl
      | ⟨2, _⟩ => exact Nat.lt_one_iff.mp (i 2).isLt)
  conv_rhs => rw [hi]
  rw [Cert.ReferenceIdeal.RefValue.scores_apply]
  unfold scoresOf
  simp only [EntryRead.bias_apply, EntryRead.scalar_apply, EntryRead.narrow_eq]
  refine congrArg₂ (· + ·) (Finset.sum_congr rfl fun a _ => ?_) rfl
  refine congrArg₂ (· * ·) (congrArg Ideal.tanh (congrArg₂ (· + ·) (congrArg₂ (· + ·) (Finset.sum_congr rfl fun d _ => ?_) rfl) rfl)) rfl
  exact congrArg₂ (· * ·) (EntryRead.queries_apply hb x0 _ d) rfl

end Cert.KernelIdeal.Hand

end
-- ==== Proof.RefFold.lean ====
/-
  The reference's attention weights are the same softmax along the sequence axis, of the reference's own scores:
  the two programs compute their weights by one and the same chain of operations, so the chain is carried as one
  function and only its argument — the scores — has to be compared.
-/
import proofs.«116499_j36532991820656_1_alg».proof.Proof.RefRead
import proofs.«116499_j36532991820656_1_alg».proof.Proof.HostRead

noncomputable section

namespace Cert.ReferenceIdeal.RefValue

open Idealize.ShloMosaic Cert.ReferenceIdeal Cert.ReferenceIdeal.Read

variable {F : FTy → Type} [FloatOps F]

/-- The reference's weights are the softmax of the reference's scores. -/
theorem weights_eq_softmax (x0 : (⟨S32x1024, .f32⟩ : BufTy).Contents (Elt F)) (x1 : (⟨S32x2048x1024, .f32⟩ : BufTy).Contents (Elt F))
    (x3 : (⟨S1024x1024, .f32⟩ : BufTy).Contents (Elt F)) (x4 : (⟨S1024, .f32⟩ : BufTy).Contents (Elt F))
    (x5 : (⟨S1024x1024, .f32⟩ : BufTy).Contents (Elt F)) (x6 : (⟨S1024, .f32⟩ : BufTy).Contents (Elt F))
    (x7 : (⟨S1024x1, .f32⟩ : BufTy).Contents (Elt F)) (x8 : (⟨S1, .f32⟩ : BufTy).Contents (Elt F)) :
    val_main_v26 (F := F) x0 x1 x3 x4 x5 x6 x7 x8
      = Cert.KernelIdeal.Hand.softmaxSeq (F := F) (val_main_v15 (F := F) x0 x1 x3 x4 x5 x6 x7 x8) := rfl

end Cert.ReferenceIdeal.RefValue

end
-- ==== Proof.KernelScores.lean ====
/-
  What the idealized kernel's first two results of interest hold, in the reference's terms: the scores array the
  first region leaves is the reference's scores of the argument arrays, and so the attention weights — the same
  softmax of it on both sides — are the reference's weights.
-/
import proofs.«116499_j36532991820656_1_alg».proof.Proof.Whole
import proofs.«116499_j36532991820656_1_alg».proof.Proof.HostRead
import proofs.«116499_j36532991820656_1_alg».proof.Proof.ScoresBridge
import proofs.«116499_j36532991820656_1_alg».proof.Proof.RefFold

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The reference's scores of this program's argument arrays. -/
abbrev refScores (c : Dev nD) : FVec Ideal S32x2048x1 .f32 :=
  Cert.ReferenceIdeal.Read.val_main_v15 (F := Ideal) (m ((c : Thread nD τ).loc main_arg0)) (m ((c : Thread nD τ).loc main_arg1))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The reference's attention weights of this program's argument arrays. -/
abbrev refWeights (c : Dev nD) : FVec Ideal S32x2048x1 .f32 :=
  Cert.ReferenceIdeal.Read.val_main_v26 (F := Ideal) (m ((c : Thread nD τ).loc main_arg0)) (m ((c : Thread nD τ).loc main_arg1))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The scores array, as the first region leaves it, is the reference's scores. -/
theorem scores_left (c : Dev nD) :
    (W2 (halves (F := Ideal)) m ρ c (Proc.devRef .tc main_v7) : FVec Ideal S32x2048x1 .f32) = refScores m c := by
  refine (W2_main_v7 (halves (F := Ideal)) m ρ c).trans ?_
  refine (final0 (V1 m ρ) Ideal.tanh scoreLaw_tanh c).trans ?_
  show scoresOf Ideal.tanh (W1 m ρ c (Proc.devRef .tc main_v6)) (W1 m ρ c (Proc.devRef .tc main_arg1)) (W1 m ρ c (Proc.devRef .tc main_v0))
      (W1 m ρ c (Proc.devRef .tc main_v3)) (W1 m ρ c (Proc.devRef .tc main_v1)) (W1 m ρ c (Proc.devRef .tc main_v4))
      (W1 m ρ c (Proc.devRef .tc main_v2)) (W1 m ρ c (Proc.devRef .tc main_v5)) = _
  rw [W1_main_v6 m ρ c, W1_main_arg1 m ρ c, W1_main_v0 m ρ c, W1_main_v3 m ρ c, W1_main_v1 m ρ c, W1_main_v4 m ρ c,
    W1_main_v2 m ρ c, W1_main_v5 m ρ c]
  exact scores_bridge _ _ _ _ _ _ _ _ _ _ _ _

/-- The attention weights, as the second region finds them (and as they end), are the reference's weights. -/
theorem weights_left (c : Dev nD) :
    (W3 (halves (F := Ideal)) m ρ c (Proc.devRef .tc main_v18) : FVec Ideal S32x2048x1 .f32) = refWeights m c := by
  refine (W3_main_v18 (halves (F := Ideal)) m ρ c).trans ?_
  rw [scores_left m ρ c]
  exact (Cert.ReferenceIdeal.RefValue.weights_eq_softmax _ _ _ _ _ _ _ _).symm

end Cert.KernelIdeal.Hand

end
-- ==== Proof.CtxPayload.lean ====
/-
  The context kernel's two stored values, read one element at a time over the extended reals.

  The accumulator is first filled with the zero word, which denotes the extended real 0.  At every grid
  point the kernel then stores, at lane d, the accumulator's old value at d plus the sum over the 512 rows r
  of the block of (weight of row r) * (value at row r, lane d): the weights arrive as a column [512, 1],
  are laid along the 1024 lanes, multiplied entrywise with the value block, and the product is summed
  over the row axis.  The reduction's own accumulator word is the neutral zero and leaves no term.
-/
import proofs.«116499_j36532991820656_1_alg».proof.Proof.Gen.KernelIdeal.Skeleton
import Idealize.ShloMosaic.Lib.ValueLayout
import Idealize.ShloMosaic.Lib.ValueIdx
import Idealize.ShloMosaic.PureOps.Ideal.Laws

noncomputable section

open scoped BigOperators

namespace Cert.KernelIdeal.Hand.CtxPay

open Idealize.ShloMosaic Idealize.ShloMosaic.ValueIdx Cert.KernelIdeal Cert.KernelIdeal.Gen

/-- A column [a, 1] laid along b lanes reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The value the accumulator is reset to is 0 at every lane. -/
theorem k1_pay1_apply (i : S1x1x1024.Idx) : k1_pay1 (F := Ideal) i = (0 : EReal) := by
  show Ideal.ofBits .f32 0x00000000#32 = 0
  exact Ideal.ofBits_zero_f32

/-- The weighted row sum of one block, at lane d: the product of the weight column laid along the lanes
    with the value block, summed over the 512 rows. -/
theorem rowsum_apply (v3 : Vec Ideal S1x512x1024 .f32) (v5 : Vec Ideal S1x512x1 .f32) (d : Fin 1024) :
    multiReduction (F := Ideal) .add [0] S1024
        (mulf (broadcastTo S512x1024 (shapeCast S512x1 v5 shapeCasts_S1x512x1_S512x1) broadcasts_S512x1_S512x1024)
          (shapeCast S512x1024 v3 shapeCasts_S1x512x1024_S512x1024))
        0x00000000#32 reduces_S512x1024_S1024 (.inl rfl) rfl (ix1 d)
      = ∑ r : Fin 512, v5 (ix3 (0 : Fin 1) r (0 : Fin 1)) * v3 (ix3 (0 : Fin 1) r d) := by
  refine (Ideal.multiReduction_add_single _ 0x00000000#32 reduces_S512x1024_S1024 (.inl rfl) rfl (ix1 d)).trans ?_
  show ∑ r : Fin 512, _ = _
  refine Finset.sum_congr rfl fun r _ => ?_
  have hl : (reduces_S512x1024_S1024.lift (ix1 d) r : S512x1024.Idx) = ix2 r d :=
    funext fun a => Fin.ext (by match a with | ⟨0, _⟩ => rfl | ⟨1, _⟩ => rfl)
  rw [hl]
  show broadcastTo S512x1024 (shapeCast S512x1 v5 shapeCasts_S1x512x1_S512x1) broadcasts_S512x1_S512x1024 (ix2 r d)
      * shapeCast S512x1024 v3 shapeCasts_S1x512x1024_S512x1024 (ix2 r d) = _
  rw [broadcastTo_a1_ab_apply, shapeCast_1ab_ab_apply, shapeCast_1ab_ab_apply]

/-- What every grid point stores into the accumulator, at lane d: the accumulator's old value there plus
    the block's weighted row sum. -/
theorem k1_pay2_apply (v3 : Vec Ideal S1x512x1024 .f32) (v5 : Vec Ideal S1x512x1 .f32)
    (v11 : Vec Ideal S1x1x1024 .f32) (d : Fin 1024) :
    k1_pay2 (F := Ideal) v3 v5 v11 (ix3 (0 : Fin 1) (0 : Fin 1) d)
      = v11 (ix3 (0 : Fin 1) (0 : Fin 1) d)
        + ∑ r : Fin 512, v5 (ix3 (0 : Fin 1) r (0 : Fin 1)) * v3 (ix3 (0 : Fin 1) r d) := by
  unfold k1_pay2
  refine (shapeCast_ab_1ab_apply _ shapeCasts_S1x1024_S1x1x1024 (0 : Fin 1) (0 : Fin 1) d).trans ?_
  refine (addf_apply _ _ _).trans ?_
  refine congrArg₂ (· + ·) ?_ ?_
  · exact shapeCast_1ab_ab_apply v11 shapeCasts_S1x1x1024_S1x1024 (0 : Fin 1) d
  · refine (shapeCast_a_1a_apply _ shapeCasts_S1024_S1x1024 (0 : Fin 1) d).trans ?_
    exact rowsum_apply v3 v5 d

end Cert.KernelIdeal.Hand.CtxPay

end
-- ==== Proof.CtxBlocks.lean ====
import proofs.«116499_j36532991820656_1_alg».proof.Proof.CtxRegion
import Idealize.ShloMosaic.Lib.Pipeline.Value
import Idealize.ShloMosaic.Lib.ValueIdx

/-!
# The context region: its blocks as parts of their arrays

The context region runs over the same 32 × 4 grid as the scores region: point `t` is batch row `t / 4` and
sequence tile `t % 4`. Its value block at `t` is value rows `512·(t % 4) … 512·(t % 4) + 511` of batch row
`t / 4`, its weight block is the attention weights of the same rows, and its output block is the context row of
batch row `t / 4`, written back at the last tile of the row (`t % 4 = 3`). The 32 blocks written back cover the
`[32, 1, 1024]` context array.
-/

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## The index maps, decided over the 128 grid points -/

/-- The value and weight windows are at block `(t / 4, t % 4, 0)`, the output window at block `(t / 4, 0, 0)`. -/
theorem index_ctx : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = t.val % 4 ∧ win1_1.index t (2 : Fin 3) = 0
    ∧ win1_2.index t (0 : Fin 3) = t.val / 4 ∧ win1_2.index t (1 : Fin 3) = 0 ∧ win1_2.index t (2 : Fin 3) = 0 :=
  (by decide +kernel : ∀ t : Fin grid1.N, _)

section CtxBlocks
-- the contents of the core's buffers at the moment the region is entered, in extended reals
variable (V : (c : Dev nD) → (b : Ref sig .tc) → Buf (Elt Ideal) ((c : Thread nD τ).loc b))

/-! ## The input blocks as parts of their arrays -/

/-- Row `r` of the value block at point `t` is value row `512·(t % 4) + r` of batch row `t / 4`. -/
theorem value_block (c : Dev nD) (t : Fin cfg1.N) (r : Fin 512) (d : Fin 1024) (b : Fin 32) (s : Fin 2048)
    (hb : b.val = t.val / 4) (hs : s.val = 512 * (t.val % 4) + r.val) :
    (iblk1 V c 0 t : Vec Ideal S1x512x1024 .f32) (ix3 0 r d) = (V c main_arg2 : FVec Ideal S32x2048x1024 .f32) (ix3 b s d) := by
  obtain ⟨e0, e1, e2, -⟩ := index_ctx t
  unfold iblk1
  rw [View.read_apply]
  show V c main_arg2 _ = V c main_arg2 _
  refine congrArg (V c main_arg2) ?_
  funext a; apply Fin.ext
  match a with
  | ⟨0, _⟩ => show win1_0.index t (0 : Fin 3) * 1 + 1 * 0 = b.val; omega
  | ⟨1, _⟩ => show win1_0.index t (1 : Fin 3) * 512 + 1 * r.val = s.val; omega
  | ⟨2, _⟩ => show win1_0.index t (2 : Fin 3) * 1024 + 1 * d.val = d.val; omega

/-- Row `r` of the weight block at point `t` is the attention weight of position `512·(t % 4) + r` of batch row `t / 4`. -/
theorem weight_block (c : Dev nD) (t : Fin cfg1.N) (r : Fin 512) (b : Fin 32) (s : Fin 2048)
    (hb : b.val = t.val / 4) (hs : s.val = 512 * (t.val % 4) + r.val) :
    (iblk1 V c 1 t : Vec Ideal S1x512x1 .f32) (ix3 0 r 0) = (V c main_v18 : FVec Ideal S32x2048x1 .f32) (ix3 b s 0) := by
  obtain ⟨-, -, -, e0, e1, e2, -⟩ := index_ctx t
  unfold iblk1
  rw [View.read_apply]
  show V c main_v18 _ = V c main_v18 _
  refine congrArg (V c main_v18) ?_
  funext a; apply Fin.ext
  match a with
  | ⟨0, _⟩ => show win1_1.index t (0 : Fin 3) * 1 + 1 * 0 = b.val; omega
  | ⟨1, _⟩ => show win1_1.index t (1 : Fin 3) * 512 + 1 * r.val = s.val; omega
  | ⟨2, _⟩ => show win1_1.index t (2 : Fin 3) * 1 + 1 * 0 = 0; omega

end CtxBlocks

/-! ## The output block as a part of the context array -/

/-- Any array of the context array's shape, read through point `t`'s output block at block index `y`, is the array at
    row `t / 4`, column `y 2`. -/
theorem ctx_block_read_at (t : Fin cfg1.N) (G : S32x1x1024.Idx → EReal) (y : S1x1x1024.Idx) (k : S32x1x1024.Idx)
    (hk0 : (k 0).val = t.val / 4) (hk1 : (k 1).val = 0) (hk2 : (k 2).val = (y 2).val) :
    (((cfg1.win 2).blk t).view.read (Elt Ideal) G : Vec Ideal S1x1x1024 .f32) y = G k := by
  obtain ⟨-, -, -, -, -, -, e0, e1, e2⟩ := index_ctx t
  have hy0 : (y 0).val < 1 := (y 0).isLt
  have hy1 : (y 1).val < 1 := (y 1).isLt
  rw [View.read_apply]
  show G _ = G k
  refine congrArg G ?_
  funext a; apply Fin.ext
  match a with
  | ⟨0, _⟩ => show win1_2.index t (0 : Fin 3) * 1 + 1 * (y 0).val = (k 0).val; omega
  | ⟨1, _⟩ => show win1_2.index t (1 : Fin 3) * 1 + 1 * (y 1).val = (k 1).val; omega
  | ⟨2, _⟩ => show win1_2.index t (2 : Fin 3) * 1024 + 1 * (y 2).val = (k 2).val; omega

/-- The same at block coordinate `(0, 0, d)`: it reads the array at `(t / 4, 0, d)`. -/
theorem ctx_block_read (t : Fin cfg1.N) (G : S32x1x1024.Idx → EReal) (d : Fin 1024) (b : Fin 32) (hb : b.val = t.val / 4) :
    (((cfg1.win 2).blk t).view.read (Elt Ideal) G : Vec Ideal S1x1x1024 .f32) (ix3 0 0 d) = G (ix3 b 0 d) :=
  ctx_block_read_at t G (ix3 0 0 d) (ix3 b 0 d) hb rfl rfl

/-- An index of the context array is in point `t`'s block iff each coordinate is in the block's range on its axis. -/
theorem mem_ctx_block (t : Fin cfg1.N) (i : S32x1x1024.Idx) :
    i ∈ ((cfg1.win 2).blk t).view.set ↔ ∀ a : Fin 3, win1_2.index t a * S1x1x1024.size a ≤ (i a).val ∧ (i a).val < win1_2.index t a * S1x1x1024.size a + S1x1x1024.size a := by
  show i ∈ ((View.whole main_v19).slice (win1_2.rect t)).set ↔ _
  rw [View.set_slice_whole, Rect.mem_set_unit]
  exact Iff.rfl

/-- Every index of the context array is in the block of a point that writes back: the last tile, `4·(i 0) + 3`, of
    batch row `i 0`. -/
theorem ctx_cover (i : S32x1x1024.Idx) : ∃ t : Fin cfg1.N, (cfg1.win 2).flush t = true ∧ i ∈ ((cfg1.win 2).blk t).view.set := by
  have hi0 : (i 0).val < 32 := (i 0).isLt
  have hi1 : (i 1).val < 1 := (i 1).isLt
  have hi2 : (i 2).val < 1024 := (i 2).isLt
  have hN : cfg1.N = 128 := N_1
  let t : Fin cfg1.N := ⟨4 * (i 0).val + 3, by omega⟩
  have ht : t.val = 4 * (i 0).val + 3 := rfl
  obtain ⟨-, -, -, -, -, -, e0, e1, e2⟩ := index_ctx t
  refine ⟨t, (flush1_2 t).mpr (by omega), ?_⟩
  rw [mem_ctx_block]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1 ≤ (i 1).val ∧ (i 1).val < win1_2.index t (1 : Fin 3) * 1 + 1; omega
  | ⟨2, _⟩ => show win1_2.index t (2 : Fin 3) * 1024 ≤ (i 2).val ∧ (i 2).val < win1_2.index t (2 : Fin 3) * 1024 + 1024; omega

end Cert.KernelIdeal.Hand

end
-- ==== Proof.CtxSpec.lean ====
/-
  The context the second kernel computes, as one function of the values and the attention weights: for batch `b`
  and feature `d`, a running total that starts at zero and takes on, one sequence tile of 512 rows at a time, the
  tile's sum of weight × value — the four tiles in order.
-/
import proofs.«116499_j36532991820656_1_alg».proof.Proof.Gen.KernelIdeal
import Idealize.ShloMosaic.Lib.ValueIdx
import Idealize.ShloMosaic.PureOps.Ideal

noncomputable section

open scoped BigOperators

namespace Cert.KernelIdeal.Hand

open Idealize.ShloMosaic Idealize.ShloMosaic.ValueIdx Cert.KernelIdeal

/-- Tile `j` of batch `b`, feature `d`: the sum over the tile's 512 rows of weight × value. -/
def ctxChunk (v : FVec Ideal S32x2048x1024 .f32) (w : FVec Ideal S32x2048x1 .f32) (b : Fin 32) (d : Fin 1024) (j : Fin 4) : EReal :=
  ∑ r : Fin 512, w (ix3 b (⟨512 * j.val + r.val, by have := j.isLt; have := r.isLt; omega⟩ : Fin 2048) (0 : Fin 1))
    * v (ix3 b (⟨512 * j.val + r.val, by have := j.isLt; have := r.isLt; omega⟩ : Fin 2048) d)

/-- The context array: zero, plus the four tiles' sums taken on in order. -/
def ctxOf (v : FVec Ideal S32x2048x1024 .f32) (w : FVec Ideal S32x2048x1 .f32) : S32x1x1024.Idx → EReal := fun i =>
  ((((0 : EReal) + ctxChunk v w ⟨(i 0).val, (i 0).isLt⟩ ⟨(i 2).val, (i 2).isLt⟩ 0)
      + ctxChunk v w ⟨(i 0).val, (i 0).isLt⟩ ⟨(i 2).val, (i 2).isLt⟩ 1)
    + ctxChunk v w ⟨(i 0).val, (i 0).isLt⟩ ⟨(i 2).val, (i 2).isLt⟩ 2)
  + ctxChunk v w ⟨(i 0).val, (i 0).isLt⟩ ⟨(i 2).val, (i 2).isLt⟩ 3

end Cert.KernelIdeal.Hand

end
-- ==== Proof.CtxValue.lean ====
/-
  The context region's value, over the extended reals: the array it leaves is `ctxOf` of the value array and the
  attention-weight array it reads.

  Along a row of four grid points the kernel's accumulator is zeroed and then, at every point, becomes itself plus the
  point's weighted block sum; the block at point `t` is sequence tile `t mod 4` of batch row `t / 4`. So after point `t`
  the accumulator holds, lane by lane, the running sum of row `t / 4` after its tile `t mod 4` (by induction on the
  point), the last point of a row stores that into the output block, and the 32 output blocks written back cover the
  context array.
-/
import proofs.«116499_j36532991820656_1_alg».proof.Proof.CtxRegion
import proofs.«116499_j36532991820656_1_alg».proof.Proof.CtxPayload
import proofs.«116499_j36532991820656_1_alg».proof.Proof.CtxBlocks
import proofs.«116499_j36532991820656_1_alg».proof.Proof.CtxSpec
import Idealize.ShloMosaic.Lib.Pipeline.Value
import Idealize.ShloMosaic.Lib.ValueIdx
import Idealize.ShloMosaic.Lib.Tactic

noncomputable section

open scoped BigOperators

namespace Cert.KernelIdeal.Hand

open Cert.KernelIdeal.Gen
open Idealize.ShloMosaic Idealize.ShloMosaic.TcCoe Idealize.ShloMosaic.Tactic Idealize.SL.Sem
open Idealize.ShloMosaic.Pipeline (Dat)
open Idealize.ShloMosaic.ValueIdx

/-! ## What each case's stores leave, as the stored value of the blocks (at any float instance) -/

section Pieces
variable {F : FTy → Type} [FloatOps F]

theorem hz3 : (![0, 0, 0] : Fin 3 → Nat) = fun _ => 0 := funext fun a => by fin_cases a <;> rfl

/-- A middle point leaves in the accumulator the stored value of its two blocks and of what the accumulator held. -/
theorem soutB_eq (c : Dev nD) (i : grid1.Coords) (arg2 : Memref sig .tc .vmem S1x512x1024 .f32) (harg2 : arg2.IsWhole) (arg3 : Memref sig .tc .vmem S1x512x1 .f32) (harg3 : arg3.IsWhole) (arg4 : Memref sig .tc .vmem S1x1x1024 .f32) (harg4 : arg4.IsWhole) (arg5 : Memref sig .tc .vmem S1x1x1024 .f32) (harg5 : arg5.IsWhole) (hc0 : ¬cond1_0 i) (hc1 : ¬cond1_1 i) (x0 : Vec F S1x512x1024 .f32) (x1 : Vec F S1x512x1 .f32) (xs0 : Vec F S1x1x1024 .f32) :
    sout1_B_0 c i arg2 harg2 arg3 harg3 arg4 harg4 arg5 harg5 hc0 hc1 x0 x1 xs0 = k1_pay2 x0 x1 xs0 := by
  unfold sout1_B_0
  rw [View.read_writes_eq_canon _ _ _ (scover1_B_0 c i arg2 harg2 arg3 harg3 arg4 harg4 arg5 harg5 hc0 hc1 x0 x1 xs0)]
  unfold kernelRun1_B
  dsimp only
  try sl_unfold_words
  rw [View.canon_unit_zero hz3]
  simp only [View.readAt_eq_ld, harg2.read_unread, harg3.read_unread, harg5.read_unread, View.ld_unit_zero (S := S1x512x1024) hz3, View.ld_unit_zero (S := S1x512x1) hz3, View.ld_unit_zero (S := S1x1x1024) hz3]

/-- So does a last point; -/
theorem soutC_eq (c : Dev nD) (i : grid1.Coords) (arg2 : Memref sig .tc .vmem S1x512x1024 .f32) (harg2 : arg2.IsWhole) (arg3 : Memref sig .tc .vmem S1x512x1 .f32) (harg3 : arg3.IsWhole) (arg4 : Memref sig .tc .vmem S1x1x1024 .f32) (harg4 : arg4.IsWhole) (arg5 : Memref sig .tc .vmem S1x1x1024 .f32) (harg5 : arg5.IsWhole) (hc0 : ¬cond1_0 i) (hc1 : cond1_1 i) (x0 : Vec F S1x512x1024 .f32) (x1 : Vec F S1x512x1 .f32) (xs0 : Vec F S1x1x1024 .f32) :
    sout1_C_0 c i arg2 harg2 arg3 harg3 arg4 harg4 arg5 harg5 hc0 hc1 x0 x1 xs0 = k1_pay2 x0 x1 xs0 := by
  unfold sout1_C_0
  rw [View.read_writes_eq_canon _ _ _ (scover1_C_0 c i arg2 harg2 arg3 harg3 arg4 harg4 arg5 harg5 hc0 hc1 x0 x1 xs0)]
  unfold kernelRun1_C
  dsimp only
  try sl_unfold_words
  rw [View.canon_unit_zero hz3]
  simp only [View.readAt_eq_ld, harg2.read_unread, harg3.read_unread, harg5.read_unread, View.ld_unit_zero (S := S1x512x1024) hz3, View.ld_unit_zero (S := S1x512x1) hz3, View.ld_unit_zero (S := S1x1x1024) hz3]

/-- and what it stores into the output block is that same value, read back from the accumulator. -/
theorem outC_eq (c : Dev nD) (i : grid1.Coords) (arg2 : Memref sig .tc .vmem S1x512x1024 .f32) (harg2 : arg2.IsWhole) (arg3 : Memref sig .tc .vmem S1x512x1 .f32) (harg3 : arg3.IsWhole) (arg4 : Memref sig .tc .vmem S1x1x1024 .f32) (harg4 : arg4.IsWhole) (arg5 : Memref sig .tc .vmem S1x1x1024 .f32) (harg5 : arg5.IsWhole) (hc0 : ¬cond1_0 i) (hc1 : cond1_1 i) (x0 : Vec F S1x512x1024 .f32) (x1 : Vec F S1x512x1 .f32) (xs0 : Vec F S1x1x1024 .f32) :
    out1_C_2 c i arg2 harg2 arg3 harg3 arg4 harg4 arg5 harg5 hc0 hc1 x0 x1 xs0 = k1_pay2 x0 x1 xs0 := by
  unfold out1_C_2
  rw [View.read_writes_eq_canon _ _ _ (cover1_C_2 c i arg2 harg2 arg3 harg3 arg4 harg4 arg5 harg5 hc0 hc1 x0 x1 xs0)]
  unfold kernelRun1_C
  dsimp only
  sl_unfold_words
  rw [View.canon_unit_zero hz3, View.readCov_unit_zero (S := S1x1x1024) _ hz3]
  simp only [View.readAt_eq_ld, harg2.read_unread, harg3.read_unread, harg5.read_unread, View.ld_unit_zero (S := S1x512x1024) hz3, View.ld_unit_zero (S := S1x512x1) hz3, View.ld_unit_zero (S := S1x1x1024) hz3]

/-- A first point leaves the stored value of its two blocks and of the zero block it has just written and read back. -/
theorem soutA_eq (c : Dev nD) (i : grid1.Coords) (arg2 : Memref sig .tc .vmem S1x512x1024 .f32) (harg2 : arg2.IsWhole) (arg3 : Memref sig .tc .vmem S1x512x1 .f32) (harg3 : arg3.IsWhole) (arg4 : Memref sig .tc .vmem S1x1x1024 .f32) (harg4 : arg4.IsWhole) (arg5 : Memref sig .tc .vmem S1x1x1024 .f32) (harg5 : arg5.IsWhole) (hc0 : cond1_0 i) (hc1 : ¬cond1_1 i) (x0 : Vec F S1x512x1024 .f32) (x1 : Vec F S1x512x1 .f32) :
    sout1_A_0 c i arg2 harg2 arg3 harg3 arg4 harg4 arg5 harg5 hc0 hc1 x0 x1 = k1_pay2 x0 x1 (k1_pay1 (F := F)) := by
  unfold sout1_A_0
  rw [View.read_writes_eq_canon _ _ _ (scover1_A_0 c i arg2 harg2 arg3 harg3 arg4 harg4 arg5 harg5 hc0 hc1 x0 x1)]
  unfold kernelRun1_A
  dsimp only
  sl_unfold_words
  rw [View.canon_cons_unit_zero (S := S1x1x1024) hz3, View.readCov_unit_zero (S := S1x1x1024) _ hz3]
  simp only [View.readAt_eq_ld, harg2.read_unread, harg3.read_unread, harg5.read_unread, View.ld_unit_zero (S := S1x512x1024) hz3, View.ld_unit_zero (S := S1x512x1) hz3, View.ld_unit_zero (S := S1x1x1024) hz3]

end Pieces

/-! ## The running sum along a row -/

/-- The running sum along a row after its tile `k`: zero plus the chunks of tiles `0 … k`, in order. -/
def ctxPart (v : FVec Ideal S32x2048x1024 .f32) (w : FVec Ideal S32x2048x1 .f32) (b : Fin 32) (d : Fin 1024) : (k : ℕ) → k < 4 → EReal
  | 0, h => (0 : EReal) + ctxChunk v w b d ⟨0, h⟩
  | k + 1, h => ctxPart v w b d k (by omega) + ctxChunk v w b d ⟨k + 1, h⟩

/-- At tile 0 it is zero plus the tile's chunk; -/
theorem ctxPart_of_zero (v : FVec Ideal S32x2048x1024 .f32) (w : FVec Ideal S32x2048x1 .f32) (b : Fin 32) (d : Fin 1024)
    (k : ℕ) (hk : k < 4) (hz : k = 0) : ctxPart v w b d k hk = (0 : EReal) + ctxChunk v w b d ⟨k, hk⟩ := by
  subst hz; rfl

/-- at a later tile, the running sum after the tile before plus the tile's chunk. -/
theorem ctxPart_of_pos (v : FVec Ideal S32x2048x1024 .f32) (w : FVec Ideal S32x2048x1 .f32) (b : Fin 32) (d : Fin 1024)
    (k : ℕ) (hk : k < 4) (hz : k ≠ 0) :
    ctxPart v w b d k hk = ctxPart v w b d (k - 1) (by omega) + ctxChunk v w b d ⟨k, hk⟩ := by
  cases k with
  | zero => exact absurd rfl hz
  | succ k => rfl

/-- It depends on the batch row and the tile only through their values. -/
theorem ctxPart_congr (v : FVec Ideal S32x2048x1024 .f32) (w : FVec Ideal S32x2048x1 .f32) (b b' : Fin 32) (d : Fin 1024)
    (k k' : ℕ) (hk : k < 4) (hk' : k' < 4) (hb : b.val = b'.val) (hkk : k = k') :
    ctxPart v w b d k hk = ctxPart v w b' d k' hk' := by
  obtain rfl := Fin.ext hb; subst hkk; rfl

/-- The context at an index is the running sum of its batch row after the fourth tile. -/
theorem ctxOf_eq_part (v : FVec Ideal S32x2048x1024 .f32) (w : FVec Ideal S32x2048x1 .f32) (i : S32x1x1024.Idx) :
    ctxOf v w i = ctxPart v w ⟨(i 0).val, (i 0).isLt⟩ ⟨(i 2).val, (i 2).isLt⟩ 3 (by omega) := rfl

/-! ## The accumulator after each point -/

/-- One block's weighted row sum at lane `d`: over the 512 rows, the row's weight times the row's value at the lane. -/
def rowSum (v3 : Vec Ideal S1x512x1024 .f32) (v5 : Vec Ideal S1x512x1 .f32) (d : Fin 1024) : EReal :=
  ∑ r : Fin 512, v5 (ix3 (0 : Fin 1) r (0 : Fin 1)) * v3 (ix3 (0 : Fin 1) r d)

/-- What every point stores into the accumulator, at lane `d`: the old value plus the block's weighted row sum. -/
theorem pay2_at (v3 : Vec Ideal S1x512x1024 .f32) (v5 : Vec Ideal S1x512x1 .f32) (v11 : Vec Ideal S1x1x1024 .f32) (d : Fin 1024) :
    k1_pay2 (F := Ideal) v3 v5 v11 (ix3 (0 : Fin 1) (0 : Fin 1) d) = v11 (ix3 (0 : Fin 1) (0 : Fin 1) d) + rowSum v3 v5 d :=
  CtxPay.k1_pay2_apply v3 v5 v11 d

/-- A block whose rows are rows `512 j … 512 j + 511` of batch row `b` of the two arrays has chunk `j` as its row sum. -/
theorem rowSum_eq_chunk (v3 : Vec Ideal S1x512x1024 .f32) (v5 : Vec Ideal S1x512x1 .f32)
    (v : FVec Ideal S32x2048x1024 .f32) (w : FVec Ideal S32x2048x1 .f32) (b : Fin 32) (j : Fin 4) (d : Fin 1024)
    (h3 : ∀ r : Fin 512, v3 (ix3 (0 : Fin 1) r d) = v (ix3 b ⟨512 * j.val + r.val, by omega⟩ d))
    (h5 : ∀ r : Fin 512, v5 (ix3 (0 : Fin 1) r (0 : Fin 1)) = w (ix3 b ⟨512 * j.val + r.val, by omega⟩ (0 : Fin 1))) :
    rowSum v3 v5 d = ctxChunk v w b d j := by
  unfold rowSum ctxChunk
  exact Finset.sum_congr rfl fun r _ => by rw [h3 r, h5 r]

variable (V : (c : Dev nD) → (b : Ref sig .tc) → Buf (Elt Ideal) ((c : Thread nD τ).loc b))

theorem ctxRow_lt (n : ℕ) (h : n < cfg1.N) : n / 4 < 32 := by have : cfg1.N = 128 := N_1; omega

/-- The block's row sum at point `t` is chunk `t mod 4` of batch row `t / 4`: the value block and the weight block at
    `t` are rows `512 (t mod 4) … + 511` of that batch row of the two arrays. -/
theorem chunk_at (c : Dev nD) (t : Fin cfg1.N) (d : Fin 1024) :
    rowSum (iblk1 V c 0 t) (iblk1 V c 1 t) d
      = ctxChunk (V c main_arg2) (V c main_v18) ⟨t.val / 4, ctxRow_lt t.val t.isLt⟩ d ⟨t.val % 4, Nat.mod_lt _ (by decide)⟩ :=
  rowSum_eq_chunk (iblk1 V c 0 t) (iblk1 V c 1 t) (V c main_arg2) (V c main_v18) ⟨t.val / 4, ctxRow_lt t.val t.isLt⟩ ⟨t.val % 4, Nat.mod_lt _ (by decide)⟩ d
    (fun r => value_block V c t r d ⟨t.val / 4, ctxRow_lt t.val t.isLt⟩ _ rfl rfl)
    (fun r => weight_block V c t r ⟨t.val / 4, ctxRow_lt t.val t.isLt⟩ _ rfl rfl)

/-- At a row's first point the accumulator ends, at lane `d`, at zero plus the block's row sum. -/
theorem acc_first (c : Dev nD) (t : Fin cfg1.N) (h0 : t.val % 4 = 0) (d : Fin 1024) :
    (outsAt1 (F := Ideal) V c t.val t.isLt).2 (ix3 (0 : Fin 1) (0 : Fin 1) d) = (0 : EReal) + rowSum (iblk1 V c 0 t) (iblk1 V c 1 t) d := by
  have h1 : ¬t.val % 4 = 3 := by omega
  rw [outsAt1_A V c t h0 h1]
  dsimp only
  refine (congrFun (soutA_eq (F := Ideal) c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) (ix3 (0 : Fin 1) (0 : Fin 1) d)).trans ?_
  refine (pay2_at (iblk1 V c 0 t) (iblk1 V c 1 t) (k1_pay1 (F := Ideal)) d).trans ?_
  rw [CtxPay.k1_pay1_apply]

/-- At any later point of a row it ends at what the point before left plus the block's row sum. -/
theorem acc_later (c : Dev nD) (t : Fin cfg1.N) (h0 : ¬t.val % 4 = 0) (d : Fin 1024) :
    (outsAt1 (F := Ideal) V c t.val t.isLt).2 (ix3 (0 : Fin 1) (0 : Fin 1) d)
      = (outsAt1 (F := Ideal) V c (t.val - 1) (Nat.lt_of_le_of_lt (Nat.sub_le _ _) t.isLt)).2 (ix3 (0 : Fin 1) (0 : Fin 1) d) + rowSum (iblk1 V c 0 t) (iblk1 V c 1 t) d := by
  by_cases h1 : t.val % 4 = 3
  · rw [outsAt1_C V c t h0 h1]
    dsimp only
    refine (congrFun (soutC_eq (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 (F := Ideal) V c (t.val - 1) (Nat.lt_of_le_of_lt (Nat.sub_le _ _) t.isLt)).2) (ix3 (0 : Fin 1) (0 : Fin 1) d)).trans ?_
    exact pay2_at (iblk1 V c 0 t) (iblk1 V c 1 t) (outsAt1 (F := Ideal) V c (t.val - 1) (Nat.lt_of_le_of_lt (Nat.sub_le _ _) t.isLt)).2 d
  · rw [outsAt1_B V c t h0 h1]
    dsimp only
    refine (congrFun (soutB_eq (F := Ideal) c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 (F := Ideal) V c (t.val - 1) (Nat.lt_of_le_of_lt (Nat.sub_le _ _) t.isLt)).2) (ix3 (0 : Fin 1) (0 : Fin 1) d)).trans ?_
    exact pay2_at (iblk1 V c 0 t) (iblk1 V c 1 t) (outsAt1 (F := Ideal) V c (t.val - 1) (Nat.lt_of_le_of_lt (Nat.sub_le _ _) t.isLt)).2 d

/-- At a row's last point the output block is stored with the accumulator's new contents. -/
theorem out_last (c : Dev nD) (t : Fin cfg1.N) (h0 : ¬t.val % 4 = 0) (h1 : t.val % 4 = 3) :
    (outsAt1 (F := Ideal) V c t.val t.isLt).1 = (outsAt1 (F := Ideal) V c t.val t.isLt).2 := by
  rw [outsAt1_C V c t h0 h1]
  dsimp only
  exact (outC_eq (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 (F := Ideal) V c (t.val - 1) (Nat.lt_of_le_of_lt (Nat.sub_le _ _) t.isLt)).2).trans
    (soutC_eq (F := Ideal) c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 (F := Ideal) V c (t.val - 1) (Nat.lt_of_le_of_lt (Nat.sub_le _ _) t.isLt)).2).symm

/-- THE INVARIANT, one lane at a time: after point `t` the accumulator holds, at lane `d`, the running sum of batch row
    `t / 4` after its tile `t mod 4`. By induction on the point. -/
theorem acc_apply (c : Dev nD) :
    ∀ (n : ℕ) (t : Fin cfg1.N), t.val = n → ∀ d : Fin 1024,
      (outsAt1 (F := Ideal) V c t.val t.isLt).2 (ix3 (0 : Fin 1) (0 : Fin 1) d)
        = ctxPart (V c main_arg2) (V c main_v18) ⟨t.val / 4, ctxRow_lt t.val t.isLt⟩ d (t.val % 4) (Nat.mod_lt _ (by decide)) := by
  intro n
  induction n with
  | zero =>
    intro t ht d
    have h0 : t.val % 4 = 0 := by omega
    rw [acc_first V c t h0 d, chunk_at V c t d]
    exact (ctxPart_of_zero _ _ _ _ _ _ h0).symm
  | succ n ih =>
    intro t ht d
    by_cases h0 : t.val % 4 = 0
    · rw [acc_first V c t h0 d, chunk_at V c t d]
      exact (ctxPart_of_zero _ _ _ _ _ _ h0).symm
    · rw [acc_later V c t h0 d, chunk_at V c t d, ctxPart_of_pos _ _ _ _ _ _ h0]
      refine congrArg (· + _) ?_
      have hlt : t.val - 1 < cfg1.N := Nat.lt_of_le_of_lt (Nat.sub_le _ _) t.isLt
      refine (ih ⟨t.val - 1, hlt⟩ (by show t.val - 1 = n; omega) d).trans ?_
      exact ctxPart_congr _ _ _ _ _ _ _ _ _ (by show (t.val - 1) / 4 = t.val / 4; omega) (by show (t.val - 1) % 4 = t.val % 4 - 1; omega)

/-! ## What a last point writes back, and the array after the region -/

/-- What a row's last point writes back to the context array is its block of `ctxOf` of the two arrays as the region
    finds them: at lane `d` the accumulator's new contents, the running sum of the row after its fourth tile. -/
theorem flushed_ctx (c : Dev nD) (t : Fin cfg1.N) (hf : (cfg1.win 2).flush t = true) :
    (dat1 (F := Ideal) V c).flushed 2 t = ((cfg1.win 2).blk t).view.read (Elt Ideal) (ctxOf (V c main_arg2) (V c main_v18)) := by
  have h3 : t.val % 4 = 3 := (flush1_2 t).mp hf
  have h0 : ¬t.val % 4 = 0 := by omega
  show (cfg1.win 2).cut (grid1.coords t) ((dat1 V c).after 2 t) = _
  rw [after1_2, out_last V c t h0 h3]
  refine funext fun (y : S1x1x1024.Idx) => ?_
  have hy0 : (y 0).val < 1 := (y 0).isLt
  have hy1 : (y 1).val < 1 := (y 1).isLt
  have hy : y = ix3 (0 : Fin 1) (0 : Fin 1) (⟨(y 2).val, (y 2).isLt⟩ : Fin 1024) := by
    funext a; apply Fin.ext
    match a with
    | ⟨0, _⟩ => show (y 0).val = 0; omega
    | ⟨1, _⟩ => show (y 1).val = 0; omega
    | ⟨2, _⟩ => rfl
  rw [hy]
  refine (acc_apply V c t.val t rfl _).trans ?_
  refine ((ctx_block_read t (ctxOf (V c main_arg2) (V c main_v18)) _ ⟨t.val / 4, ctxRow_lt t.val t.isLt⟩ rfl).trans ?_).symm
  rw [ctxOf_eq_part]
  exact ctxPart_congr _ _ _ _ _ _ _ _ _ rfl h3.symm

/-- THE CONTEXT ARRAY AFTER THE REGION: `ctxOf` of the value array and the weight array as the region finds them — the
    32 last points of the rows write back their blocks of it, and those blocks cover the array. -/
theorem final1 (c : Dev nD) :
    (dat1 (F := Ideal) V c).arrAt 2 cfg1.N = ctxOf (V c main_arg2) (V c main_v18) :=
  (dat1 (F := Ideal) V c).arrAt_eq_of_cover 2 (ctxOf (V c main_arg2) (V c main_v18)) (flushed_ctx V c) ctx_cover

end Cert.KernelIdeal.Hand

end
-- ==== Proof.RowChunks.lean ====
/-
  A sum over all rows, taken chunk by chunk.

  A sum over n * m rows is the sum, over the n chunks, of each chunk's sum over its m rows (row r of chunk j is
  row m * j + r).  An accumulator that starts at z and adds one chunk's sum per step therefore holds, after
  all n steps, z plus the sum over every row.  Only commutativity and associativity of + are used, so the
  laws hold in any additive commutative monoid, in particular on the extended reals with no finiteness
  assumption.  The instance used here: 2048 rows in four chunks of 512.
-/
import Idealize.ShloMosaic.PureOps.Ideal

noncomputable section

open scoped BigOperators

namespace Cert.KernelIdeal.Hand.RowChunks

variable {M : Type*} [AddCommMonoid M]

/-- Row r of chunk j lies inside the n * m rows. -/
theorem row_lt {n m : ℕ} (j : Fin n) (r : Fin m) : m * j.val + r.val < n * m := by
  have hj : j.val + 1 ≤ n := j.isLt
  calc m * j.val + r.val < m * j.val + m := Nat.add_lt_add_left r.isLt _
    _ = m * (j.val + 1) := by rw [Nat.mul_add, Nat.mul_one]
    _ ≤ m * n := Nat.mul_le_mul_left m hj
    _ = n * m := Nat.mul_comm m n

/-- A sum over n * m rows is the double sum over chunks and rows inside a chunk, for ANY way idx of naming
    row r of chunk j whose position is m * j + r. -/
theorem sum_chunks (n m : ℕ) (f : Fin (n * m) → M) (idx : Fin n → Fin m → Fin (n * m))
    (hidx : ∀ j r, (idx j r).val = m * j.val + r.val) :
    ∑ s : Fin (n * m), f s = ∑ j : Fin n, ∑ r : Fin m, f (idx j r) := by
  rw [← Equiv.sum_comp finProdFinEquiv f, Fintype.sum_prod_type]
  refine Finset.sum_congr rfl fun j _ => Finset.sum_congr rfl fun r _ => congrArg f (Fin.ext ?_)
  rw [hidx j r]
  show r.val + m * j.val = m * j.val + r.val
  exact Nat.add_comm _ _

/-- An accumulator that starts at z and adds c j at step j. -/
def accum (z : M) (c : ℕ → M) : ℕ → M
  | 0 => z
  | j + 1 => accum z c j + c j

/-- After n steps it holds z plus the first n terms. -/
theorem accum_eq (z : M) (c : ℕ → M) (n : ℕ) : accum z c n = z + ∑ j ∈ Finset.range n, c j := by
  induction n with
  | zero => simp [accum]
  | succ n ih => rw [accum, ih, Finset.sum_range_succ, add_assoc]

/-- Row r of chunk j of the 2048 rows cut in four chunks of 512. -/
def row (j : Fin 4) (r : Fin 512) : Fin 2048 := ⟨512 * j.val + r.val, row_lt (n := 4) (m := 512) j r⟩

theorem row_val (j : Fin 4) (r : Fin 512) : (row j r).val = 512 * j.val + r.val := rfl

/-- The sum over the 2048 rows is the sum of the four chunks' sums. -/
theorem sum_four_chunks (f : Fin 2048 → M) :
    ∑ s : Fin 2048, f s
      = (∑ r : Fin 512, f (row 0 r)) + (∑ r : Fin 512, f (row 1 r)) + (∑ r : Fin 512, f (row 2 r))
        + (∑ r : Fin 512, f (row 3 r)) := by
  have h := sum_chunks (M := M) 4 512 f row row_val
  rw [Fin.sum_univ_four] at h
  exact h

/-- Four accumulation steps from z, one chunk each, leave z plus the sum over all 2048 rows. -/
theorem acc_four_chunks (z : M) (f : Fin 2048 → M) :
    (((z + ∑ r : Fin 512, f (row 0 r)) + ∑ r : Fin 512, f (row 1 r)) + ∑ r : Fin 512, f (row 2 r))
        + ∑ r : Fin 512, f (row 3 r)
      = z + ∑ s : Fin 2048, f s := by
  rw [sum_four_chunks f]
  simp only [add_assoc]

end Cert.KernelIdeal.Hand.RowChunks

end
-- ==== Proof.RefContext.lean ====
/-
  The reference's context vector, read one element at a time over the extended reals, with the attention
  weights kept as one named stage.

  At batch b and feature d the context is 0 plus the sum, over the 2048 positions s, of
  (attention weight at (b, s)) * (value at (b, s, d)): the weights' column is laid along the features,
  multiplied entrywise with the values, and summed over the position axis from the initial value 0 (the zero
  word).  The softmax that makes the weights is never opened here.
-/
import proofs.«116499_j36532991820656_1_alg».proof.Proof.Gen.ReferenceIdeal.Read

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The reference's context at batch b and feature d, over the attention weights val_main_v26. -/
theorem context_apply (x0 : (⟨S32x1024, .f32⟩ : BufTy).Contents (Elt Ideal))
    (x1 x2 : (⟨S32x2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (x7 : (⟨S1024x1, .f32⟩ : BufTy).Contents (Elt Ideal))
    (x8 : (⟨S1, .f32⟩ : BufTy).Contents (Elt Ideal)) (b : Fin 32) (d : Fin 1024) :
    val_main_v30 (F := Ideal) x0 x1 x2 x3 x4 x5 x6 x7 x8 (ix3 b (0 : Fin 1) d)
      = 0 + ∑ s : Fin 2048,
          val_main_v26 (F := Ideal) x0 x1 x3 x4 x5 x6 x7 x8 (ix3 b s (0 : Fin 1)) * x2 (ix3 b s d) := by
  rw [val_main_v30_apply, val_main_v29_apply]
  refine congrArg₂ (· + ·) ?_ (Finset.sum_congr rfl fun s _ => ?_)
  · show Ideal.ofBits .f32 0x00000000#32 = 0
    exact Ideal.ofBits_zero_f32
  · have hi : idx_main_v29 (idx_main_v30 (ix3 b (0 : Fin 1) d)) s = ix3 b s d :=
      funext fun c => Fin.ext (by match c with | ⟨0, _⟩ => rfl | ⟨1, _⟩ => rfl | ⟨2, _⟩ => rfl)
    rw [hi, val_main_v28_apply, val_main_v27_apply]
    show _ * _ = _
    refine congrArg₂ (· * ·) (congrArg (val_main_v26 (F := Ideal) x0 x1 x3 x4 x5 x6 x7 x8) ?_) rfl
    exact funext fun c => Fin.ext (by match c with | ⟨0, _⟩ => rfl | ⟨1, _⟩ => rfl | ⟨2, _⟩ => rfl)

end Cert.ReferenceIdeal.RefValue

end
-- ==== Proof.CtxBridge.lean ====
/-
  The context function of the values and the reference's attention weights is the reference's context: the
  reference sums weight × value over all 2048 positions at once, from zero; four tiles of 512 taken on in order
  from zero give the same total, addition of extended reals being associative and commutative.
-/
import proofs.«116499_j36532991820656_1_alg».proof.Proof.CtxSpec
import proofs.«116499_j36532991820656_1_alg».proof.Proof.RowChunks
import proofs.«116499_j36532991820656_1_alg».proof.Proof.RefContext

noncomputable section

open scoped BigOperators

namespace Cert.KernelIdeal.Hand

open Idealize.ShloMosaic Idealize.ShloMosaic.ValueIdx Cert.KernelIdeal

/-- Over the reference's own weights, the tiled running total is the reference's sum over the sequence. -/
theorem ctx_bridge (x0 : FVec Ideal S32x1024 .f32) (x1 x2 : FVec Ideal S32x2048x1024 .f32) (x3 x5 : FVec Ideal S1024x1024 .f32)
    (x4 x6 : FVec Ideal S1024 .f32) (x7 : FVec Ideal S1024x1 .f32) (x8 : FVec Ideal S1 .f32) :
    ctxOf x2 (Cert.ReferenceIdeal.Read.val_main_v26 (F := Ideal) x0 x1 x3 x4 x5 x6 x7 x8)
      = Cert.ReferenceIdeal.Read.val_main_v30 (F := Ideal) x0 x1 x2 x3 x4 x5 x6 x7 x8 := by
  funext i
  have hi : i = ix3 (⟨(i 0).val, (i 0).isLt⟩ : Fin 32) (0 : Fin 1) (⟨(i 2).val, (i 2).isLt⟩ : Fin 1024) :=
    funext fun a => Fin.ext (by
      match a with
      | ⟨0, _⟩ => rfl
      | ⟨1, _⟩ => exact Nat.lt_one_iff.mp (i 1).isLt
      | ⟨2, _⟩ => rfl)
  conv_rhs => rw [hi]
  rw [Cert.ReferenceIdeal.RefValue.context_apply]
  exact RowChunks.acc_four_chunks (0 : EReal) (fun s : Fin 2048 =>
    Cert.ReferenceIdeal.Read.val_main_v26 (F := Ideal) x0 x1 x3 x4 x5 x6 x7 x8 (ix3 (⟨(i 0).val, (i 0).isLt⟩ : Fin 32) s (0 : Fin 1))
      * x2 (ix3 (⟨(i 0).val, (i 0).isLt⟩ : Fin 32) s (⟨(i 2).val, (i 2).isLt⟩ : Fin 1024)))

end Cert.KernelIdeal.Hand

end
-- ==== Proof.KernelContext.lean ====
/-
  The idealized kernel's run, read at its two results in the reference's terms.  The context array ends at what the
  second region's write-backs leave in it: the tiled running total of weight × value over the values as launched
  and the attention weights as the softmax stretch left them — the reference's weights — hence the reference's
  context.  The weights array is only read by the second region and ends as the softmax stretch left it.
-/
import proofs.«116499_j36532991820656_1_alg».proof.Proof.KernelScores
import proofs.«116499_j36532991820656_1_alg».proof.Proof.CtxValue
import proofs.«116499_j36532991820656_1_alg».proof.Proof.CtxBridge

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The reference's context of this program's argument arrays. -/
abbrev refContext (c : Dev nD) : FVec Ideal S32x1x1024 .f32 :=
  Cert.ReferenceIdeal.Read.val_main_v30 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

/-- What the second region's write-backs leave in the context array is the reference's context. -/
theorem context_left (c : Dev nD) :
    ((halves (F := Ideal)).D1 (V3 (halves (F := Ideal)) m ρ) c).arrAt 2 cfg1.N = refContext m c := by
  refine (final1 (V3 (halves (F := Ideal)) m ρ) c).trans ?_
  show ctxOf (W3 (halves (F := Ideal)) m ρ c (Proc.devRef .tc main_arg2)) (W3 (halves (F := Ideal)) m ρ c (Proc.devRef .tc main_v18)) = _
  rw [W3_main_arg2 (halves (F := Ideal)) m ρ c, weights_left m ρ c]
  exact ctx_bridge _ _ _ _ _ _ _ _ _

/-- Every weakly fair execution of the idealized kernel's program terminates with the context array at the
    reference's context, the weights array at the reference's weights, and every argument array as launched. -/
theorem value_run : θ_run defs (onTc (τ := τ) (main (F := Ideal))) ⟨m, fun _ => 0, ρ⟩ (fun r => ∀ c : Dev nD,
      r.2.mem ((c.tc : Thread nD τ).loc main_v19) = refContext m c
      ∧ r.2.mem ((c.tc : Thread nD τ).loc main_v18) = refWeights m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_v19 (by decide))).trans ((W4_main_v19 (halves (F := Ideal)) m ρ c).trans (context_left m ρ c)),
     (h c _ (mem_uc main_v18 (by decide))).trans ((W4_main_v18 (halves (F := Ideal)) m ρ c).trans (weights_left m ρ c)),
     (h c _ (mem_uc main_arg0 (by decide))).trans (W4_main_arg0 (halves (F := Ideal)) m ρ c),
     (h c _ (mem_uc main_arg1 (by decide))).trans (W4_main_arg1 (halves (F := Ideal)) m ρ c),
     (h c _ (mem_uc main_arg2 (by decide))).trans (W4_main_arg2 (halves (F := Ideal)) m ρ c),
     (h c _ (mem_uc main_arg3 (by decide))).trans (W4_main_arg3 (halves (F := Ideal)) m ρ c),
     (h c _ (mem_uc main_arg4 (by decide))).trans (W4_main_arg4 (halves (F := Ideal)) m ρ c),
     (h c _ (mem_uc main_arg5 (by decide))).trans (W4_main_arg5 (halves (F := Ideal)) m ρ c),
     (h c _ (mem_uc main_arg6 (by decide))).trans (W4_main_arg6 (halves (F := Ideal)) m ρ c),
     (h c _ (mem_uc main_arg7 (by decide))).trans (W4_main_arg7 (halves (F := Ideal)) m ρ c),
     (h c _ (mem_uc main_arg8 (by decide))).trans (W4_main_arg8 (halves (F := Ideal)) m ρ c)⟩)
    (run_all (halves (F := Ideal)) m ρ)

end Cert.KernelIdeal.Hand

end
-- ==== Proof.lean ====
/-
  The certificate of an additive-attention kernel against its plain reference, on the extended reals.

  The kernel is two tiled regions around a softmax.  The first scores every key position of a 512-row tile against
  the batch's query — a query-side product plus bias, a key-side product plus bias, tanh, a product with the scoring
  vector, a scalar bias — and stores the tile of scores.  The host takes the softmax of the scores along the
  sequence.  The second keeps, per batch, a running total of weight × value over the four sequence tiles in a
  scratch buffer and writes it out at the last tile.  The reference does the same with whole-array operations: the
  same three products (a change of float format on the way into a product is the identity on the extended reals),
  the same softmax chain, and one sum over all 2048 positions, which four tiles taken on in order from zero also
  give, addition of extended reals being associative and commutative.  No finiteness of the inputs is used.

  Frames: both kernel programs are runs of four segments whose last buffer contents keep every argument array; the
  reference is a straight line of host operations.  The ideal pass rewrote nothing, so the idealization claim is
  trivial.
-/
import proofs.«116499_j36532991820656_1_alg».proof.Defs
import proofs.«116499_j36532991820656_1_alg».proof.Proof.Frames
import proofs.«116499_j36532991820656_1_alg».proof.Proof.KernelContext
import proofs.«116499_j36532991820656_1_alg».proof.Proof.Gen.Kernel
import proofs.«116499_j36532991820656_1_alg».proof.Proof.Gen.KernelIdeal
import proofs.«116499_j36532991820656_1_alg».proof.Proof.Gen.ReferenceIdeal
import proofs.«116499_j36532991820656_1_alg».proof.Proof.Gen.Pre_finite_inputs

noncomputable section

namespace Cert.Proof

open Idealize.ShloMosaic Idealize.SL.Sem

/-- The two idealized programs, run from memories that agree on the arguments, both end with the context array at
    the reference's context of those arguments and the weights array at the reference's weights of them. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.refContext m c, fun c => Cert.KernelIdeal.Hand.refWeights m c,
    Cert.KernelIdeal.Hand.value_run m ρ, ?_⟩
  refine (θ_run Cert.ReferenceIdeal.defs _ _).mono (fun _ h c => ?_) (Cert.ReferenceIdeal.Value.run (F := Ideal) m' ρ')
  obtain ⟨h30, h26, hargs⟩ := h c
  obtain ⟨a0, a1, a2, a3, a4, a5, a6, a7, a8⟩ := hagree c
  refine ⟨h30.trans ?_, h26.trans ?_, hargs⟩
  · rw [Cert.ReferenceIdeal.Read.val_main_v30_eq, a0, a1, a2, a3, a4, a5, a6, a7, a8]
  · rw [Cert.ReferenceIdeal.Read.val_main_v26_eq, a0, a1, a3, a4, a5, a6, a7, a8]

theorem claim : Cert.Claim :=
  ⟨Cert.Kernel.Gen.facts, Cert.KernelIdeal.Gen.facts, Cert.ReferenceIdeal.Gen.facts, Cert.Pre_finite_inputs.Gen.facts,
    Cert.Proof.Frames.frame_kernel, Cert.Proof.Frames.frame_kernelIdeal, Cert.Proof.Frames.frame_referenceIdeal,
    trivial, algebraic⟩

end Cert.Proof

end
